-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S4x1024 : Shape := ⟨2, ![4, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_arg6 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x1024x1024 .f32) (main_arg1 : IVec S4x1024 1) (main_arg2 : FVec F S3072x1024 .f32) (main_arg3 : FVec F S1024x1024 .f32) (main_arg4 : FVec F S1024 .f32) (main_arg5 : FVec F S1024 .f32) (main_arg6 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S3072x1024 .f32 := Host.absf main_arg2
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_v13 main_v16
-- ==== Kernel.lean ====
abbrev S4x1024x1024 : Shape := ⟨3, ![4, 1024, 1024]⟩
abbrev S4x1024 : Shape := ⟨2, ![4, 1024]⟩
abbrev S3072x1024 : Shape := ⟨2, ![3072, 1024]⟩
abbrev S1024x1024 : Shape := ⟨2, ![1024, 1024]⟩
abbrev S1024 : Shape := ⟨1, ![1024]⟩
abbrev S16x64x1024 : Shape := ⟨3, ![16, 64, 1024]⟩
abbrev S16x1024x64 : Shape := ⟨3, ![16, 1024, 64]⟩
abbrev S_ : Shape := ⟨0, ![]⟩
abbrev S4x1x1024 : Shape := ⟨3, ![4, 1, 1024]⟩
abbrev S1x1024x1024 : Shape := ⟨3, ![1, 1024, 1024]⟩
abbrev S1x1024x64 : Shape := ⟨3, ![1, 1024, 64]⟩
abbrev S1x64x1024 : Shape := ⟨3, ![1, 64, 1024]⟩
abbrev S1x1x1024 : Shape := ⟨3, ![1, 1, 1024]⟩
abbrev S1024x64 : Shape := ⟨2, ![1024, 64]⟩
abbrev S1x1024 : Shape := ⟨2, ![1, 1024]⟩
abbrev S1024x1 : Shape := ⟨2, ![1024, 1]⟩
abbrev S64x1024 : Shape := ⟨2, ![64, 1024]⟩

abbrev nBuf : Space → Nat
  | .hbm => 30
  | .vmem => 17
  | .smem => 0
  | _ => 0

abbrev bufTy : (tb : Table) → Fin (tcTables nBuf tb) → BufTy
  | .hbm, ⟨0, _⟩ => ⟨S4x1024x1024, .f32⟩
  | .hbm, ⟨1, _⟩ => ⟨S4x1024, .i1⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S16x64x1024, .f32⟩
  | .hbm, ⟨11, _⟩ => ⟨S16x1024x64, .f32⟩
  | .hbm, ⟨12, _⟩ => ⟨S16x1024x64, .bf16⟩
  | .hbm, ⟨13, _⟩ => ⟨S16x64x1024, .f32⟩
  | .hbm, ⟨14, _⟩ => ⟨S16x1024x64, .f32⟩
  | .hbm, ⟨15, _⟩ => ⟨S16x1024x64, .bf16⟩
  | .hbm, ⟨16, _⟩ => ⟨S16x64x1024, .f32⟩
  | .hbm, ⟨17, _⟩ => ⟨S16x1024x64, .f32⟩
  | .hbm, ⟨18, _⟩ => ⟨S16x1024x64, .bf16⟩
  | .hbm, ⟨19, _⟩ => ⟨S1024x1024, .f32⟩
  | .hbm, ⟨20, _⟩ => ⟨S16x64x1024, .f32⟩
  | .hbm, ⟨21, _⟩ => ⟨S16x64x1024, .bf16⟩
  | .hbm, ⟨22, _⟩ => ⟨S_, .f32⟩
  | .hbm, ⟨23, _⟩ => ⟨S_, .f32⟩
  | .hbm, ⟨24, _⟩ => ⟨S4x1024, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S4x1x1024, .f32⟩
  | .hbm, ⟨29, _⟩ => ⟨S4x1024x1024, .f32⟩
  | .local _ .vmem, ⟨0, _⟩ => ⟨S1x1024x1024, .f32⟩
  | .local _ .vmem, ⟨1, _⟩ => ⟨S1x1024x64, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x1024x64, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x64x1024, .bf16⟩
  | .local _ .vmem, ⟨8, _⟩ => ⟨S1x64x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1024, .f32⟩
  | .local _ .vmem, ⟨12, _⟩ => ⟨S1024, .f32⟩
  | .local _ .vmem, ⟨13, _⟩ => ⟨S1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v45 : BitVec 1 := Scalar.cmpi .eq arg1 c15_i32
  let v46 : BitVec 32 := Scalar.extui v45
  let c0_i32_30 : BitVec 32 := 0#32
  let v47 : BitVec 1 := Scalar.cmpi .ne v46 c0_i32_30
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  shapeCasts_S1024x1024_S16x64x1024 : S1024x1024.ShapeCasts S16x64x1024
  transposes_S16x64x1024_S16x1024x64_0_2_1 : S16x64x1024.Transposes [0, 2, 1] S16x1024x64
  bitsLt_bf16_f32 : FTy.bits .bf16 < FTy.bits .f32
  transposes_S1024x1024_S1024x1024_1_0 : S1024x1024.Transposes [1, 0] S1024x1024
  bcast_S_S4x1024 : S_.BroadcastsInDim S4x1024 (![] : Fin 0 → Fin S4x1024.rank)
  bcast_S4x1024_S4x1x1024_0_2 : S4x1024.BroadcastsInDim S4x1x1024 (![0, 2] : Fin 2 → Fin S4x1x1024.rank)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  shapeCasts_S1024x1024_S1x1024x1024 : S1024x1024.ShapeCasts S1x1024x1024
  dot_S1024x1024_S1024x64_S1024x64_1_0_0_1_n_n_wf : DotDims.WF S1024x1024 S1024x64 S1024x64 [1] [0] [0] [1] [] []
  dot_S1024x64_S1024x64_S1024x1024_1_1_0_0_n_n_wf : DotDims.WF S1024x64 S1024x64 S1024x1024 [1] [1] [0] [0] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x1024x1024.size a
  hwx0_0 : ∀ i : grid0.Coords, EltTy.bits .f32 = 32 ∨ (Rect.block (s := S4x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x1024x64.size a
  hwx0_1 : ∀ i : grid0.Coords, EltTy.bits .bf16 = 32 ∨ (Rect.block (s := S16x1024x64) S1x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S16x1024x64.size a
  hwx0_2 : ∀ i : grid0.Coords, EltTy.bits .bf16 = 32 ∨ (Rect.block (s := S16x1024x64) S1x1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S16x1024x64.size a
  hwx0_3 : ∀ i : grid0.Coords, EltTy.bits .bf16 = 32 ∨ (Rect.block (s := S16x1024x64) S1x1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1024.size a ≤ S16x64x1024.size a
  hwx0_4 : ∀ i : grid0.Coords, EltTy.bits .bf16 = 32 ∨ (Rect.block (s := S16x64x1024) S1x64x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S4x1x1024.size a
  hwx0_5 : ∀ i : grid0.Coords, EltTy.bits .f32 = 32 ∨ (Rect.block (s := S4x1x1024) S1x1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x1024.size a ≤ S4x1024x1024.size a
  hwx0_9 : ∀ i : grid0.Coords, EltTy.bits .f32 = 32 ∨ (Rect.block (s := S4x1024x1024) S1x1024x1024.size (cc0_transform_9 i) (hinb0_9 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x1024x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4x1024x1024 : Shape := ⟨3, ![4, 1024, 1024]⟩
abbrev S4x1024 : Shape := ⟨2, ![4, 1024]⟩
abbrev S3072x1024 : Shape := ⟨2, ![3072, 1024]⟩
abbrev S1024x1024 : Shape := ⟨2, ![1024, 1024]⟩
abbrev S1024 : Shape := ⟨1, ![1024]⟩
abbrev S4x1024x3072 : Shape := ⟨3, ![4, 1024, 3072]⟩
abbrev S4x1024x16x64 : Shape := ⟨4, ![4, 1024, 16, 64]⟩
abbrev S4x16x1024x64 : Shape := ⟨4, ![4, 16, 1024, 64]⟩
abbrev S4x16x1024x1024 : Shape := ⟨4, ![4, 16, 1024, 1024]⟩
abbrev S_ : Shape := ⟨0, ![]⟩
abbrev S4x1x1x1024 : Shape := ⟨4, ![4, 1, 1, 1024]⟩
abbrev S4x16x1024 : Shape := ⟨3, ![4, 16, 1024]⟩
abbrev S4x16x1024x1 : Shape := ⟨4, ![4, 16, 1024, 1]⟩
abbrev S1x1x1024 : Shape := ⟨3, ![1, 1, 1024]⟩
abbrev S4x1024x1 : Shape := ⟨3, ![4, 1024, 1]⟩

abbrev nBuf : Space → Nat
  | .hbm => 92
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024, .i1⟩
  | .hbm, ⟨2, _⟩ => ⟨S3072x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4x1024x3072, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S4x1024x16x64, .f32⟩
  | .hbm, ⟨12, _⟩ => ⟨S4x16x1024x64, .f32⟩
  | .hbm, ⟨13, _⟩ => ⟨S4x1024x16x64, .f32⟩
  | .hbm, ⟨14, _⟩ => ⟨S4x16x1024x64, .f32⟩
  | .hbm, ⟨15, _⟩ => ⟨S4x1024x16x64, .f32⟩
  | .hbm, ⟨16, _⟩ => ⟨S4x16x1024x64, .f32⟩
  | .hbm, ⟨17, _⟩ => ⟨S4x16x1024x1024, .f32⟩
  | .hbm, ⟨18, _⟩ => ⟨S_, .f32⟩
  | .hbm, ⟨19, _⟩ => ⟨S4x16x1024x1024, .f32⟩
  | .hbm, ⟨20, _⟩ => ⟨S4x16x1024x1024, .f32⟩
  | .hbm, ⟨21, _⟩ => ⟨S4x1x1x1024, .i1⟩
  | .hbm, ⟨22, _⟩ => ⟨S_, .f32⟩
  | .hbm, ⟨23, _⟩ => ⟨S_, .f32⟩
  | .hbm, ⟨24, _⟩ => ⟨S4x16x1024x1024, .i1⟩
  | .hbm, ⟨25, _⟩ => ⟨S4x16x1024x1024, .f32⟩
  | .hbm, ⟨26, _⟩ => ⟨S4x16x1024x1024, .f32⟩
  | .hbm, ⟨27, _⟩ => ⟨S_, .f32⟩
  | .hbm, ⟨28, _⟩ => ⟨S4x16x1024, .f32⟩
  | .hbm, ⟨29, _⟩ => ⟨S_, .f32⟩
  | .hbm, ⟨30, _⟩ => ⟨S4x16x1024, .f32⟩
  | .hbm, ⟨31, _⟩ => ⟨S4x16x1024, .f32⟩
  | .hbm, ⟨32, _⟩ => ⟨S4x16x1024x1, .f32⟩
  | .hbm, ⟨33, _⟩ => ⟨S4x16x1024x1024, .f32⟩
  | .hbm, ⟨34, _⟩ => ⟨S4x16x1024x1024, .f32⟩
  | .hbm, ⟨35, _⟩ => ⟨S4x16x1024x1024, .f32⟩
  | .hbm, ⟨36, _⟩ => ⟨S_, .f32⟩
  | .hbm, ⟨37, _⟩ => ⟨S4x16x1024, .f32⟩
  | .hbm, ⟨38, _⟩ => ⟨S4x16x1024x1, .f32⟩
  | .hbm, ⟨39, _⟩ => ⟨S4x16x1024x1024, .f32⟩
  | .hbm, ⟨40, _⟩ => ⟨S4x16x1024x1024, .f32⟩
  | .hbm, ⟨41, _⟩ => ⟨S4x16x1024x64, .f32⟩
  | .hbm, ⟨42, _⟩ => ⟨S4x1024x16x64, .f32⟩
  | .hbm, ⟨43, _⟩ => ⟨S4x1024x1024, .f32⟩
  | .hbm, ⟨44, _⟩ => ⟨S4x1024x1024, .f32⟩
  | .hbm, ⟨45, _⟩ => ⟨S1x1x1024, .f32⟩
  | .hbm, ⟨46, _⟩ => ⟨S4x1024x1024, .f32⟩
  | .hbm, ⟨47, _⟩ => ⟨S4x1024x1024, .f32⟩
  | .hbm, ⟨48, _⟩ => ⟨S_, .f32⟩
  | .hbm, ⟨49, _⟩ => ⟨S4x1024, .f32⟩
  | .hbm, ⟨50, _⟩ => ⟨S4x1024x1, .f32⟩
  | .hbm, ⟨51, _⟩ => ⟨S_, .f32⟩
  | .hbm, ⟨52, _⟩ => ⟨S4x1024x1, .f32⟩
  | .hbm, ⟨53, _⟩ => ⟨S4x1024x1, .f32⟩
  | .hbm, ⟨54, _⟩ => ⟨S_, .i32⟩
  | .hbm, ⟨55, _⟩ => ⟨S_, .f32⟩
  | .hbm, ⟨56, _⟩ => ⟨S4x1024, .f32⟩
  | .hbm, ⟨57, _⟩ => ⟨S4x1024x1, .f32⟩
  | .hbm, ⟨58, _⟩ => ⟨S_, .f32⟩
  | .hbm, ⟨59, _⟩ => ⟨S4x1024x1, .f32⟩
  | .hbm, ⟨60, _⟩ => ⟨S4x1024x1, .f32⟩
  | .hbm, ⟨61, _⟩ => ⟨S4x1024x1024, .f32⟩
  | .hbm, ⟨62, _⟩ => ⟨S4x1024x1024, .f32⟩
  | .hbm, ⟨63, _⟩ => ⟨S4x1024x1024, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4x1024, .f32⟩
  | .hbm, ⟨69, _⟩ => ⟨S4x1024x1, .f32⟩
  | .hbm, ⟨70, _⟩ => ⟨S4x1024x1, .f32⟩
  | .hbm, ⟨71, _⟩ => ⟨S4x1024x1, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S4x1024x1, .f32⟩
  | .hbm, ⟨77, _⟩ => ⟨S4x1024x1, .f32⟩
  | .hbm, ⟨78, _⟩ => ⟨S4x1024x1024, .f32⟩
  | .hbm, ⟨79, _⟩ => ⟨S4x1024x1024, .f32⟩
  | .hbm, ⟨80, _⟩ => ⟨S_, .f32⟩
  | .hbm, ⟨81, _⟩ => ⟨S4x1024x1, .f32⟩
  | .hbm, ⟨82, _⟩ => ⟨S4x1024x1, .f32⟩
  | .hbm, ⟨83, _⟩ => ⟨S4x1024x1, .f32⟩
  | .hbm, ⟨84, _⟩ => ⟨S4x1024x1024, .f32⟩
  | .hbm, ⟨85, _⟩ => ⟨S4x1024x1024, .f32⟩
  | .hbm, ⟨86, _⟩ => ⟨S1x1x1024, .f32⟩
  | .hbm, ⟨87, _⟩ => ⟨S4x1024x1024, .f32⟩
  | .hbm, ⟨88, _⟩ => ⟨S4x1024x1024, .f32⟩
  | .hbm, ⟨89, _⟩ => ⟨S1x1x1024, .f32⟩
  | .hbm, ⟨90, _⟩ => ⟨S4x1024x1024, .f32⟩
  | .hbm, ⟨91, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_c : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_cst_3 : Ref sig .tc := ⟨.hbm, 72, rfl⟩
abbrev main_call1_v13 : Ref sig .tc := ⟨.hbm, 73, rfl⟩
abbrev main_call1_cst_4 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_6 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩

abbrev nD : Nat := 1
abbrev τ : Topo := Topo.v7x

variable {F : FTy → Type} [FloatOps F]

class Facts₀ : Prop where
  slices_S4x1024x3072_S4x1024x1024_0_0_0 : S4x1024x3072.Slices ![0, 0, 0] S4x1024x1024
  slices_S4x1024x3072_S4x1024x1024_0_0_1024 : S4x1024x3072.Slices ![0, 0, 1024] S4x1024x1024
  slices_S4x1024x3072_S4x1024x1024_0_0_2048 : S4x1024x3072.Slices ![0, 0, 2048] S4x1024x1024
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  bcast_S_S4x16x1024x1024 : S_.BroadcastsInDim S4x16x1024x1024 (![] : Fin 0 → Fin S4x16x1024x1024.rank)
  bcast_S4x1024_S4x1x1x1024_0_3 : S4x1024.BroadcastsInDim S4x1x1x1024 (![0, 3] : Fin 2 → Fin S4x1x1x1024.rank)
  bcast_S4x1x1x1024_S4x16x1024x1024_0_1_2_3 : S4x1x1x1024.BroadcastsInDim S4x16x1024x1024 (![0, 1, 2, 3] : Fin 4 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  reducesTo_S4x1024x1024_S4x1024_d2 : S4x1024x1024.ReducesTo [2] S4x1024
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x1024_0_1_2 : S4x1024x1.BroadcastsInDim S4x1024x1024 (![0, 1, 2] : Fin 3 → Fin S4x1024x1024.rank)
  dot_S4x1024x1024_S3072x1024_S4x1024x3072_2_1_01_0_n_n_wf : DotDims.WF S4x1024x1024 S3072x1024 S4x1024x3072 [2] [1] [0, 1] [0] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]
  dot_S4x1024x1024_S1024x1024_S4x1024x1024_2_1_01_0_n_n_wf : DotDims.WF S4x1024x1024 S1024x1024 S4x1024x1024 [2] [1] [0, 1] [0] [] []

variable [Facts₀]

def dot_S4x1024x1024_S3072x1024_S4x1024x3072_2_1_01_0_n_n : DotDims S4x1024x1024 S3072x1024 S4x1024x3072 where
  lhsContracting := [2]
  rhsContracting := [1]
  lhsNonContracting := [0, 1]
  rhsNonContracting := [0]
  lhsBatch := []
  rhsBatch := []
  wf := dot_S4x1024x1024_S3072x1024_S4x1024x3072_2_1_01_0_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf
def dot_S4x1024x1024_S1024x1024_S4x1024x1024_2_1_01_0_n_n : DotDims S4x1024x1024 S1024x1024 S4x1024x1024 where
  lhsContracting := [2]
  rhsContracting := [1]
  lhsNonContracting := [0, 1]
  rhsNonContracting := [0]
  lhsBatch := []
  rhsBatch := []
  wf := dot_S4x1024x1024_S1024x1024_S4x1024x1024_2_1_01_0_n_n_wf

class Facts : Prop extends Facts₀ where

variable [Facts]
-- ==== Proof.RefTerm.lean ====
/-
  The reference program's result as ONE pure term of its seven arguments.

  `out` composes the operations of the reference's @main in the order the program lists them, one named
  intermediate per operation: the fused projection (a matrix product with the 3072-row weight), its three slices
  (query, key, value), each split into 16 heads of 64 lanes and transposed to head-major; the scaled scores, the key
  mask applied as a select against -∞, the row maximum, the exponentials, their row sums and the quotient (the
  softmax); the weighted sum of the values, the heads joined back into 1024 features; the output product plus the
  bias; the row mean, the row variance (the mean of the squared deviations, divided by 1024 - 0 and kept only when
  that divisor is positive), the reciprocal square root of the variance plus ε, and the scale and shift.

  The three functions the program calls are written out where they are called: the intermediates `c0_…` are the
  masking select's, `c1_…` the variance's, `c1c0_…` the select inside the variance.
-/
import proofs.«144366_j37933151158411_2_alg».proof.ReferenceIdeal
import proofs.«144366_j37933151158411_2_alg».proof.Proof.Gen.ReferenceIdeal

noncomputable section

namespace Cert.ReferenceIdeal.RefTerm

open Cert.ReferenceIdeal Cert.ReferenceIdeal.Gen Idealize.ShloMosaic Idealize.SL.Sem

variable {F : FTy → Type} [FloatOps F]

/-- The reference's result from its arguments' contents: the activations `a0`, the key mask `a1`, the fused
    projection weight `a2`, the output weight `a3`, its bias `a4`, and the layer norm's scale `a5` and shift `a6`. -/
noncomputable def out (a0 : (⟨S4x1024x1024, .f32⟩ : BufTy).Contents (Elt F)) (a1 : (⟨S4x1024, .i1⟩ : BufTy).Contents (Elt F))
    (a2 : (⟨S3072x1024, .f32⟩ : BufTy).Contents (Elt F)) (a3 : (⟨S1024x1024, .f32⟩ : BufTy).Contents (Elt F))
    (a4 a5 a6 : (⟨S1024, .f32⟩ : BufTy).Contents (Elt F)) : (⟨S4x1024x1024, .f32⟩ : BufTy).Contents (Elt F) :=
  have v0 : (⟨S4x1024x3072, .f32⟩ : BufTy).Contents (Elt F) := Host.dotGeneral dot_S4x1024x1024_S3072x1024_S4x1024x3072_2_1_01_0_n_n none a0 a2
  have v1 : (⟨S4x1024x1024, .f32⟩ : BufTy).Contents (Elt F) := extractStridedSlice S4x1024x1024 ![0, 0, 0] v0 slices_S4x1024x3072_S4x1024x1024_0_0_0
  have v2 : (⟨S4x1024x1024, .f32⟩ : BufTy).Contents (Elt F) := extractStridedSlice S4x1024x1024 ![0, 0, 1024] v0 slices_S4x1024x3072_S4x1024x1024_0_0_1024
  have v3 : (⟨S4x1024x1024, .f32⟩ : BufTy).Contents (Elt F) := extractStridedSlice S4x1024x1024 ![0, 0, 2048] v0 slices_S4x1024x3072_S4x1024x1024_0_0_2048
  have v4 : (⟨S4x1024x16x64, .f32⟩ : BufTy).Contents (Elt F) := shapeCast S4x1024x16x64 v1 shapeCasts_S4x1024x1024_S4x1024x16x64
  have v5 : (⟨S4x16x1024x64, .f32⟩ : BufTy).Contents (Elt F) := transpose S4x16x1024x64 [0, 2, 1, 3] v4 transposes_S4x1024x16x64_S4x16x1024x64_0_2_1_3
  have v6 : (⟨S4x1024x16x64, .f32⟩ : BufTy).Contents (Elt F) := shapeCast S4x1024x16x64 v2 shapeCasts_S4x1024x1024_S4x1024x16x64
  have v7 : (⟨S4x16x1024x64, .f32⟩ : BufTy).Contents (Elt F) := transpose S4x16x1024x64 [0, 2, 1, 3] v6 transposes_S4x1024x16x64_S4x16x1024x64_0_2_1_3
  have v8 : (⟨S4x1024x16x64, .f32⟩ : BufTy).Contents (Elt F) := shapeCast S4x1024x16x64 v3 shapeCasts_S4x1024x1024_S4x1024x16x64
  have v9 : (⟨S4x16x1024x64, .f32⟩ : BufTy).Contents (Elt F) := transpose S4x16x1024x64 [0, 2, 1, 3] v8 transposes_S4x1024x16x64_S4x16x1024x64_0_2_1_3
  have v10 : (⟨S4x16x1024x1024, .f32⟩ : BufTy).Contents (Elt F) := Host.dotGeneral dot_S4x16x1024x64_S4x16x1024x64_S4x16x1024x1024_3_3_2_2_01_01 none v5 v7
  have cst : (⟨S_, .f32⟩ : BufTy).Contents (Elt F) := constant S_ .f32 0x3E000000#32
  have v11 : (⟨S4x16x1024x1024, .f32⟩ : BufTy).Contents (Elt F) := broadcastInDim S4x16x1024x1024 ![] bcast_S_S4x16x1024x1024 cst
  have v12 : (⟨S4x16x1024x1024, .f32⟩ : BufTy).Contents (Elt F) := mulf v10 v11
  have v13 : (⟨S4x1x1x1024, .i1⟩ : BufTy).Contents (Elt F) := broadcastInDim S4x1x1x1024 ![0, 3] bcast_S4x1024_S4x1x1x1024_0_3 a1
  have cst_0 : (⟨S_, .f32⟩ : BufTy).Contents (Elt F) := constant S_ .f32 0xFF800000#32
  have c0_v0 : (⟨S_, .f32⟩ : BufTy).Contents (Elt F) := id cst_0
  have c0_v1 : (⟨S4x16x1024x1024, .i1⟩ : BufTy).Contents (Elt F) := broadcastInDim S4x16x1024x1024 ![0, 1, 2, 3] bcast_S4x1x1x1024_S4x16x1024x1024_0_1_2_3 v13
  have c0_v2 : (⟨S4x16x1024x1024, .f32⟩ : BufTy).Contents (Elt F) := broadcastInDim S4x16x1024x1024 ![] bcast_S_S4x16x1024x1024 c0_v0
  have v14 : (⟨S4x16x1024x1024, .f32⟩ : BufTy).Contents (Elt F) := select c0_v1 v12 c0_v2
  have cst_1 : (⟨S_, .f32⟩ : BufTy).Contents (Elt F) := constant S_ .f32 0xFF800000#32
  have v15 : (⟨S4x16x1024, .f32⟩ : BufTy).Contents (Elt F) := Host.reduce FloatOps.maximumf v14 cst_1 reducesTo_S4x16x1024x1024_S4x16x1024_d3 h_S_
  have cst_2 : (⟨S_, .f32⟩ : BufTy).Contents (Elt F) := constant S_ .f32 0xFF800000#32
  have v16 : (⟨S4x16x1024, .f32⟩ : BufTy).Contents (Elt F) := broadcastInDim S4x16x1024 ![] bcast_S_S4x16x1024 cst_2
  have v17 : (⟨S4x16x1024, .f32⟩ : BufTy).Contents (Elt F) := maximumf v16 v15
  have v18 : (⟨S4x16x1024x1, .f32⟩ : BufTy).Contents (Elt F) := broadcastInDim S4x16x1024x1 ![0, 1, 2] bcast_S4x16x1024_S4x16x1024x1_0_1_2 v17
  have v19 : (⟨S4x16x1024x1024, .f32⟩ : BufTy).Contents (Elt F) := broadcastInDim S4x16x1024x1024 ![0, 1, 2, 3] bcast_S4x16x1024x1_S4x16x1024x1024_0_1_2_3 v18
  have v20 : (⟨S4x16x1024x1024, .f32⟩ : BufTy).Contents (Elt F) := subf v14 v19
  have v21 : (⟨S4x16x1024x1024, .f32⟩ : BufTy).Contents (Elt F) := Host.exp v20
  have cst_3 : (⟨S_, .f32⟩ : BufTy).Contents (Elt F) := constant S_ .f32 0x00000000#32
  have v22 : (⟨S4x16x1024, .f32⟩ : BufTy).Contents (Elt F) := Host.reduceAdd v21 cst_3 reducesTo_S4x16x1024x1024_S4x16x1024_d3 h_S_
  have v23 : (⟨S4x16x1024x1, .f32⟩ : BufTy).Contents (Elt F) := broadcastInDim S4x16x1024x1 ![0, 1, 2] bcast_S4x16x1024_S4x16x1024x1_0_1_2 v22
  have v24 : (⟨S4x16x1024x1024, .f32⟩ : BufTy).Contents (Elt F) := broadcastInDim S4x16x1024x1024 ![0, 1, 2, 3] bcast_S4x16x1024x1_S4x16x1024x1024_0_1_2_3 v23
  have v25 : (⟨S4x16x1024x1024, .f32⟩ : BufTy).Contents (Elt F) := Host.divf v21 v24
  have v26 : (⟨S4x16x1024x64, .f32⟩ : BufTy).Contents (Elt F) := Host.dotGeneral dot_S4x16x1024x1024_S4x16x1024x64_S4x16x1024x64_3_2_2_3_01_01 none v25 v9
  have v27 : (⟨S4x1024x16x64, .f32⟩ : BufTy).Contents (Elt F) := transpose S4x1024x16x64 [0, 2, 1, 3] v26 transposes_S4x16x1024x64_S4x1024x16x64_0_2_1_3
  have v28 : (⟨S4x1024x1024, .f32⟩ : BufTy).Contents (Elt F) := shapeCast S4x1024x1024 v27 shapeCasts_S4x1024x16x64_S4x1024x1024
  have v29 : (⟨S4x1024x1024, .f32⟩ : BufTy).Contents (Elt F) := Host.dotGeneral dot_S4x1024x1024_S1024x1024_S4x1024x1024_2_1_01_0_n_n none v28 a3
  have v30 : (⟨S1x1x1024, .f32⟩ : BufTy).Contents (Elt F) := broadcastInDim S1x1x1024 ![2] bcast_S1024_S1x1x1024_2 a4
  have v31 : (⟨S4x1024x1024, .f32⟩ : BufTy).Contents (Elt F) := broadcastInDim S4x1024x1024 ![0, 1, 2] bcast_S1x1x1024_S4x1024x1024_0_1_2 v30
  have v32 : (⟨S4x1024x1024, .f32⟩ : BufTy).Contents (Elt F) := addf v29 v31
  have cst_4 : (⟨S_, .f32⟩ : BufTy).Contents (Elt F) := constant S_ .f32 0x00000000#32
  have v33 : (⟨S4x1024, .f32⟩ : BufTy).Contents (Elt F) := Host.reduceAdd v32 cst_4 reducesTo_S4x1024x1024_S4x1024_d2 h_S_
  have v34 : (⟨S4x1024x1, .f32⟩ : BufTy).Contents (Elt F) := broadcastInDim S4x1024x1 ![0, 1] bcast_S4x1024_S4x1024x1_0_1 v33
  have cst_5 : (⟨S_, .f32⟩ : BufTy).Contents (Elt F) := constant S_ .f32 0x44800000#32
  have v35 : (⟨S4x1024x1, .f32⟩ : BufTy).Contents (Elt F) := broadcastInDim S4x1024x1 ![] bcast_S_S4x1024x1 cst_5
  have v36 : (⟨S4x1024x1, .f32⟩ : BufTy).Contents (Elt F) := Host.divf v34 v35
  have c : (⟨S_, .i32⟩ : BufTy).Contents (Elt F) := constantI S_ 32 0#32
  have c1_cst : (⟨S_, .f32⟩ : BufTy).Contents (Elt F) := constant S_ .f32 0x00000000#32
  have c1_v0 : (⟨S4x1024, .f32⟩ : BufTy).Contents (Elt F) := Host.reduceAdd v32 c1_cst reducesTo_S4x1024x1024_S4x1024_d2 h_S_
  have c1_v1 : (⟨S4x1024x1, .f32⟩ : BufTy).Contents (Elt F) := broadcastInDim S4x1024x1 ![0, 1] bcast_S4x1024_S4x1024x1_0_1 c1_v0
  have c1_cst_0 : (⟨S_, .f32⟩ : BufTy).Contents (Elt F) := constant S_ .f32 0x44800000#32
  have c1_v2 : (⟨S4x1024x1, .f32⟩ : BufTy).Contents (Elt F) := broadcastInDim S4x1024x1 ![] bcast_S_S4x1024x1 c1_cst_0
  have c1_v3 : (⟨S4x1024x1, .f32⟩ : BufTy).Contents (Elt F) := Host.divf c1_v1 c1_v2
  have c1_v4 : (⟨S4x1024x1024, .f32⟩ : BufTy).Contents (Elt F) := broadcastInDim S4x1024x1024 ![0, 1, 2] bcast_S4x1024x1_S4x1024x1024_0_1_2 c1_v3
  have c1_v5 : (⟨S4x1024x1024, .f32⟩ : BufTy).Contents (Elt F) := subf v32 c1_v4
  have c1_v6 : (⟨S4x1024x1024, .f32⟩ : BufTy).Contents (Elt F) := mulf c1_v5 c1_v5
  have c1_v7 : (⟨S_, .f32⟩ : BufTy).Contents (Elt F) := sitofp .f32 c
  have c1_cst_1 : (⟨S_, .f32⟩ : BufTy).Contents (Elt F) := constant S_ .f32 0x44800000#32
  have c1_v8 : (⟨S_, .f32⟩ : BufTy).Contents (Elt F) := subf c1_cst_1 c1_v7
  have c1_cst_2 : (⟨S_, .f32⟩ : BufTy).Contents (Elt F) := constant S_ .f32 0x00000000#32
  have c1_v9 : (⟨S4x1024, .f32⟩ : BufTy).Contents (Elt F) := Host.reduceAdd c1_v6 c1_cst_2 reducesTo_S4x1024x1024_S4x1024_d2 h_S_
  have c1_v10 : (⟨S4x1024x1, .f32⟩ : BufTy).Contents (Elt F) := broadcastInDim S4x1024x1 ![0, 1] bcast_S4x1024_S4x1024x1_0_1 c1_v9
  have c1_v11 : (⟨S4x1024x1, .f32⟩ : BufTy).Contents (Elt F) := broadcastInDim S4x1024x1 ![] bcast_S_S4x1024x1 c1_v8
  have c1_v12 : (⟨S4x1024x1, .f32⟩ : BufTy).Contents (Elt F) := Host.divf c1_v10 c1_v11
  have c1_cst_3 : (⟨S_, .f32⟩ : BufTy).Contents (Elt F) := constant S_ .f32 0x00000000#32
  have c1_v13 : (⟨S_, .i1⟩ : BufTy).Contents (Elt F) := cmpf .ogt c1_v8 c1_cst_3
  have c1_cst_4 : (⟨S_, .f32⟩ : BufTy).Contents (Elt F) := constant S_ .f32 0x7FC00000#32
  have c1c0_v0 : (⟨S_, .f32⟩ : BufTy).Contents (Elt F) := id c1_cst_4
  have c1c0_v1 : (⟨S4x1024x1, .f32⟩ : BufTy).Contents (Elt F) := broadcastInDim S4x1024x1 ![] bcast_S_S4x1024x1 c1c0_v0
  have v37 : (⟨S4x1024x1, .f32⟩ : BufTy).Contents (Elt F) := select (broadcastInDim S4x1024x1 ![] bcast_S_S4x1024x1 c1_v13) c1_v12 c1c0_v1
  have v38 : (⟨S4x1024x1024, .f32⟩ : BufTy).Contents (Elt F) := broadcastInDim S4x1024x1024 ![0, 1, 2] bcast_S4x1024x1_S4x1024x1024_0_1_2 v36
  have v39 : (⟨S4x1024x1024, .f32⟩ : BufTy).Contents (Elt F) := subf v32 v38
  have cst_6 : (⟨S_, .f32⟩ : BufTy).Contents (Elt F) := constant S_ .f32 0x3727C5AC#32
  have v40 : (⟨S4x1024x1, .f32⟩ : BufTy).Contents (Elt F) := broadcastInDim S4x1024x1 ![] bcast_S_S4x1024x1 cst_6
  have v41 : (⟨S4x1024x1, .f32⟩ : BufTy).Contents (Elt F) := addf v37 v40
  have v42 : (⟨S4x1024x1, .f32⟩ : BufTy).Contents (Elt F) := Host.rsqrt v41
  have v43 : (⟨S4x1024x1024, .f32⟩ : BufTy).Contents (Elt F) := broadcastInDim S4x1024x1024 ![0, 1, 2] bcast_S4x1024x1_S4x1024x1024_0_1_2 v42
  have v44 : (⟨S4x1024x1024, .f32⟩ : BufTy).Contents (Elt F) := mulf v39 v43
  have v45 : (⟨S1x1x1024, .f32⟩ : BufTy).Contents (Elt F) := broadcastInDim S1x1x1024 ![2] bcast_S1024_S1x1x1024_2 a5
  have v46 : (⟨S4x1024x1024, .f32⟩ : BufTy).Contents (Elt F) := broadcastInDim S4x1024x1024 ![0, 1, 2] bcast_S1x1x1024_S4x1024x1024_0_1_2 v45
  have v47 : (⟨S4x1024x1024, .f32⟩ : BufTy).Contents (Elt F) := mulf v44 v46
  have v48 : (⟨S1x1x1024, .f32⟩ : BufTy).Contents (Elt F) := broadcastInDim S1x1x1024 ![2] bcast_S1024_S1x1x1024_2 a6
  have v49 : (⟨S4x1024x1024, .f32⟩ : BufTy).Contents (Elt F) := broadcastInDim S4x1024x1024 ![0, 1, 2] bcast_S1x1x1024_S4x1024x1024_0_1_2 v48
  have v50 : (⟨S4x1024x1024, .f32⟩ : BufTy).Contents (Elt F) := addf v47 v49
  v50

end Cert.ReferenceIdeal.RefTerm

end
-- ==== Proof.RefRun.lean ====
/-
  The reference program's run, read back.

  The reference's @main is a straight line of host operations, two of them calls of functions the program defines (the
  select that applies the key mask, and the variance of a row, which itself calls a select). `ops` lists the
  operations in program order with each call replaced by its function's operations over that call's own buffers;
  `main_eq` says @main is that line. Folding the operations' results over any buffer contents gives, at the result
  buffer, the pure term `RefTerm.out` of the seven arguments' contents (`out_eq`) and leaves each argument as it was
  (`arg0_eq` … `arg6_eq`): no operation writes an argument. `run`: every weakly fair execution of @main terminates,
  the result buffer holding `RefTerm.out` of the arguments' initial contents, the arguments unchanged.
-/
import proofs.«144366_j37933151158411_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 85 operations in order, the calls written out: the masking select's four after the sixteenth, the
    variance's twenty-three (its last three the inner select's) after the mean. -/
abbrev ops : List (HloOp τ sig (Elt F)) :=
  [
    StableHlo.binary main_arg0 main_arg2 main_v0 ((fun l r => Host.dotGeneral dot_S4x1024x1024_S3072x1024_S4x1024x3072_2_1_01_0_n_n none l r) : (⟨S4x1024x1024, .f32⟩ : BufTy).Contents (Elt F) → (⟨S3072x1024, .f32⟩ : BufTy).Contents (Elt F) → (⟨S4x1024x3072, .f32⟩ : BufTy).Contents (Elt F)),
    StableHlo.unary main_v0 main_v1 ((extractStridedSlice S4x1024x1024 ![0, 0, 0] · slices_S4x1024x3072_S4x1024x1024_0_0_0) : (⟨S4x1024x3072, .f32⟩ : BufTy).Contents (Elt F) → (⟨S4x1024x1024, .f32⟩ : BufTy).Contents (Elt F)),
    StableHlo.unary main_v0 main_v2 ((extractStridedSlice S4x1024x1024 ![0, 0, 1024] · slices_S4x1024x3072_S4x1024x1024_0_0_1024) : (⟨S4x1024x3072, .f32⟩ : BufTy).Contents (Elt F) → (⟨S4x1024x1024, .f32⟩ : BufTy).Contents (Elt F)),
    StableHlo.unary main_v0 main_v3 ((extractStridedSlice S4x1024x1024 ![0, 0, 2048] · slices_S4x1024x3072_S4x1024x1024_0_0_2048) : (⟨S4x1024x3072, .f32⟩ : BufTy).Contents (Elt F) → (⟨S4x1024x1024, .f32⟩ : BufTy).Contents (Elt F)),
    StableHlo.reshape main_v1 main_v4 rfl shapeCasts_S4x1024x1024_S4x1024x16x64,
    StableHlo.unary main_v4 main_v5 ((transpose S4x16x1024x64 [0, 2, 1, 3] · transposes_S4x1024x16x64_S4x16x1024x64_0_2_1_3) : (⟨S4x1024x16x64, .f32⟩ : BufTy).Contents (Elt F) → (⟨S4x16x1024x64, .f32⟩ : BufTy).Contents (Elt F)),
    StableHlo.reshape main_v2 main_v6 rfl shapeCasts_S4x1024x1024_S4x1024x16x64,
    StableHlo.unary main_v6 main_v7 ((transpose S4x16x1024x64 [0, 2, 1, 3] · transposes_S4x1024x16x64_S4x16x1024x64_0_2_1_3) : (⟨S4x1024x16x64, .f32⟩ : BufTy).Contents (Elt F) → (⟨S4x16x1024x64, .f32⟩ : BufTy).Contents (Elt F)),
    StableHlo.reshape main_v3 main_v8 rfl shapeCasts_S4x1024x1024_S4x1024x16x64,
    StableHlo.unary main_v8 main_v9 ((transpose S4x16x1024x64 [0, 2, 1, 3] · transposes_S4x1024x16x64_S4x16x1024x64_0_2_1_3) : (⟨S4x1024x16x64, .f32⟩ : BufTy).Contents (Elt F) → (⟨S4x16x1024x64, .f32⟩ : BufTy).Contents (Elt F)),
    StableHlo.binary main_v5 main_v7 main_v10 ((fun l r => Host.dotGeneral dot_S4x16x1024x64_S4x16x1024x64_S4x16x1024x1024_3_3_2_2_01_01 none l r) : (⟨S4x16x1024x64, .f32⟩ : BufTy).Contents (Elt F) → (⟨S4x16x1024x64, .f32⟩ : BufTy).Contents (Elt F) → (⟨S4x16x1024x1024, .f32⟩ : BufTy).Contents (Elt F)),
    StableHlo.nullary main_cst (constant S_ .f32 0x3E000000#32),
    StableHlo.unary main_cst main_v11 (broadcastInDim S4x16x1024x1024 ![] bcast_S_S4x16x1024x1024 : (⟨S_, .f32⟩ : BufTy).Contents (Elt F) → (⟨S4x16x1024x1024, .f32⟩ : BufTy).Contents (Elt F)),
    StableHlo.binary main_v10 main_v11 main_v12 (mulf : (⟨S4x16x1024x1024, .f32⟩ : BufTy).Contents (Elt F) → (⟨S4x16x1024x1024, .f32⟩ : BufTy).Contents (Elt F) → (⟨S4x16x1024x1024, .f32⟩ : BufTy).Contents (Elt F)),
    StableHlo.unary main_arg1 main_v13 (broadcastInDim S4x1x1x1024 ![0, 3] bcast_S4x1024_S4x1x1x1024_0_3 : (⟨S4x1024, .i1⟩ : BufTy).Contents (Elt F) → (⟨S4x1x1x1024, .i1⟩ : BufTy).Contents (Elt F)),
    StableHlo.nullary main_cst_0 (constant S_ .f32 0xFF800000#32),
    StableHlo.TRef.unary (.of main_cst_0 : StableHlo.TRef sig ⟨S_, .f32⟩) main_call0.v0 id,
    StableHlo.TRef.unary (.of main_v13 : StableHlo.TRef sig ⟨S4x1x1x1024, .i1⟩) main_call0.v1 (broadcastInDim S4x16x1024x1024 ![0, 1, 2, 3] bcast_S4x1x1x1024_S4x16x1024x1024_0_1_2_3),
    StableHlo.TRef.unary main_call0.v0 main_call0.v2 (broadcastInDim S4x16x1024x1024 ![] bcast_S_S4x16x1024x1024),
    StableHlo.TRef.ternary main_call0.v1 (.of main_v12 : StableHlo.TRef sig ⟨S4x16x1024x1024, .f32⟩) main_call0.v2 main_call0.v3 select,
    StableHlo.nullary main_cst_1 (constant S_ .f32 0xFF800000#32),
    StableHlo.binary main_v14 main_cst_1 main_v15 ((fun x v => Host.reduce FloatOps.maximumf x v reducesTo_S4x16x1024x1024_S4x16x1024_d3 h_S_) : (⟨S4x16x1024x1024, .f32⟩ : BufTy).Contents (Elt F) → (⟨S_, .f32⟩ : BufTy).Contents (Elt F) → (⟨S4x16x1024, .f32⟩ : BufTy).Contents (Elt F)),
    StableHlo.nullary main_cst_2 (constant S_ .f32 0xFF800000#32),
    StableHlo.unary main_cst_2 main_v16 (broadcastInDim S4x16x1024 ![] bcast_S_S4x16x1024 : (⟨S_, .f32⟩ : BufTy).Contents (Elt F) → (⟨S4x16x1024, .f32⟩ : BufTy).Contents (Elt F)),
    StableHlo.binary main_v16 main_v15 main_v17 (maximumf : (⟨S4x16x1024, .f32⟩ : BufTy).Contents (Elt F) → (⟨S4x16x1024, .f32⟩ : BufTy).Contents (Elt F) → (⟨S4x16x1024, .f32⟩ : BufTy).Contents (Elt F)),
    StableHlo.unary main_v17 main_v18 (broadcastInDim S4x16x1024x1 ![0, 1, 2] bcast_S4x16x1024_S4x16x1024x1_0_1_2 : (⟨S4x16x1024, .f32⟩ : BufTy).Contents (Elt F) → (⟨S4x16x1024x1, .f32⟩ : BufTy).Contents (Elt F)),
    StableHlo.unary main_v18 main_v19 (broadcastInDim S4x16x1024x1024 ![0, 1, 2, 3] bcast_S4x16x1024x1_S4x16x1024x1024_0_1_2_3 : (⟨S4x16x1024x1, .f32⟩ : BufTy).Contents (Elt F) → (⟨S4x16x1024x1024, .f32⟩ : BufTy).Contents (Elt F)),
    StableHlo.binary main_v14 main_v19 main_v20 (subf : (⟨S4x16x1024x1024, .f32⟩ : BufTy).Contents (Elt F) → (⟨S4x16x1024x1024, .f32⟩ : BufTy).Contents (Elt F) → (⟨S4x16x1024x1024, .f32⟩ : BufTy).Contents (Elt F)),
    StableHlo.unary main_v20 main_v21 (Host.exp : (⟨S4x16x1024x1024, .f32⟩ : BufTy).Contents (Elt F) → (⟨S4x16x1024x1024, .f32⟩ : BufTy).Contents (Elt F)),
    StableHlo.nullary main_cst_3 (constant S_ .f32 0x00000000#32),
    StableHlo.binary main_v21 main_cst_3 main_v22 ((fun x v => Host.reduceAdd x v reducesTo_S4x16x1024x1024_S4x16x1024_d3 h_S_) : (⟨S4x16x1024x1024, .f32⟩ : BufTy).Contents (Elt F) → (⟨S_, .f32⟩ : BufTy).Contents (Elt F) → (⟨S4x16x1024, .f32⟩ : BufTy).Contents (Elt F)),
    StableHlo.unary main_v22 main_v23 (broadcastInDim S4x16x1024x1 ![0, 1, 2] bcast_S4x16x1024_S4x16x1024x1_0_1_2 : (⟨S4x16x1024, .f32⟩ : BufTy).Contents (Elt F) → (⟨S4x16x1024x1, .f32⟩ : BufTy).Contents (Elt F)),
    StableHlo.unary main_v23 main_v24 (broadcastInDim S4x16x1024x1024 ![0, 1, 2, 3] bcast_S4x16x1024x1_S4x16x1024x1024_0_1_2_3 : (⟨S4x16x1024x1, .f32⟩ : BufTy).Contents (Elt F) → (⟨S4x16x1024x1024, .f32⟩ : BufTy).Contents (Elt F)),
    StableHlo.binary main_v21 main_v24 main_v25 (Host.divf : (⟨S4x16x1024x1024, .f32⟩ : BufTy).Contents (Elt F) → (⟨S4x16x1024x1024, .f32⟩ : BufTy).Contents (Elt F) → (⟨S4x16x1024x1024, .f32⟩ : BufTy).Contents (Elt F)),
    StableHlo.binary main_v25 main_v9 main_v26 ((fun l r => Host.dotGeneral dot_S4x16x1024x1024_S4x16x1024x64_S4x16x1024x64_3_2_2_3_01_01 none l r) : (⟨S4x16x1024x1024, .f32⟩ : BufTy).Contents (Elt F) → (⟨S4x16x1024x64, .f32⟩ : BufTy).Contents (Elt F) → (⟨S4x16x1024x64, .f32⟩ : BufTy).Contents (Elt F)),
    StableHlo.unary main_v26 main_v27 ((transpose S4x1024x16x64 [0, 2, 1, 3] · transposes_S4x16x1024x64_S4x1024x16x64_0_2_1_3) : (⟨S4x16x1024x64, .f32⟩ : BufTy).Contents (Elt F) → (⟨S4x1024x16x64, .f32⟩ : BufTy).Contents (Elt F)),
    StableHlo.reshape main_v27 main_v28 rfl shapeCasts_S4x1024x16x64_S4x1024x1024,
    StableHlo.binary main_v28 main_arg3 main_v29 ((fun l r => Host.dotGeneral dot_S4x1024x1024_S1024x1024_S4x1024x1024_2_1_01_0_n_n none l r) : (⟨S4x1024x1024, .f32⟩ : BufTy).Contents (Elt F) → (⟨S1024x1024, .f32⟩ : BufTy).Contents (Elt F) → (⟨S4x1024x1024, .f32⟩ : BufTy).Contents (Elt F)),
    StableHlo.unary main_arg4 main_v30 (broadcastInDim S1x1x1024 ![2] bcast_S1024_S1x1x1024_2 : (⟨S1024, .f32⟩ : BufTy).Contents (Elt F) → (⟨S1x1x1024, .f32⟩ : BufTy).Contents (Elt F)),
    StableHlo.unary main_v30 main_v31 (broadcastInDim S4x1024x1024 ![0, 1, 2] bcast_S1x1x1024_S4x1024x1024_0_1_2 : (⟨S1x1x1024, .f32⟩ : BufTy).Contents (Elt F) → (⟨S4x1024x1024, .f32⟩ : BufTy).Contents (Elt F)),
    StableHlo.binary main_v29 main_v31 main_v32 (addf : (⟨S4x1024x1024, .f32⟩ : BufTy).Contents (Elt F) → (⟨S4x1024x1024, .f32⟩ : BufTy).Contents (Elt F) → (⟨S4x1024x1024, .f32⟩ : BufTy).Contents (Elt F)),
    StableHlo.nullary main_cst_4 (constant S_ .f32 0x00000000#32),
    StableHlo.binary main_v32 main_cst_4 main_v33 ((fun x v => Host.reduceAdd x v reducesTo_S4x1024x1024_S4x1024_d2 h_S_) : (⟨S4x1024x1024, .f32⟩ : BufTy).Contents (Elt F) → (⟨S_, .f32⟩ : BufTy).Contents (Elt F) → (⟨S4x1024, .f32⟩ : BufTy).Contents (Elt F)),
    StableHlo.unary main_v33 main_v34 (broadcastInDim S4x1024x1 ![0, 1] bcast_S4x1024_S4x1024x1_0_1 : (⟨S4x1024, .f32⟩ : BufTy).Contents (Elt F) → (⟨S4x1024x1, .f32⟩ : BufTy).Contents (Elt F)),
    StableHlo.nullary main_cst_5 (constant S_ .f32 0x44800000#32),
    StableHlo.unary main_cst_5 main_v35 (broadcastInDim S4x1024x1 ![] bcast_S_S4x1024x1 : (⟨S_, .f32⟩ : BufTy).Contents (Elt F) → (⟨S4x1024x1, .f32⟩ : BufTy).Contents (Elt F)),
    StableHlo.binary main_v34 main_v35 main_v36 (Host.divf : (⟨S4x1024x1, .f32⟩ : BufTy).Contents (Elt F) → (⟨S4x1024x1, .f32⟩ : BufTy).Contents (Elt F) → (⟨S4x1024x1, .f32⟩ : BufTy).Contents (Elt F)),
    StableHlo.nullary main_c (constantI S_ 32 0#32),
    StableHlo.TRef.nullary main_call1.cst (constant S_ .f32 0x00000000#32),
    StableHlo.TRef.binary (.of main_v32 : StableHlo.TRef sig ⟨S4x1024x1024, .f32⟩) main_call1.cst main_call1.v0 (fun x v => Host.reduceAdd x v reducesTo_S4x1024x1024_S4x1024_d2 h_S_),
    StableHlo.TRef.unary main_call1.v0 main_call1.v1 (broadcastInDim S4x1024x1 ![0, 1] bcast_S4x1024_S4x1024x1_0_1),
    StableHlo.TRef.nullary main_call1.cst_0 (constant S_ .f32 0x44800000#32),
    StableHlo.TRef.unary main_call1.cst_0 main_call1.v2 (broadcastInDim S4x1024x1 ![] bcast_S_S4x1024x1),
    StableHlo.TRef.binary main_call1.v1 main_call1.v2 main_call1.v3 Host.divf,
    StableHlo.TRef.unary main_call1.v3 main_call1.v4 (broadcastInDim S4x1024x1024 ![0, 1, 2] bcast_S4x1024x1_S4x1024x1024_0_1_2),
    StableHlo.TRef.binary (.of main_v32 : StableHlo.TRef sig ⟨S4x1024x1024, .f32⟩) main_call1.v4 main_call1.v5 subf,
    StableHlo.TRef.binary main_call1.v5 main_call1.v5 main_call1.v6 mulf,
    StableHlo.TRef.unary (.of main_c : StableHlo.TRef sig ⟨S_, .i32⟩) main_call1.v7 (sitofp .f32),
    StableHlo.TRef.nullary main_call1.cst_1 (constant S_ .f32 0x44800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S4x1024x1024_S4x1024_d2 h_S_),
    StableHlo.TRef.unary main_call1.v9 main_call1.v10 (broadcastInDim S4x1024x1 ![0, 1] bcast_S4x1024_S4x1024x1_0_1),
    StableHlo.TRef.unary main_call1.v8 main_call1.v11 (broadcastInDim S4x1024x1 ![] bcast_S_S4x1024x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S4x1024x1 ![] bcast_S_S4x1024x1),
    StableHlo.TRef.ternary main_call1.v13 main_call1.v12 main_call1.call0.v1 main_call1.call0.v2 (fun p a b => select (broadcastInDim S4x1024x1 ![] bcast_S_S4x1024x1 p) a b),
    StableHlo.unary main_v36 main_v38 (broadcastInDim S4x1024x1024 ![0, 1, 2] bcast_S4x1024x1_S4x1024x1024_0_1_2 : (⟨S4x1024x1, .f32⟩ : BufTy).Contents (Elt F) → (⟨S4x1024x1024, .f32⟩ : BufTy).Contents (Elt F)),
    StableHlo.binary main_v32 main_v38 main_v39 (subf : (⟨S4x1024x1024, .f32⟩ : BufTy).Contents (Elt F) → (⟨S4x1024x1024, .f32⟩ : BufTy).Contents (Elt F) → (⟨S4x1024x1024, .f32⟩ : BufTy).Contents (Elt F)),
    StableHlo.nullary main_cst_6 (constant S_ .f32 0x3727C5AC#32),
    StableHlo.unary main_cst_6 main_v40 (broadcastInDim S4x1024x1 ![] bcast_S_S4x1024x1 : (⟨S_, .f32⟩ : BufTy).Contents (Elt F) → (⟨S4x1024x1, .f32⟩ : BufTy).Contents (Elt F)),
    StableHlo.binary main_v37 main_v40 main_v41 (addf : (⟨S4x1024x1, .f32⟩ : BufTy).Contents (Elt F) → (⟨S4x1024x1, .f32⟩ : BufTy).Contents (Elt F) → (⟨S4x1024x1, .f32⟩ : BufTy).Contents (Elt F)),
    StableHlo.unary main_v41 main_v42 (Host.rsqrt : (⟨S4x1024x1, .f32⟩ : BufTy).Contents (Elt F) → (⟨S4x1024x1, .f32⟩ : BufTy).Contents (Elt F)),
    StableHlo.unary main_v42 main_v43 (broadcastInDim S4x1024x1024 ![0, 1, 2] bcast_S4x1024x1_S4x1024x1024_0_1_2 : (⟨S4x1024x1, .f32⟩ : BufTy).Contents (Elt F) → (⟨S4x1024x1024, .f32⟩ : BufTy).Contents (Elt F)),
    StableHlo.binary main_v39 main_v43 main_v44 (mulf : (⟨S4x1024x1024, .f32⟩ : BufTy).Contents (Elt F) → (⟨S4x1024x1024, .f32⟩ : BufTy).Contents (Elt F) → (⟨S4x1024x1024, .f32⟩ : BufTy).Contents (Elt F)),
    StableHlo.unary main_arg5 main_v45 (broadcastInDim S1x1x1024 ![2] bcast_S1024_S1x1x1024_2 : (⟨S1024, .f32⟩ : BufTy).Contents (Elt F) → (⟨S1x1x1024, .f32⟩ : BufTy).Contents (Elt F)),
    StableHlo.unary main_v45 main_v46 (broadcastInDim S4x1024x1024 ![0, 1, 2] bcast_S1x1x1024_S4x1024x1024_0_1_2 : (⟨S1x1x1024, .f32⟩ : BufTy).Contents (Elt F) → (⟨S4x1024x1024, .f32⟩ : BufTy).Contents (Elt F)),
    StableHlo.binary main_v44 main_v46 main_v47 (mulf : (⟨S4x1024x1024, .f32⟩ : BufTy).Contents (Elt F) → (⟨S4x1024x1024, .f32⟩ : BufTy).Contents (Elt F) → (⟨S4x1024x1024, .f32⟩ : BufTy).Contents (Elt F)),
    StableHlo.unary main_arg6 main_v48 (broadcastInDim S1x1x1024 ![2] bcast_S1024_S1x1x1024_2 : (⟨S1024, .f32⟩ : BufTy).Contents (Elt F) → (⟨S1x1x1024, .f32⟩ : BufTy).Contents (Elt F)),
    StableHlo.unary main_v48 main_v49 (broadcastInDim S4x1024x1024 ![0, 1, 2] bcast_S1x1x1024_S4x1024x1024_0_1_2 : (⟨S1x1x1024, .f32⟩ : BufTy).Contents (Elt F) → (⟨S4x1024x1024, .f32⟩ : BufTy).Contents (Elt F)),
    StableHlo.binary main_v47 main_v49 main_v50 (addf : (⟨S4x1024x1024, .f32⟩ : BufTy).Contents (Elt F) → (⟨S4x1024x1024, .f32⟩ : BufTy).Contents (Elt F) → (⟨S4x1024x1024, .f32⟩ : BufTy).Contents (Elt F)) ]

set_option maxRecDepth 4096 in
set_option maxHeartbeats 4000000 in
/-- @main is that straight line: the functions unfolded at their calls, sequencing reassociated. -/
theorem main_eq (c : Dev nD) : main (F := F) c = seq ops := by
  simp only [main, main_part0, main_part1, fn_where.body, fn_var.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    binary_bufs_sub .., unary_bufs_sub .., unary_bufs_sub .., unary_bufs_sub .., reshape_bufs_sub ..,
    unary_bufs_sub .., reshape_bufs_sub .., unary_bufs_sub .., reshape_bufs_sub .., unary_bufs_sub ..,
    binary_bufs_sub .., nullary_bufs_sub .., unary_bufs_sub .., binary_bufs_sub .., unary_bufs_sub ..,
    nullary_bufs_sub .., unary_bufs_sub .., unary_bufs_sub .., unary_bufs_sub .., ternary_bufs_sub ..,
    nullary_bufs_sub .., binary_bufs_sub .., nullary_bufs_sub .., unary_bufs_sub .., binary_bufs_sub ..,
    unary_bufs_sub .., unary_bufs_sub .., binary_bufs_sub .., unary_bufs_sub .., nullary_bufs_sub ..,
    binary_bufs_sub .., unary_bufs_sub .., unary_bufs_sub .., binary_bufs_sub .., binary_bufs_sub ..,
    unary_bufs_sub .., reshape_bufs_sub .., binary_bufs_sub .., unary_bufs_sub .., unary_bufs_sub ..,
    binary_bufs_sub .., nullary_bufs_sub .., binary_bufs_sub .., unary_bufs_sub .., nullary_bufs_sub ..,
    unary_bufs_sub .., binary_bufs_sub .., nullary_bufs_sub .., nullary_bufs_sub .., binary_bufs_sub ..,
    unary_bufs_sub .., nullary_bufs_sub .., unary_bufs_sub .., binary_bufs_sub .., unary_bufs_sub ..,
    binary_bufs_sub .., binary_bufs_sub .., unary_bufs_sub .., nullary_bufs_sub .., binary_bufs_sub ..,
    nullary_bufs_sub .., binary_bufs_sub .., unary_bufs_sub .., unary_bufs_sub .., binary_bufs_sub ..,
    nullary_bufs_sub .., binary_bufs_sub .., nullary_bufs_sub .., unary_bufs_sub .., unary_bufs_sub ..,
    ternary_bufs_sub .., unary_bufs_sub .., binary_bufs_sub .., nullary_bufs_sub .., unary_bufs_sub ..,
    binary_bufs_sub .., unary_bufs_sub .., unary_bufs_sub .., binary_bufs_sub .., unary_bufs_sub ..,
    unary_bufs_sub .., binary_bufs_sub .., unary_bufs_sub .., unary_bufs_sub .., binary_bufs_sub ..⟩

set_option maxRecDepth 16384 in
set_option maxHeartbeats 4000000 in
/-- The fold at the result buffer is `RefTerm.out` of the arguments' contents: each operation's result at its own
    buffer is its function of its operands' contents, at any other buffer what was there; what is left is the
    composed term, which is `RefTerm.out` unfolded. -/
theorem out_eq (V : Valuation τ sig (Elt F)) :
    after ops V (main_v50 : DevRef τ sig) = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

set_option maxRecDepth 16384 in
set_option maxHeartbeats 4000000 in
/-- No operation writes argument 0: it keeps its contents. -/
theorem arg0_eq (V : Valuation τ sig (Elt F)) :
    after ops V (main_arg0 : DevRef τ sig) = V (main_arg0 : DevRef τ sig) :=
  after_of_forall_not_mem (b := Proc.devRef .tc main_arg0) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 16384 in
set_option maxHeartbeats 4000000 in
/-- No operation writes argument 1: it keeps its contents. -/
theorem arg1_eq (V : Valuation τ sig (Elt F)) :
    after ops V (main_arg1 : DevRef τ sig) = V (main_arg1 : DevRef τ sig) :=
  after_of_forall_not_mem (b := Proc.devRef .tc main_arg1) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 16384 in
set_option maxHeartbeats 4000000 in
/-- No operation writes argument 2: it keeps its contents. -/
theorem arg2_eq (V : Valuation τ sig (Elt F)) :
    after ops V (main_arg2 : DevRef τ sig) = V (main_arg2 : DevRef τ sig) :=
  after_of_forall_not_mem (b := Proc.devRef .tc main_arg2) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 16384 in
set_option maxHeartbeats 4000000 in
/-- No operation writes argument 3: it keeps its contents. -/
theorem arg3_eq (V : Valuation τ sig (Elt F)) :
    after ops V (main_arg3 : DevRef τ sig) = V (main_arg3 : DevRef τ sig) :=
  after_of_forall_not_mem (b := Proc.devRef .tc main_arg3) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 16384 in
set_option maxHeartbeats 4000000 in
/-- No operation writes argument 4: it keeps its contents. -/
theorem arg4_eq (V : Valuation τ sig (Elt F)) :
    after ops V (main_arg4 : DevRef τ sig) = V (main_arg4 : DevRef τ sig) :=
  after_of_forall_not_mem (b := Proc.devRef .tc main_arg4) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 16384 in
set_option maxHeartbeats 4000000 in
/-- No operation writes argument 5: it keeps its contents. -/
theorem arg5_eq (V : Valuation τ sig (Elt F)) :
    after ops V (main_arg5 : DevRef τ sig) = V (main_arg5 : DevRef τ sig) :=
  after_of_forall_not_mem (b := Proc.devRef .tc main_arg5) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 16384 in
set_option maxHeartbeats 4000000 in
/-- No operation writes argument 6: it keeps its contents. -/
theorem arg6_eq (V : Valuation τ sig (Elt F)) :
    after ops V (main_arg6 : DevRef τ sig) = V (main_arg6 : DevRef τ sig) :=
  after_of_forall_not_mem (b := Proc.devRef .tc main_arg6) _ _ (List.forall_iff_forall_mem.mp (by
    simp only [ops, List.Forall, nullary_writes, unary_writes, binary_writes, ternary_writes, reshape_writes, Finset.mem_singleton]
    repeat' apply And.intro
    all_goals exact devRef_ne_of_ne (by decide)))

/-- On every device, for any float values, from any memory with zero counters: every weakly fair execution of @main
    terminates with the result buffer at `RefTerm.out` of the arguments' initial contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v50).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.RefRun

end
-- ==== Proof.RefReadDot.lean ====
/-
  The reference's four contractions, each read at one index of its result.

  A contraction over a single axis is, at an output index, the sum over that axis's coordinate of the products of the
  two operands' entries. The four here: the fused query/key/value projection (tokens of width 1024 against the 3072
  rows of the weight), the scores (a query's 64 lanes against a key's, per batch and head), the weighted values (a
  row of 1024 softmax weights against the values' tokens, per batch and head), and the output projection (the 1024
  joined features against the rows of the output weight).
-/
import proofs.«144366_j37933151158411_2_alg».proof.ReferenceIdeal
import proofs.«144366_j37933151158411_2_alg».proof.Proof.Gen.ReferenceIdeal
import Idealize.ShloMosaic.Lib.ValueIdx
import Idealize.ShloMosaic.PureOps.Ideal.Laws

open scoped BigOperators

namespace Cert.ReferenceIdeal.RefRead

open Idealize.ShloMosaic Idealize.ShloMosaic.ValueIdx Cert.ReferenceIdeal

/-- The fused projection at (b, l, e): token (b, l) against row e of the weight. -/
theorem dot_qkv_apply (x : FVec Ideal S4x1024x1024 .f32) (w : FVec Ideal S3072x1024 .f32)
    (b : Fin 4) (l : Fin 1024) (e : Fin 3072) :
    Host.dotGeneral (F := Ideal) dot_S4x1024x1024_S3072x1024_S4x1024x3072_2_1_01_0_n_n none x w (ix3 b l e)
      = ∑ c : Fin 1024, x (ix3 b l c) * w (ix2 e c) := by
  show FloatOps.dotGeneral _ none _ x w (ix3 b l e) = _
  rw [Ideal.dotGeneral_apply,
    ← Equiv.sum_comp (contrEquiv1 dot_S4x1024x1024_S3072x1024_S4x1024x3072_2_1_01_0_n_n 1024 rfl rfl).symm]
  refine Finset.sum_congr rfl fun c _ => ?_
  have cv := contrEquiv1_symm_val dot_S4x1024x1024_S3072x1024_S4x1024x3072_2_1_01_0_n_n 1024 rfl rfl c
  have hl : dot_S4x1024x1024_S3072x1024_S4x1024x3072_2_1_01_0_n_n.lhsIdx (ix3 b l e)
      ((contrEquiv1 _ 1024 rfl rfl).symm c) = ix3 b l c := by
    funext ax; apply Fin.ext
    match ax with
    | ⟨0, _⟩ => simp [DotDims.lhsIdx, dot_S4x1024x1024_S3072x1024_S4x1024x3072_2_1_01_0_n_n]; rfl
    | ⟨1, _⟩ => simp [DotDims.lhsIdx, dot_S4x1024x1024_S3072x1024_S4x1024x3072_2_1_01_0_n_n]; rfl
    | ⟨2, _⟩ => simp [DotDims.lhsIdx, dot_S4x1024x1024_S3072x1024_S4x1024x3072_2_1_01_0_n_n]; exact cv
  have hr : dot_S4x1024x1024_S3072x1024_S4x1024x3072_2_1_01_0_n_n.rhsIdx (ix3 b l e)
      ((contrEquiv1 _ 1024 rfl rfl).symm c) = ix2 e c := by
    funext ax; apply Fin.ext
    match ax with
    | ⟨0, _⟩ => simp [DotDims.rhsIdx, dot_S4x1024x1024_S3072x1024_S4x1024x3072_2_1_01_0_n_n]; rfl
    | ⟨1, _⟩ => simp [DotDims.rhsIdx, dot_S4x1024x1024_S3072x1024_S4x1024x3072_2_1_01_0_n_n]; exact cv
  rw [hl, hr]

/-- The scores at (b, h, i, j): query i's 64 lanes against key j's. -/
theorem dot_scores_apply (x : FVec Ideal S4x16x1024x64 .f32) (w : FVec Ideal S4x16x1024x64 .f32)
    (b : Fin 4) (h : Fin 16) (i j : Fin 1024) :
    Host.dotGeneral (F := Ideal) dot_S4x16x1024x64_S4x16x1024x64_S4x16x1024x1024_3_3_2_2_01_01 none x w (ix4 b h i j)
      = ∑ c : Fin 64, x (ix4 b h i c) * w (ix4 b h j c) := by
  show FloatOps.dotGeneral _ none _ x w (ix4 b h i j) = _
  rw [Ideal.dotGeneral_apply,
    ← Equiv.sum_comp (contrEquiv1 dot_S4x16x1024x64_S4x16x1024x64_S4x16x1024x1024_3_3_2_2_01_01 64 rfl rfl).symm]
  refine Finset.sum_congr rfl fun c _ => ?_
  have cv := contrEquiv1_symm_val dot_S4x16x1024x64_S4x16x1024x64_S4x16x1024x1024_3_3_2_2_01_01 64 rfl rfl c
  have hl : dot_S4x16x1024x64_S4x16x1024x64_S4x16x1024x1024_3_3_2_2_01_01.lhsIdx (ix4 b h i j)
      ((contrEquiv1 _ 64 rfl rfl).symm c) = ix4 b h i c := by
    funext ax; apply Fin.ext
    match ax with
    | ⟨0, _⟩ => simp [DotDims.lhsIdx, dot_S4x16x1024x64_S4x16x1024x64_S4x16x1024x1024_3_3_2_2_01_01]; rfl
    | ⟨1, _⟩ => simp [DotDims.lhsIdx, dot_S4x16x1024x64_S4x16x1024x64_S4x16x1024x1024_3_3_2_2_01_01]; rfl
    | ⟨2, _⟩ => simp [DotDims.lhsIdx, dot_S4x16x1024x64_S4x16x1024x64_S4x16x1024x1024_3_3_2_2_01_01]; rfl
    | ⟨3, _⟩ => simp [DotDims.lhsIdx, dot_S4x16x1024x64_S4x16x1024x64_S4x16x1024x1024_3_3_2_2_01_01]; exact cv
  have hr : dot_S4x16x1024x64_S4x16x1024x64_S4x16x1024x1024_3_3_2_2_01_01.rhsIdx (ix4 b h i j)
      ((contrEquiv1 _ 64 rfl rfl).symm c) = ix4 b h j c := by
    funext ax; apply Fin.ext
    match ax with
    | ⟨0, _⟩ => simp [DotDims.rhsIdx, dot_S4x16x1024x64_S4x16x1024x64_S4x16x1024x1024_3_3_2_2_01_01]; rfl
    | ⟨1, _⟩ => simp [DotDims.rhsIdx, dot_S4x16x1024x64_S4x16x1024x64_S4x16x1024x1024_3_3_2_2_01_01]; rfl
    | ⟨2, _⟩ => simp [DotDims.rhsIdx, dot_S4x16x1024x64_S4x16x1024x64_S4x16x1024x1024_3_3_2_2_01_01]; rfl
    | ⟨3, _⟩ => simp [DotDims.rhsIdx, dot_S4x16x1024x64_S4x16x1024x64_S4x16x1024x1024_3_3_2_2_01_01]; exact cv
  rw [hl, hr]

/-- The weighted values at (b, h, i, d): row i's 1024 weights against lane d of the value tokens. -/
theorem dot_values_apply (x : FVec Ideal S4x16x1024x1024 .f32) (w : FVec Ideal S4x16x1024x64 .f32)
    (b : Fin 4) (h : Fin 16) (i : Fin 1024) (d : Fin 64) :
    Host.dotGeneral (F := Ideal) dot_S4x16x1024x1024_S4x16x1024x64_S4x16x1024x64_3_2_2_3_01_01 none x w (ix4 b h i d)
      = ∑ c : Fin 1024, x (ix4 b h i c) * w (ix4 b h c d) := by
  show FloatOps.dotGeneral _ none _ x w (ix4 b h i d) = _
  rw [Ideal.dotGeneral_apply,
    ← Equiv.sum_comp (contrEquiv1 dot_S4x16x1024x1024_S4x16x1024x64_S4x16x1024x64_3_2_2_3_01_01 1024 rfl rfl).symm]
  refine Finset.sum_congr rfl fun c _ => ?_
  have cv := contrEquiv1_symm_val dot_S4x16x1024x1024_S4x16x1024x64_S4x16x1024x64_3_2_2_3_01_01 1024 rfl rfl c
  have hl : dot_S4x16x1024x1024_S4x16x1024x64_S4x16x1024x64_3_2_2_3_01_01.lhsIdx (ix4 b h i d)
      ((contrEquiv1 _ 1024 rfl rfl).symm c) = ix4 b h i c := by
    funext ax; apply Fin.ext
    match ax with
    | ⟨0, _⟩ => simp [DotDims.lhsIdx, dot_S4x16x1024x1024_S4x16x1024x64_S4x16x1024x64_3_2_2_3_01_01]; rfl
    | ⟨1, _⟩ => simp [DotDims.lhsIdx, dot_S4x16x1024x1024_S4x16x1024x64_S4x16x1024x64_3_2_2_3_01_01]; rfl
    | ⟨2, _⟩ => simp [DotDims.lhsIdx, dot_S4x16x1024x1024_S4x16x1024x64_S4x16x1024x64_3_2_2_3_01_01]; rfl
    | ⟨3, _⟩ => simp [DotDims.lhsIdx, dot_S4x16x1024x1024_S4x16x1024x64_S4x16x1024x64_3_2_2_3_01_01]; exact cv
  have hr : dot_S4x16x1024x1024_S4x16x1024x64_S4x16x1024x64_3_2_2_3_01_01.rhsIdx (ix4 b h i d)
      ((contrEquiv1 _ 1024 rfl rfl).symm c) = ix4 b h c d := by
    funext ax; apply Fin.ext
    match ax with
    | ⟨0, _⟩ => simp [DotDims.rhsIdx, dot_S4x16x1024x1024_S4x16x1024x64_S4x16x1024x64_3_2_2_3_01_01]; rfl
    | ⟨1, _⟩ => simp [DotDims.rhsIdx, dot_S4x16x1024x1024_S4x16x1024x64_S4x16x1024x64_3_2_2_3_01_01]; rfl
    | ⟨2, _⟩ => simp [DotDims.rhsIdx, dot_S4x16x1024x1024_S4x16x1024x64_S4x16x1024x64_3_2_2_3_01_01]; exact cv
    | ⟨3, _⟩ => simp [DotDims.rhsIdx, dot_S4x16x1024x1024_S4x16x1024x64_S4x16x1024x64_3_2_2_3_01_01]; rfl
  rw [hl, hr]

/-- The output projection at (b, l, n): the 1024 joined features of token (b, l) against row n of the output weight. -/
theorem dot_out_apply (x : FVec Ideal S4x1024x1024 .f32) (w : FVec Ideal S1024x1024 .f32)
    (b : Fin 4) (l n : Fin 1024) :
    Host.dotGeneral (F := Ideal) dot_S4x1024x1024_S1024x1024_S4x1024x1024_2_1_01_0_n_n none x w (ix3 b l n)
      = ∑ c : Fin 1024, x (ix3 b l c) * w (ix2 n c) := by
  show FloatOps.dotGeneral _ none _ x w (ix3 b l n) = _
  rw [Ideal.dotGeneral_apply,
    ← Equiv.sum_comp (contrEquiv1 dot_S4x1024x1024_S1024x1024_S4x1024x1024_2_1_01_0_n_n 1024 rfl rfl).symm]
  refine Finset.sum_congr rfl fun c _ => ?_
  have cv := contrEquiv1_symm_val dot_S4x1024x1024_S1024x1024_S4x1024x1024_2_1_01_0_n_n 1024 rfl rfl c
  have hl : dot_S4x1024x1024_S1024x1024_S4x1024x1024_2_1_01_0_n_n.lhsIdx (ix3 b l n)
      ((contrEquiv1 _ 1024 rfl rfl).symm c) = ix3 b l c := by
    funext ax; apply Fin.ext
    match ax with
    | ⟨0, _⟩ => simp [DotDims.lhsIdx, dot_S4x1024x1024_S1024x1024_S4x1024x1024_2_1_01_0_n_n]; rfl
    | ⟨1, _⟩ => simp [DotDims.lhsIdx, dot_S4x1024x1024_S1024x1024_S4x1024x1024_2_1_01_0_n_n]; rfl
    | ⟨2, _⟩ => simp [DotDims.lhsIdx, dot_S4x1024x1024_S1024x1024_S4x1024x1024_2_1_01_0_n_n]; exact cv
  have hr : dot_S4x1024x1024_S1024x1024_S4x1024x1024_2_1_01_0_n_n.rhsIdx (ix3 b l n)
      ((contrEquiv1 _ 1024 rfl rfl).symm c) = ix2 n c := by
    funext ax; apply Fin.ext
    match ax with
    | ⟨0, _⟩ => simp [DotDims.rhsIdx, dot_S4x1024x1024_S1024x1024_S4x1024x1024_2_1_01_0_n_n]; rfl
    | ⟨1, _⟩ => simp [DotDims.rhsIdx, dot_S4x1024x1024_S1024x1024_S4x1024x1024_2_1_01_0_n_n]; exact cv
  rw [hl, hr]

end Cert.ReferenceIdeal.RefRead
-- ==== Proof.Spec.lean ====
/-
  The function both programs compute, written once over plain coordinates.

  Inputs: a batch of 4 sequences `x b l c` (1024 tokens of width 1024), a key mask `mask b j`, the fused
  query/key/value weight `wqkv` (3072 rows: slot `s`, head `h` of 16, lane `d` of 64 sit at row
  `s*1024 + h*64 + d`), the output weight `wout`, its bias, and the scale and shift of the closing layer norm.

  Per head: `proj s` is the projection of a token onto the head's 64 lanes; `score` is the scaled dot product of a
  query with a key, or `-∞` at a masked key; `softmax` is the exponential of the score above the row's maximum over
  the row's sum of them; `attn` is the softmax-weighted sum of the values. `lin` joins the 16 heads' 64 lanes into
  1024 features and applies the output weight and bias; `lnorm` centres a row, divides by the square root of its
  variance plus `ε`, scales and shifts.
-/
import Idealize.ShloMosaic.PureOps.Ideal
import Idealize.ShloMosaic.Lib.ValueIdx

noncomputable section

namespace Cert.Spec

open Idealize.ShloMosaic

/-- Row of the fused projection weight holding slot `s` (query, key, value), head `h`, lane `d`. -/
def row (s : Fin 3) (h : Fin 16) (d : Fin 64) : Fin 3072 := ⟨s.val * 1024 + (h.val * 64 + d.val), by omega⟩
/-- Feature `h*64 + d` of the joined heads. -/
def col (h : Fin 16) (d : Fin 64) : Fin 1024 := ⟨h.val * 64 + d.val, by omega⟩
/-- The head and the lane of a joined feature. -/
def headOf (e : Fin 1024) : Fin 16 := ⟨e.val / 64, by omega⟩
def laneOf (e : Fin 1024) : Fin 64 := ⟨e.val % 64, Nat.mod_lt _ (by decide)⟩

/-- The literals of the two programs, as the extended reals their patterns denote. -/
abbrev c8 : EReal := Ideal.ofBits .f32 0x3E000000#32      -- 1/8, the score scale
abbrev ninf : EReal := Ideal.ofBits .f32 0xFF800000#32    -- -∞
abbrev zero : EReal := Ideal.ofBits .f32 0x00000000#32    -- 0
abbrev n1024 : EReal := Ideal.ofBits .f32 0x44800000#32   -- 1024
abbrev eps : EReal := Ideal.ofBits .f32 0x3727C5AC#32     -- the layer norm's ε

section

variable (x : Fin 4 → Fin 1024 → Fin 1024 → EReal) (mask : Fin 4 → Fin 1024 → BitVec 1)
  (wqkv : Fin 3072 → Fin 1024 → EReal) (wout : Fin 1024 → Fin 1024 → EReal) (bout gamma beta : Fin 1024 → EReal)

/-- Token `l` of batch `b` projected on lane `d` of head `h`, slot `s`. -/
def proj (s : Fin 3) (b : Fin 4) (h : Fin 16) (l : Fin 1024) (d : Fin 64) : EReal :=
  ∑ c : Fin 1024, x b l c * wqkv (row s h d) c

/-- The score of query `i` against key `j`: the dot product over the lanes times 1/8, `-∞` at a masked key. -/
def score (b : Fin 4) (h : Fin 16) (i j : Fin 1024) : EReal :=
  if mask b j = 1#1 then (∑ d : Fin 64, proj x wqkv 0 b h i d * proj x wqkv 1 b h j d) * c8 else ninf

/-- A row's maximum, from `-∞`. -/
def rowmax (s : Fin 1024 → EReal) : EReal := (Finset.univ : Finset (Fin 1024)).fold max ninf s

/-- The softmax of a row at `j`. -/
def softmax (s : Fin 1024 → EReal) (j : Fin 1024) : EReal :=
  Ideal.div (Ideal.exp (s j - rowmax s)) (∑ j' : Fin 1024, Ideal.exp (s j' - rowmax s))

/-- The head's output for query `i` at lane `d`. -/
def attn (b : Fin 4) (h : Fin 16) (i : Fin 1024) (d : Fin 64) : EReal :=
  ∑ j : Fin 1024, softmax (score x mask wqkv b h i) j * proj x wqkv 2 b h j d

/-- The output projection of the joined heads, plus the bias. -/
def lin (b : Fin 4) (l : Fin 1024) (n : Fin 1024) : EReal :=
  (∑ e : Fin 1024, attn x mask wqkv b (headOf e) l (laneOf e) * wout n e) + bout n

/-- A row's mean. -/
def mean (y : Fin 1024 → EReal) : EReal := Ideal.div (∑ n : Fin 1024, y n) n1024

/-- The layer norm of a row at feature `n`. -/
def lnorm (y : Fin 1024 → EReal) (n : Fin 1024) : EReal :=
  ((y n - mean y) * Ideal.rsqrt (Ideal.div (∑ n' : Fin 1024, (y n' - mean y) * (y n' - mean y)) n1024 + eps)) * gamma n + beta n

/-- The whole function: entry `(b, l, n)` of the result. -/
def G (b : Fin 4) (l : Fin 1024) (n : Fin 1024) : EReal :=
  lnorm gamma beta (lin x mask wqkv wout bout b l) n

end

end Cert.Spec

end
-- ==== Proof.RefReadLayout.lean ====
/-
  The reference's layout operations read at an index.

  Splitting the heads: a slice of the fused projection's 3072 features starting at `s * 1024`, viewed as 16 heads of 64
  lanes and transposed to head-major, reads at (b, h, l, d) the projection's entry (b, l, s*1024 + h*64 + d).
  Joining the heads: the head-major result transposed back and viewed as 1024 features reads at (b, l, e) the entry of
  head `e / 64`, lane `e % 64`.
-/
import proofs.«144366_j37933151158411_2_alg».proof.ReferenceIdeal
import proofs.«144366_j37933151158411_2_alg».proof.Proof.Gen.ReferenceIdeal
import proofs.«144366_j37933151158411_2_alg».proof.Proof.Spec
import Idealize.ShloMosaic.Lib.ValueIdx
import Idealize.ShloMosaic.Lib.Pipeline.Value

namespace Cert.ReferenceIdeal.RefRead

open Idealize.ShloMosaic Idealize.ShloMosaic.ValueIdx Cert.ReferenceIdeal

variable {α : Type}

/-- Slot `s` of the fused projection, split into heads and made head-major, at (b, h, l, d). -/
theorem heads_apply (v : S4x1024x3072.Idx → α) (o : Nat) (s : Fin 3) (ho : o = s.val * 1024)
    (hs : S4x1024x3072.Slices ![0, 0, o] S4x1024x1024) (hc : S4x1024x1024.ShapeCasts S4x1024x16x64)
    (ht : S4x1024x16x64.Transposes [0, 2, 1, 3] S4x16x1024x64) (b : Fin 4) (h : Fin 16) (l : Fin 1024) (d : Fin 64) :
    transpose S4x16x1024x64 [0, 2, 1, 3] (shapeCast S4x1024x16x64 (extractStridedSlice S4x1024x1024 ![0, 0, o] v hs) hc) ht
        (ix4 b h l d)
      = v (ix3 b l (Cert.Spec.row s h d)) := by
  refine (transpose_apply [0, 2, 1, 3] _ ht (ix4 b h l d) (ix4 b l h d) ?_).trans ?_
  · intro a
    match a with
    | ⟨0, _⟩ => rfl
    | ⟨1, _⟩ => rfl
    | ⟨2, _⟩ => rfl
    | ⟨3, _⟩ => rfl
  refine (shapeCast_apply _ hc (ix4 b l h d) (ix3 b l (Cert.Spec.col h d)) ?_).trans ?_
  · rw [Shape.rowMajor_val_three, Shape.rowMajor_val_four]
    show (b.val * 1024 + l.val) * 1024 + (h.val * 64 + d.val) = ((b.val * 1024 + l.val) * 16 + h.val) * 64 + d.val
    omega
  refine extractStridedSlice_apply _ v hs (ix3 b l (Cert.Spec.col h d)) (ix3 b l (Cert.Spec.row s h d)) ?_
  intro a
  match a with
  | ⟨0, _⟩ => show b.val = 0 + b.val; omega
  | ⟨1, _⟩ => show l.val = 0 + l.val; omega
  | ⟨2, _⟩ => show s.val * 1024 + (h.val * 64 + d.val) = o + (h.val * 64 + d.val); omega

/-- The heads joined back into 1024 features, at (b, l, e): head `e / 64`, lane `e % 64`. -/
theorem join_apply (v : S4x16x1024x64.Idx → α) (ht : S4x16x1024x64.Transposes [0, 2, 1, 3] S4x1024x16x64)
    (hc : S4x1024x16x64.ShapeCasts S4x1024x1024) (b : Fin 4) (l e : Fin 1024) :
    shapeCast S4x1024x1024 (transpose S4x1024x16x64 [0, 2, 1, 3] v ht) hc (ix3 b l e)
      = v (ix4 b (Cert.Spec.headOf e) l (Cert.Spec.laneOf e)) := by
  refine (shapeCast_apply _ hc (ix3 b l e) (ix4 b l (Cert.Spec.headOf e) (Cert.Spec.laneOf e)) ?_).trans ?_
  · rw [Shape.rowMajor_val_three, Shape.rowMajor_val_four]
    show ((b.val * 1024 + l.val) * 16 + e.val / 64) * 64 + e.val % 64 = (b.val * 1024 + l.val) * 1024 + e.val
    omega
  refine transpose_apply [0, 2, 1, 3] v ht (ix4 b l (Cert.Spec.headOf e) (Cert.Spec.laneOf e))
    (ix4 b (Cert.Spec.headOf e) l (Cert.Spec.laneOf e)) ?_
  intro a
  match a with
  | ⟨0, _⟩ => rfl
  | ⟨1, _⟩ => rfl
  | ⟨2, _⟩ => rfl
  | ⟨3, _⟩ => rfl

end Cert.ReferenceIdeal.RefRead
-- ==== Proof.RefReadBcast.lean ====
/-
  The reference's broadcasts read at an index: a scalar to any shape; a row statistic [4,16,1024] through [4,16,1024,1]
  to [4,16,1024,1024]; the key mask [4,1024] through [4,1,1,1024] to [4,16,1024,1024]; a token statistic [4,1024] to
  [4,1024,1] and [4,1024,1] to [4,1024,1024]; a feature vector [1024] through [1,1,1024] to [4,1024,1024]. Each reads
  the operand at the coordinates it keeps.
-/
import proofs.«144366_j37933151158411_2_alg».proof.ReferenceIdeal
import Idealize.ShloMosaic.Lib.ValueIdx
import Idealize.ShloMosaic.Lib.Pipeline.Value

namespace Cert.ReferenceIdeal.RefRead

open Idealize.ShloMosaic Idealize.ShloMosaic.ValueIdx Cert.ReferenceIdeal

variable {α : Type}

/-- A scalar broadcast to any shape reads the scalar. -/
theorem bcast_scalar_apply {T : Shape} (h : S_.BroadcastsInDim T (![] : Fin 0 → Fin T.rank)) (x : S_.Idx → α) (j : T.Idx) :
    broadcastInDim T ![] h x j = x ix0 :=
  broadcastInDim_apply _ h x j ix0 (fun a => a.elim0)

/-- A row statistic [4,16,1024], given a unit last axis and spread along it, reads at (b, h, i, j) its entry (b, h, i). -/
theorem bcast_row_apply (x : S4x16x1024.Idx → α)
    (h1 : S4x16x1024.BroadcastsInDim S4x16x1024x1 (![0, 1, 2] : Fin 3 → Fin S4x16x1024x1.rank))
    (h2 : S4x16x1024x1.BroadcastsInDim S4x16x1024x1024 (![0, 1, 2, 3] : Fin 4 → Fin S4x16x1024x1024.rank))
    (b : Fin 4) (h : Fin 16) (i j : Fin 1024) :
    broadcastInDim S4x16x1024x1024 ![0, 1, 2, 3] h2 (broadcastInDim S4x16x1024x1 ![0, 1, 2] h1 x) (ix4 b h i j)
      = x (ix3 b h i) := by
  refine (broadcastInDim_apply _ h2 _ (ix4 b h i j) (ix4 b h i (0 : Fin 1)) ?_).trans ?_
  · intro a
    match a with
    | ⟨0, _⟩ => rfl
    | ⟨1, _⟩ => rfl
    | ⟨2, _⟩ => rfl
    | ⟨3, _⟩ => rfl
  refine broadcastInDim_apply _ h1 x (ix4 b h i (0 : Fin 1)) (ix3 b h i) ?_
  intro a
  match a with
  | ⟨0, _⟩ => rfl
  | ⟨1, _⟩ => rfl
  | ⟨2, _⟩ => rfl

/-- The key mask [4,1024], given unit head and query axes and spread along them, reads at (b, h, i, j) its entry (b, j). -/
theorem bcast_mask_apply (x : S4x1024.Idx → α)
    (h1 : S4x1024.BroadcastsInDim S4x1x1x1024 (![0, 3] : Fin 2 → Fin S4x1x1x1024.rank))
    (h2 : S4x1x1x1024.BroadcastsInDim S4x16x1024x1024 (![0, 1, 2, 3] : Fin 4 → Fin S4x16x1024x1024.rank))
    (b : Fin 4) (h : Fin 16) (i j : Fin 1024) :
    broadcastInDim S4x16x1024x1024 ![0, 1, 2, 3] h2 (broadcastInDim S4x1x1x1024 ![0, 3] h1 x) (ix4 b h i j)
      = x (ix2 b j) := by
  refine (broadcastInDim_apply _ h2 _ (ix4 b h i j) (ix4 b (0 : Fin 1) (0 : Fin 1) j) ?_).trans ?_
  · intro a
    match a with
    | ⟨0, _⟩ => rfl
    | ⟨1, _⟩ => rfl
    | ⟨2, _⟩ => rfl
    | ⟨3, _⟩ => rfl
  refine broadcastInDim_apply _ h1 x (ix4 b (0 : Fin 1) (0 : Fin 1) j) (ix2 b j) ?_
  intro a
  match a with
  | ⟨0, _⟩ => rfl
  | ⟨1, _⟩ => rfl

/-- A token statistic [4,1024] given a unit last axis reads at (b, l, 0) its entry (b, l). -/
theorem bcast_tokcol_apply (x : S4x1024.Idx → α)
    (h1 : S4x1024.BroadcastsInDim S4x1024x1 (![0, 1] : Fin 2 → Fin S4x1024x1.rank)) (b : Fin 4) (l : Fin 1024) (z : Fin 1) :
    broadcastInDim S4x1024x1 ![0, 1] h1 x (ix3 b l z) = x (ix2 b l) := by
  refine broadcastInDim_apply _ h1 x (ix3 b l z) (ix2 b l) ?_
  intro a
  match a with
  | ⟨0, _⟩ => rfl
  | ⟨1, _⟩ => rfl

/-- A token column [4,1024,1] spread along the features reads at (b, l, n) its entry (b, l, 0). -/
theorem bcast_tokrow_apply (x : S4x1024x1.Idx → α)
    (h1 : S4x1024x1.BroadcastsInDim S4x1024x1024 (![0, 1, 2] : Fin 3 → Fin S4x1024x1024.rank)) (b : Fin 4) (l n : Fin 1024) :
    broadcastInDim S4x1024x1024 ![0, 1, 2] h1 x (ix3 b l n) = x (ix3 b l (0 : Fin 1)) := by
  refine broadcastInDim_apply _ h1 x (ix3 b l n) (ix3 b l (0 : Fin 1)) ?_
  intro a
  match a with
  | ⟨0, _⟩ => rfl
  | ⟨1, _⟩ => rfl
  | ⟨2, _⟩ => rfl

/-- A feature vector [1024], given unit batch and token axes and spread along them, reads at (b, l, n) its entry n. -/
theorem bcast_feat_apply (x : S1024.Idx → α)
    (h1 : S1024.BroadcastsInDim S1x1x1024 (![2] : Fin 1 → Fin S1x1x1024.rank))
    (h2 : S1x1x1024.BroadcastsInDim S4x1024x1024 (![0, 1, 2] : Fin 3 → Fin S4x1024x1024.rank)) (b : Fin 4) (l n : Fin 1024) :
    broadcastInDim S4x1024x1024 ![0, 1, 2] h2 (broadcastInDim S1x1x1024 ![2] h1 x) (ix3 b l n) = x (ix1 n) := by
  refine (broadcastInDim_apply _ h2 _ (ix3 b l n) (ix3 (0 : Fin 1) (0 : Fin 1) n) ?_).trans ?_
  · intro a
    match a with
    | ⟨0, _⟩ => rfl
    | ⟨1, _⟩ => rfl
    | ⟨2, _⟩ => rfl
  refine broadcastInDim_apply _ h1 x (ix3 (0 : Fin 1) (0 : Fin 1) n) (ix1 n) ?_
  intro a
  match a with
  | ⟨0, _⟩ => rfl

end Cert.ReferenceIdeal.RefRead
-- ==== Proof.RefReadReduce.lean ====
/-
  The reference's three reductions over a last axis, read at an index.

  The row maximum of a [4,16,1024,1024] array over its keys is, at (b, h, i), the fold of `max` from the initial value over
  the 1024 entries (b, h, i, j); the sum over the keys is the initial value plus the sum of those entries; and the sum of a
  [4,1024,1024] array over its features is, at (b, l), the initial value plus the sum of the entries (b, l, n).
-/
import proofs.«144366_j37933151158411_2_alg».proof.ReferenceIdeal
import proofs.«144366_j37933151158411_2_alg».proof.Proof.Gen.ReferenceIdeal
import Idealize.ShloMosaic.Lib.ValueIdx
import Idealize.ShloMosaic.PureOps.Ideal.Laws

open scoped BigOperators

namespace Cert.ReferenceIdeal.RefRead

open Idealize.ShloMosaic Idealize.ShloMosaic.ValueIdx Cert.ReferenceIdeal

/-- The reduced index (b, h, i) with key `k` put back is (b, h, i, k). -/
theorem lift_keys (h : S4x16x1024x1024.Reduces [3] S4x16x1024) (b : Fin 4) (hd : Fin 16) (i : Fin 1024)
    (k : Fin (S4x16x1024x1024.size 3)) : h.lift (ix3 b hd i) k = ix4 b hd i (⟨k.val, k.isLt⟩ : Fin 1024) := by
  funext c; apply Fin.ext
  fin_cases c <;> rfl

/-- The reduced index (b, l) with feature `k` put back is (b, l, k). -/
theorem lift_feats (h : S4x1024x1024.Reduces [2] S4x1024) (b : Fin 4) (l : Fin 1024)
    (k : Fin (S4x1024x1024.size 2)) : h.lift (ix2 b l) k = ix3 b l (⟨k.val, k.isLt⟩ : Fin 1024) := by
  funext c; apply Fin.ext
  fin_cases c <;> rfl

/-- The maximum over the keys at (b, h, i): the fold of `max` from the initial value over the row. -/
theorem rowmax_apply (s : FVec Ideal S4x16x1024x1024 .f32) (m : FVec Ideal S_ .f32)
    (h' : S4x16x1024x1024.ReducesTo [3] S4x16x1024) (hu : 0 < S_.numel) (b : Fin 4) (hd : Fin 16) (i : Fin 1024) :
    Host.reduce FloatOps.maximumf s m h' hu (ix3 b hd i)
      = (Finset.univ : Finset (Fin 1024)).fold max (m ix0) (fun j => s (ix4 b hd i j)) := by
  have h : S4x16x1024x1024.Reduces [3] S4x16x1024 := by decide
  refine (Host.reduce_eq_fold_single FloatOps.maximumf s m h' h hu (ix3 b hd i)).trans ?_
  have e : (s ∘ h.lift (ix3 b hd i)) = fun j : Fin 1024 => s (ix4 b hd i j) :=
    funext fun k => congrArg s (lift_keys h b hd i k)
  rw [e, eq_ix0 (Shape.Idx.first hu)]
  rfl

/-- The sum over the keys at (b, h, i): the initial value plus the sum of the row. -/
theorem rowsum_apply (e : FVec Ideal S4x16x1024x1024 .f32) (z : FVec Ideal S_ .f32)
    (h' : S4x16x1024x1024.ReducesTo [3] S4x16x1024) (hu : 0 < S_.numel) (b : Fin 4) (hd : Fin 16) (i : Fin 1024) :
    Host.reduceAdd (F := Ideal) e z h' hu (ix3 b hd i) = z ix0 + ∑ j : Fin 1024, e (ix4 b hd i j) := by
  have h : S4x16x1024x1024.Reduces [3] S4x16x1024 := by decide
  show Ideal.hostReduceAdd h' e (z (Shape.Idx.first hu)) (ix3 b hd i) = _
  rw [Ideal.hostReduceAdd_single h' h, eq_ix0 (Shape.Idx.first hu)]
  exact congrArg (z ix0 + ·) (Finset.sum_congr rfl fun k _ => congrArg e (lift_keys h b hd i k))

/-- The sum over the features at (b, l): the initial value plus the sum of the row. -/
theorem toksum_apply (y : FVec Ideal S4x1024x1024 .f32) (z : FVec Ideal S_ .f32)
    (h' : S4x1024x1024.ReducesTo [2] S4x1024) (hu : 0 < S_.numel) (b : Fin 4) (l : Fin 1024) :
    Host.reduceAdd (F := Ideal) y z h' hu (ix2 b l) = z ix0 + ∑ n : Fin 1024, y (ix3 b l n) := by
  have h : S4x1024x1024.Reduces [2] S4x1024 := by decide
  show Ideal.hostReduceAdd h' y (z (Shape.Idx.first hu)) (ix2 b l) = _
  rw [Ideal.hostReduceAdd_single h' h, eq_ix0 (Shape.Idx.first hu)]
  exact congrArg (z ix0 + ·) (Finset.sum_congr rfl fun k _ => congrArg y (lift_feats h b l k))

end Cert.ReferenceIdeal.RefRead
-- ==== Proof.RefReadSoftmax.lean ====
/-
  The reference's masked scores and its softmax, read at an index.

  The score of query `i` against key `j` in batch `b`, head `h` is the product over the 64 lanes times the scale where the
  key's mask bit is set, and the fill value elsewhere. The softmax of a row of scores subtracts the row's maximum (taken
  from -∞, and once more against -∞, which changes nothing), exponentiates, and divides by the row's sum of exponentials
  (taken from 0).
-/
import proofs.«144366_j37933151158411_2_alg».proof.Proof.RefReadDot
import proofs.«144366_j37933151158411_2_alg».proof.Proof.RefReadBcast
import proofs.«144366_j37933151158411_2_alg».proof.Proof.RefReadReduce
import proofs.«144366_j37933151158411_2_alg».proof.Proof.Spec

open scoped BigOperators

namespace Cert.ReferenceIdeal.RefRead

open Idealize.ShloMosaic Idealize.ShloMosaic.ValueIdx Cert.ReferenceIdeal

/-- The masked, scaled scores at (b, h, i, j). -/
theorem score_apply (q k : FVec Ideal S4x16x1024x64 .f32) (mask : IVec S4x1024 1) (c8v fill : FVec Ideal S_ .f32)
    (hb0 : S_.BroadcastsInDim S4x16x1024x1024 (![] : Fin 0 → Fin S4x16x1024x1024.rank))
    (h1 : S4x1024.BroadcastsInDim S4x1x1x1024 (![0, 3] : Fin 2 → Fin S4x1x1x1024.rank))
    (h2 : S4x1x1x1024.BroadcastsInDim S4x16x1024x1024 (![0, 1, 2, 3] : Fin 4 → Fin S4x16x1024x1024.rank))
    (b : Fin 4) (h : Fin 16) (i j : Fin 1024) :
    select (broadcastInDim S4x16x1024x1024 ![0, 1, 2, 3] h2 (broadcastInDim S4x1x1x1024 ![0, 3] h1 mask))
        (mulf (Host.dotGeneral (F := Ideal) dot_S4x16x1024x64_S4x16x1024x64_S4x16x1024x1024_3_3_2_2_01_01 none q k)
          (broadcastInDim S4x16x1024x1024 ![] hb0 c8v))
        (broadcastInDim S4x16x1024x1024 ![] hb0 fill) (ix4 b h i j)
      = if mask (ix2 b j) = 1#1 then (∑ d : Fin 64, q (ix4 b h i d) * k (ix4 b h j d)) * c8v ix0 else fill ix0 := by
  rw [select_apply, bcast_mask_apply, mulf_apply, dot_scores_apply, bcast_scalar_apply, bcast_scalar_apply]
  rfl

/-- -∞ is the least extended real. -/
theorem ninf_eq_bot : Cert.Spec.ninf = (⊥ : EReal) := by
  simp [Cert.Spec.ninf, Ideal.ofBits, Ideal.ieee]

/-- The row maximum, spread back along the keys, at (b, h, i, j): the maximum of row (b, h, i). -/
theorem rowmaxB_apply (s : FVec Ideal S4x16x1024x1024 .f32) (m1 m2 : FVec Ideal S_ .f32)
    (hm1 : m1 ix0 = Cert.Spec.ninf) (hm2 : m2 ix0 = Cert.Spec.ninf)
    (h' : S4x16x1024x1024.ReducesTo [3] S4x16x1024) (hu : 0 < S_.numel)
    (hb : S_.BroadcastsInDim S4x16x1024 (![] : Fin 0 → Fin S4x16x1024.rank))
    (hb1 : S4x16x1024.BroadcastsInDim S4x16x1024x1 (![0, 1, 2] : Fin 3 → Fin S4x16x1024x1.rank))
    (hb2 : S4x16x1024x1.BroadcastsInDim S4x16x1024x1024 (![0, 1, 2, 3] : Fin 4 → Fin S4x16x1024x1024.rank))
    (b : Fin 4) (h : Fin 16) (i j : Fin 1024) :
    broadcastInDim S4x16x1024x1024 ![0, 1, 2, 3] hb2 (broadcastInDim S4x16x1024x1 ![0, 1, 2] hb1
        (maximumf (broadcastInDim S4x16x1024 ![] hb m2) (Host.reduce FloatOps.maximumf s m1 h' hu))) (ix4 b h i j)
      = Cert.Spec.rowmax (fun j' => s (ix4 b h i j')) := by
  rw [bcast_row_apply, maximumf_apply, bcast_scalar_apply, rowmax_apply, hm1, hm2]
  unfold Cert.Spec.rowmax
  rw [ninf_eq_bot]
  exact max_eq_right bot_le

/-- A row of nonnegative weights over its sum, at (b, h, i, j). -/
theorem normalize_apply (e : FVec Ideal S4x16x1024x1024 .f32) (z : FVec Ideal S_ .f32) (hz : z ix0 = 0)
    (h' : S4x16x1024x1024.ReducesTo [3] S4x16x1024) (hu : 0 < S_.numel)
    (hb1 : S4x16x1024.BroadcastsInDim S4x16x1024x1 (![0, 1, 2] : Fin 3 → Fin S4x16x1024x1.rank))
    (hb2 : S4x16x1024x1.BroadcastsInDim S4x16x1024x1024 (![0, 1, 2, 3] : Fin 4 → Fin S4x16x1024x1024.rank))
    (b : Fin 4) (h : Fin 16) (i j : Fin 1024) :
    Host.divf (F := Ideal) e (broadcastInDim S4x16x1024x1024 ![0, 1, 2, 3] hb2 (broadcastInDim S4x16x1024x1 ![0, 1, 2] hb1
        (Host.reduceAdd (F := Ideal) e z h' hu))) (ix4 b h i j)
      = Ideal.div (e (ix4 b h i j)) (∑ j' : Fin 1024, e (ix4 b h i j')) := by
  show Ideal.div (e (ix4 b h i j)) _ = _
  rw [bcast_row_apply, rowsum_apply, hz, zero_add]

/-- The softmax of the rows of `s`, at (b, h, i, j). -/
theorem softmax_apply (s : FVec Ideal S4x16x1024x1024 .f32) (m1 m2 z : FVec Ideal S_ .f32)
    (hm1 : m1 ix0 = Cert.Spec.ninf) (hm2 : m2 ix0 = Cert.Spec.ninf) (hz : z ix0 = 0)
    (h' : S4x16x1024x1024.ReducesTo [3] S4x16x1024) (hu : 0 < S_.numel)
    (hb : S_.BroadcastsInDim S4x16x1024 (![] : Fin 0 → Fin S4x16x1024.rank))
    (hb1 : S4x16x1024.BroadcastsInDim S4x16x1024x1 (![0, 1, 2] : Fin 3 → Fin S4x16x1024x1.rank))
    (hb2 : S4x16x1024x1.BroadcastsInDim S4x16x1024x1024 (![0, 1, 2, 3] : Fin 4 → Fin S4x16x1024x1024.rank))
    (b : Fin 4) (h : Fin 16) (i j : Fin 1024) :
    Host.divf (F := Ideal)
        (Host.exp (F := Ideal) (subf s (broadcastInDim S4x16x1024x1024 ![0, 1, 2, 3] hb2 (broadcastInDim S4x16x1024x1 ![0, 1, 2] hb1
          (maximumf (broadcastInDim S4x16x1024 ![] hb m2) (Host.reduce FloatOps.maximumf s m1 h' hu))))))
        (broadcastInDim S4x16x1024x1024 ![0, 1, 2, 3] hb2 (broadcastInDim S4x16x1024x1 ![0, 1, 2] hb1
          (Host.reduceAdd (F := Ideal)
            (Host.exp (F := Ideal) (subf s (broadcastInDim S4x16x1024x1024 ![0, 1, 2, 3] hb2 (broadcastInDim S4x16x1024x1 ![0, 1, 2] hb1
              (maximumf (broadcastInDim S4x16x1024 ![] hb m2) (Host.reduce FloatOps.maximumf s m1 h' hu))))))
            z h' hu))) (ix4 b h i j)
      = Cert.Spec.softmax (fun j' => s (ix4 b h i j')) j := by
  rw [normalize_apply _ z hz]
  unfold Cert.Spec.softmax
  have ex : ∀ j' : Fin 1024,
      Host.exp (F := Ideal) (subf s (broadcastInDim S4x16x1024x1024 ![0, 1, 2, 3] hb2 (broadcastInDim S4x16x1024x1 ![0, 1, 2] hb1
          (maximumf (broadcastInDim S4x16x1024 ![] hb m2) (Host.reduce FloatOps.maximumf s m1 h' hu))))) (ix4 b h i j')
        = Ideal.exp (s (ix4 b h i j') - Cert.Spec.rowmax (fun j'' => s (ix4 b h i j''))) := by
    intro j'
    show Ideal.exp (s (ix4 b h i j') - _) = _
    rw [rowmaxB_apply s m1 m2 hm1 hm2]
  rw [ex j]
  exact congrArg _ (Finset.sum_congr rfl fun j' _ => ex j')

end Cert.ReferenceIdeal.RefRead
-- ==== Proof.RefReadLin.lean ====
/-
  The reference's output projection read at an index.

  The weighted values of all heads, transposed back to token-major and joined into 1024 features, multiplied by the output
  weight, plus the bias: at (b, l, n) the sum over the joined feature `e` of head `e / 64`'s weighted value at lane
  `e % 64` times the weight's entry (n, e), plus the bias at n.
-/
import proofs.«144366_j37933151158411_2_alg».proof.Proof.RefReadDot
import proofs.«144366_j37933151158411_2_alg».proof.Proof.RefReadLayout
import proofs.«144366_j37933151158411_2_alg».proof.Proof.RefReadBcast
import proofs.«144366_j37933151158411_2_alg».proof.Proof.Spec

open scoped BigOperators

namespace Cert.ReferenceIdeal.RefRead

open Idealize.ShloMosaic Idealize.ShloMosaic.ValueIdx Cert.ReferenceIdeal

/-- The output projection of the joined heads plus the bias, at (b, l, n). -/
theorem lin_apply (p : FVec Ideal S4x16x1024x1024 .f32) (v : FVec Ideal S4x16x1024x64 .f32)
    (wo : FVec Ideal S1024x1024 .f32) (bo : FVec Ideal S1024 .f32)
    (ht : S4x16x1024x64.Transposes [0, 2, 1, 3] S4x1024x16x64) (hc : S4x1024x16x64.ShapeCasts S4x1024x1024)
    (h1 : S1024.BroadcastsInDim S1x1x1024 (![2] : Fin 1 → Fin S1x1x1024.rank))
    (h2 : S1x1x1024.BroadcastsInDim S4x1024x1024 (![0, 1, 2] : Fin 3 → Fin S4x1024x1024.rank))
    (b : Fin 4) (l n : Fin 1024) :
    addf (Host.dotGeneral (F := Ideal) dot_S4x1024x1024_S1024x1024_S4x1024x1024_2_1_01_0_n_n none
          (shapeCast S4x1024x1024 (transpose S4x1024x16x64 [0, 2, 1, 3]
            (Host.dotGeneral (F := Ideal) dot_S4x16x1024x1024_S4x16x1024x64_S4x16x1024x64_3_2_2_3_01_01 none p v) ht) hc) wo)
        (broadcastInDim S4x1024x1024 ![0, 1, 2] h2 (broadcastInDim S1x1x1024 ![2] h1 bo)) (ix3 b l n)
      = (∑ e : Fin 1024, (∑ j : Fin 1024, p (ix4 b (Cert.Spec.headOf e) l j) * v (ix4 b (Cert.Spec.headOf e) j (Cert.Spec.laneOf e)))
            * wo (ix2 n e)) + bo (ix1 n) := by
  rw [addf_apply, dot_out_apply, bcast_feat_apply]
  refine congrArg (· + bo (ix1 n)) (Finset.sum_congr rfl fun e _ => ?_)
  rw [join_apply, dot_values_apply]

end Cert.ReferenceIdeal.RefRead
-- ==== Proof.RefReadNorm.lean ====
/-
  The reference's closing layer norm read at an index.

  A row's mean is its sum (taken from 0) over 1024. The variance the reference computes is the sum of the squared
  deviations from the mean over `1024 - 0` (the correction term is the integer 0 converted to a float), kept when that
  divisor is positive — it is — and replaced by a fill value otherwise. The result at (b, l, n) is the deviation of entry n
  times the reciprocal square root of the variance plus ε, times the scale at n, plus the shift at n.
-/
import proofs.«144366_j37933151158411_2_alg».proof.Proof.RefReadBcast
import proofs.«144366_j37933151158411_2_alg».proof.Proof.RefReadReduce
import proofs.«144366_j37933151158411_2_alg».proof.Proof.Spec

open scoped BigOperators

namespace Cert.ReferenceIdeal.RefRead

open Idealize.ShloMosaic Idealize.ShloMosaic.ValueIdx Cert.ReferenceIdeal Cert.ReferenceIdeal.Gen

/-- The pattern of 1024.0 denotes the real 1024. -/
theorem n1024_eq : Cert.Spec.n1024 = ((1024 : ℝ) : EReal) := by
  simp [Cert.Spec.n1024, Ideal.ofBits, Ideal.ieee, -EReal.coe_mul]; norm_num

/-- The row mean, spread back along the features, at (b, l, n). -/
theorem meanB_apply (y : FVec Ideal S4x1024x1024 .f32) (z nv : FVec Ideal S_ .f32) (hz : z ix0 = 0) (hn : nv ix0 = Cert.Spec.n1024)
    (b : Fin 4) (l n : Fin 1024) :
    (broadcastInDim S4x1024x1024 ![0, 1, 2] bcast_S4x1024x1_S4x1024x1024_0_1_2 (Host.divf (F := Ideal) (broadcastInDim S4x1024x1 ![0, 1] bcast_S4x1024_S4x1024x1_0_1 (Host.reduceAdd (F := Ideal) y z reducesTo_S4x1024x1024_S4x1024_d2 h_S_)) (broadcastInDim S4x1024x1 ![] bcast_S_S4x1024x1 nv))) (ix3 b l n)
      = Cert.Spec.mean (fun n' => y (ix3 b l n')) := by
  rw [bcast_tokrow_apply]
  show Ideal.div ((broadcastInDim S4x1024x1 ![0, 1] bcast_S4x1024_S4x1024x1_0_1 (Host.reduceAdd (F := Ideal) y z reducesTo_S4x1024x1024_S4x1024_d2 h_S_)) (ix3 b l (0 : Fin 1))) ((broadcastInDim S4x1024x1 ![] bcast_S_S4x1024x1 nv) (ix3 b l (0 : Fin 1))) = _
  rw [bcast_tokcol_apply, toksum_apply, bcast_scalar_apply, hz, hn, zero_add]
  rfl

/-- The divisor `1024 - 0` is 1024. -/
theorem divisor_eq (n2 : FVec Ideal S_ .f32) (cI : IVec S_ 32) (hn : n2 ix0 = Cert.Spec.n1024) (hc : cI ix0 = 0#32) :
    (subf n2 (sitofp .f32 cI)) ix0 = Cert.Spec.n1024 := by
  show n2 ix0 - FloatOps.sitofp (F := Ideal) .f32 (cI ix0) = _
  rw [hn, hc]
  show Cert.Spec.n1024 - (((0#32 : BitVec 32).toInt : ℝ) : EReal) = _
  simp

/-- The variance of the deviations `dev`, at (b, l, 0): the sum of their squares over 1024. -/
theorem var_apply (dev : FVec Ideal S4x1024x1024 .f32) (z z3 n2 nan : FVec Ideal S_ .f32) (cI : IVec S_ 32)
    (hz : z ix0 = 0) (hz3 : z3 ix0 = 0) (hn : n2 ix0 = Cert.Spec.n1024) (hc : cI ix0 = 0#32) (b : Fin 4) (l : Fin 1024) :
    (select (broadcastInDim S4x1024x1 ![] bcast_S_S4x1024x1 (cmpf .ogt (subf n2 (sitofp .f32 cI)) z3)) (Host.divf (F := Ideal) (broadcastInDim S4x1024x1 ![0, 1] bcast_S4x1024_S4x1024x1_0_1 (Host.reduceAdd (F := Ideal) (mulf dev dev) z reducesTo_S4x1024x1024_S4x1024_d2 h_S_)) (broadcastInDim S4x1024x1 ![] bcast_S_S4x1024x1 (subf n2 (sitofp .f32 cI)))) (broadcastInDim S4x1024x1 ![] bcast_S_S4x1024x1 nan)) (ix3 b l (0 : Fin 1))
      = Ideal.div (∑ n' : Fin 1024, dev (ix3 b l n') * dev (ix3 b l n')) Cert.Spec.n1024 := by
  rw [select_apply, bcast_scalar_apply, cmpf_apply, divisor_eq n2 cI hn hc, hz3]
  have hpos : FloatOps.cmpf (F := Ideal) (φ := .f32) .ogt Cert.Spec.n1024 (0 : EReal) = 1#1 := by
    rw [Ideal.cmpf_def, n1024_eq]
    simp [Ideal.cmp]
  rw [hpos, select_one]
  show Ideal.div ((broadcastInDim S4x1024x1 ![0, 1] bcast_S4x1024_S4x1024x1_0_1 (Host.reduceAdd (F := Ideal) (mulf dev dev) z reducesTo_S4x1024x1024_S4x1024_d2 h_S_)) (ix3 b l (0 : Fin 1))) ((broadcastInDim S4x1024x1 ![] bcast_S_S4x1024x1 (subf n2 (sitofp .f32 cI))) (ix3 b l (0 : Fin 1))) = _
  rw [bcast_tokcol_apply, toksum_apply, bcast_scalar_apply, divisor_eq n2 cI hn hc, hz, zero_add]
  rfl

/-- The layer norm of the rows of `y`, at (b, l, n). -/
theorem lnorm_apply (y : FVec Ideal S4x1024x1024 .f32) (z0 n0 z1 n1 z2 z3 n2 nan epsv : FVec Ideal S_ .f32) (cI : IVec S_ 32)
    (g be : FVec Ideal S1024 .f32)
    (hz0 : z0 ix0 = 0) (hn0 : n0 ix0 = Cert.Spec.n1024) (hz1 : z1 ix0 = 0) (hn1 : n1 ix0 = Cert.Spec.n1024)
    (hz2 : z2 ix0 = 0) (hz3 : z3 ix0 = 0) (hn2 : n2 ix0 = Cert.Spec.n1024) (hc : cI ix0 = 0#32) (he : epsv ix0 = Cert.Spec.eps)
    (b : Fin 4) (l n : Fin 1024) :
    (addf (mulf (mulf (subf y (broadcastInDim S4x1024x1024 ![0, 1, 2] bcast_S4x1024x1_S4x1024x1024_0_1_2 (Host.divf (F := Ideal) (broadcastInDim S4x1024x1 ![0, 1] bcast_S4x1024_S4x1024x1_0_1 (Host.reduceAdd (F := Ideal) y z0 reducesTo_S4x1024x1024_S4x1024_d2 h_S_)) (broadcastInDim S4x1024x1 ![] bcast_S_S4x1024x1 n0)))) (broadcastInDim S4x1024x1024 ![0, 1, 2] bcast_S4x1024x1_S4x1024x1024_0_1_2 (Host.rsqrt (F := Ideal) (addf (select (broadcastInDim S4x1024x1 ![] bcast_S_S4x1024x1 (cmpf .ogt (subf n2 (sitofp .f32 cI)) z3)) (Host.divf (F := Ideal) (broadcastInDim S4x1024x1 ![0, 1] bcast_S4x1024_S4x1024x1_0_1 (Host.reduceAdd (F := Ideal) (mulf (subf y (broadcastInDim S4x1024x1024 ![0, 1, 2] bcast_S4x1024x1_S4x1024x1024_0_1_2 (Host.divf (F := Ideal) (broadcastInDim S4x1024x1 ![0, 1] bcast_S4x1024_S4x1024x1_0_1 (Host.reduceAdd (F := Ideal) y z1 reducesTo_S4x1024x1024_S4x1024_d2 h_S_)) (broadcastInDim S4x1024x1 ![] bcast_S_S4x1024x1 n1)))) (subf y (broadcastInDim S4x1024x1024 ![0, 1, 2] bcast_S4x1024x1_S4x1024x1024_0_1_2 (Host.divf (F := Ideal) (broadcastInDim S4x1024x1 ![0, 1] bcast_S4x1024_S4x1024x1_0_1 (Host.reduceAdd (F := Ideal) y z1 reducesTo_S4x1024x1024_S4x1024_d2 h_S_)) (broadcastInDim S4x1024x1 ![] bcast_S_S4x1024x1 n1))))) z2 reducesTo_S4x1024x1024_S4x1024_d2 h_S_)) (broadcastInDim S4x1024x1 ![] bcast_S_S4x1024x1 (subf n2 (sitofp .f32 cI)))) (broadcastInDim S4x1024x1 ![] bcast_S_S4x1024x1 nan)) (broadcastInDim S4x1024x1 ![] bcast_S_S4x1024x1 epsv))))) (broadcastInDim S4x1024x1024 ![0, 1, 2] bcast_S1x1x1024_S4x1024x1024_0_1_2 (broadcastInDim S1x1x1024 ![2] bcast_S1024_S1x1x1024_2 g))) (broadcastInDim S4x1024x1024 ![0, 1, 2] bcast_S1x1x1024_S4x1024x1024_0_1_2 (broadcastInDim S1x1x1024 ![2] bcast_S1024_S1x1x1024_2 be))) (ix3 b l n)
      = Cert.Spec.lnorm (fun n => g (ix1 n)) (fun n => be (ix1 n)) (fun n' => y (ix3 b l n')) n := by
  rw [addf_apply, mulf_apply, mulf_apply, subf_apply, bcast_feat_apply, bcast_feat_apply, meanB_apply y z0 n0 hz0 hn0,
    bcast_tokrow_apply]
  show ((y (ix3 b l n) - _) * Ideal.rsqrt ((select (broadcastInDim S4x1024x1 ![] bcast_S_S4x1024x1 (cmpf .ogt (subf n2 (sitofp .f32 cI)) z3)) (Host.divf (F := Ideal) (broadcastInDim S4x1024x1 ![0, 1] bcast_S4x1024_S4x1024x1_0_1 (Host.reduceAdd (F := Ideal) (mulf (subf y (broadcastInDim S4x1024x1024 ![0, 1, 2] bcast_S4x1024x1_S4x1024x1024_0_1_2 (Host.divf (F := Ideal) (broadcastInDim S4x1024x1 ![0, 1] bcast_S4x1024_S4x1024x1_0_1 (Host.reduceAdd (F := Ideal) y z1 reducesTo_S4x1024x1024_S4x1024_d2 h_S_)) (broadcastInDim S4x1024x1 ![] bcast_S_S4x1024x1 n1)))) (subf y (broadcastInDim S4x1024x1024 ![0, 1, 2] bcast_S4x1024x1_S4x1024x1024_0_1_2 (Host.divf (F := Ideal) (broadcastInDim S4x1024x1 ![0, 1] bcast_S4x1024_S4x1024x1_0_1 (Host.reduceAdd (F := Ideal) y z1 reducesTo_S4x1024x1024_S4x1024_d2 h_S_)) (broadcastInDim S4x1024x1 ![] bcast_S_S4x1024x1 n1))))) z2 reducesTo_S4x1024x1024_S4x1024_d2 h_S_)) (broadcastInDim S4x1024x1 ![] bcast_S_S4x1024x1 (subf n2 (sitofp .f32 cI)))) (broadcastInDim S4x1024x1 ![] bcast_S_S4x1024x1 nan)) (ix3 b l (0 : Fin 1)) + (broadcastInDim S4x1024x1 ![] bcast_S_S4x1024x1 epsv) (ix3 b l (0 : Fin 1)))) * _ + _ = _
  rw [var_apply _ z2 z3 n2 nan cI hz2 hz3 hn2 hc, bcast_scalar_apply, he]
  have hd : ∀ n' : Fin 1024, (subf y (broadcastInDim S4x1024x1024 ![0, 1, 2] bcast_S4x1024x1_S4x1024x1024_0_1_2 (Host.divf (F := Ideal) (broadcastInDim S4x1024x1 ![0, 1] bcast_S4x1024_S4x1024x1_0_1 (Host.reduceAdd (F := Ideal) y z1 reducesTo_S4x1024x1024_S4x1024_d2 h_S_)) (broadcastInDim S4x1024x1 ![] bcast_S_S4x1024x1 n1)))) (ix3 b l n') = y (ix3 b l n') - Cert.Spec.mean (fun n'' => y (ix3 b l n'')) := by
    intro n'
    rw [subf_apply, meanB_apply y z1 n1 hz1 hn1]
  simp only [hd]
  rfl

end Cert.ReferenceIdeal.RefRead
-- ==== Proof.RefRead.lean ====
/-
  The reference's result read at an index is the specification.

  Entry (b, l, n) of the reference's result is the layer norm, at feature n, of the row of the output projection for
  token (b, l); each entry of that row is the bias plus the sum over the joined features of the head's weighted value
  times the output weight; a head's weighted value is the softmax of its masked, scaled scores against the values; and
  queries, keys and values are the three slots of the fused projection. Each step is one of the stage lemmas, chained
  from the result inwards.
-/
import proofs.«144366_j37933151158411_2_alg».proof.Proof.RefTerm
import proofs.«144366_j37933151158411_2_alg».proof.Proof.RefReadDot
import proofs.«144366_j37933151158411_2_alg».proof.Proof.RefReadLayout
import proofs.«144366_j37933151158411_2_alg».proof.Proof.RefReadSoftmax
import proofs.«144366_j37933151158411_2_alg».proof.Proof.RefReadLin
import proofs.«144366_j37933151158411_2_alg».proof.Proof.RefReadNorm
import proofs.«144366_j37933151158411_2_alg».proof.Proof.Spec

open scoped BigOperators

namespace Cert.ReferenceIdeal.RefRead

open Idealize.ShloMosaic Idealize.ShloMosaic.ValueIdx Cert.ReferenceIdeal Cert.ReferenceIdeal.Gen

/-- Entry (b, l, n) of the reference's result is the specification's. -/
theorem out_apply (a0 : (⟨S4x1024x1024, .f32⟩ : BufTy).Contents (Elt Ideal)) (a1 : (⟨S4x1024, .i1⟩ : BufTy).Contents (Elt Ideal))
    (a2 : (⟨S3072x1024, .f32⟩ : BufTy).Contents (Elt Ideal)) (a3 : (⟨S1024x1024, .f32⟩ : BufTy).Contents (Elt Ideal))
    (a4 a5 a6 : (⟨S1024, .f32⟩ : BufTy).Contents (Elt Ideal)) (b : Fin 4) (l n : Fin 1024) :
    Cert.ReferenceIdeal.RefTerm.out (F := Ideal) a0 a1 a2 a3 a4 a5 a6 (ix3 b l n)
      = Cert.Spec.G (fun b l c => a0 (ix3 b l c)) (fun b j => a1 (ix2 b j)) (fun e c => a2 (ix2 e c))
          (fun n e => a3 (ix2 n e)) (fun n => a4 (ix1 n)) (fun n => a5 (ix1 n)) (fun n => a6 (ix1 n)) b l n := by
  unfold Cert.ReferenceIdeal.RefTerm.out
  dsimp only
  refine (lnorm_apply _ _ _ _ _ _ _ _ _ _ _ _ _ Ideal.ofBits_zero_f32 rfl Ideal.ofBits_zero_f32 rfl
    Ideal.ofBits_zero_f32 Ideal.ofBits_zero_f32 rfl rfl rfl b l n).trans ?_
  unfold Cert.Spec.G
  refine congrArg (fun yy => Cert.Spec.lnorm _ _ yy n) (funext fun n' => ?_)
  refine (lin_apply _ _ _ _ _ _ _ _ b l n').trans ?_
  unfold Cert.Spec.lin
  refine congrArg (· + a4 (ix1 n')) (Finset.sum_congr rfl fun e _ => congrArg (· * a3 (ix2 n' e)) ?_)
  unfold Cert.Spec.attn
  refine Finset.sum_congr rfl fun j _ => ?_
  refine congrArg₂ (· * ·) ?_ ?_
  · refine (softmax_apply _ _ _ _ rfl rfl Ideal.ofBits_zero_f32 _ _ _ _ _ b (Cert.Spec.headOf e) l j).trans ?_
    refine congrArg (fun s => Cert.Spec.softmax s j) (funext fun j' => ?_)
    refine (score_apply _ _ _ _ _ _ _ _ b (Cert.Spec.headOf e) l j').trans ?_
    unfold Cert.Spec.score
    refine if_congr Iff.rfl (congrArg (· * Cert.Spec.c8) (Finset.sum_congr rfl fun d _ => congrArg₂ (· * ·) ?_ ?_)) rfl
    · exact (heads_apply _ 0 0 rfl _ _ _ b (Cert.Spec.headOf e) l d).trans (dot_qkv_apply a0 a2 b l _)
    · exact (heads_apply _ 1024 1 rfl _ _ _ b (Cert.Spec.headOf e) j' d).trans (dot_qkv_apply a0 a2 b j' _)
  · exact (heads_apply _ 2048 2 rfl _ _ _ b (Cert.Spec.headOf e) j (Cert.Spec.laneOf e)).trans (dot_qkv_apply a0 a2 b j _)

end Cert.ReferenceIdeal.RefRead
-- ==== Proof.KResult.lean ====
/-
  The arguments of the kernel's program, read by coordinates, and the array the program must end with: the
  specification's function of them, entry by entry.
-/
import proofs.«144366_j37933151158411_2_alg».proof.KernelIdeal
import proofs.«144366_j37933151158411_2_alg».proof.Proof.Spec

noncomputable section

namespace Cert.KernelIdeal.KResult

open Idealize.ShloMosaic Idealize.ShloMosaic.ValueIdx Idealize.ShloMosaic.TcCoe Idealize.SL.Sem Cert.KernelIdeal

variable (m : (ℓ : Loc nD τ sig) → Buf (Elt Ideal) ℓ) (c : Dev nD)

abbrev ax : Fin 4 → Fin 1024 → Fin 1024 → EReal :=
  fun b l k => (m ((c.tc : Thread nD τ).loc main_arg0) : S4x1024x1024.Idx → EReal) (ix3 b l k)
abbrev amask : Fin 4 → Fin 1024 → BitVec 1 :=
  fun b j => (m ((c.tc : Thread nD τ).loc main_arg1) : IVec S4x1024 1) (ix2 b j)
abbrev awqkv : Fin 3072 → Fin 1024 → EReal :=
  fun e k => (m ((c.tc : Thread nD τ).loc main_arg2) : S3072x1024.Idx → EReal) (ix2 e k)
abbrev awout : Fin 1024 → Fin 1024 → EReal :=
  fun n e => (m ((c.tc : Thread nD τ).loc main_arg3) : S1024x1024.Idx → EReal) (ix2 n e)
abbrev about : Fin 1024 → EReal := fun n => (m ((c.tc : Thread nD τ).loc main_arg4) : S1024.Idx → EReal) (ix1 n)
abbrev agamma : Fin 1024 → EReal := fun n => (m ((c.tc : Thread nD τ).loc main_arg5) : S1024.Idx → EReal) (ix1 n)
abbrev abeta : Fin 1024 → EReal := fun n => (m ((c.tc : Thread nD τ).loc main_arg6) : S1024.Idx → EReal) (ix1 n)

/-- The result array: entry `(b, l, n)` is the specification's function of the arguments there. -/
def result : S4x1024x1024.Idx → EReal :=
  fun i => Cert.Spec.G (ax m c) (amask m c) (awqkv m c) (awout m c) (about m c) (agamma m c) (abeta m c) (i 0) (i 1) (i 2)

end Cert.KernelIdeal.KResult

end
-- ==== Proof.KBody.lean ====
/-
  What one grid point of the fused attention kernel leaves behind, as values.

  A grid point is a pair (batch, head). The body computes the head's contribution to the output projection,
  `head x wq wk wv wo maskbias` (a 1024 × 1024 block: queries, keys and values of the head, the masked softmax of
  the scaled scores, its product with the values, then with the head's 64 rows of the output weight), and adds it
  to a running sum kept in a scratch block across the 16 heads of a batch. At the first head the sum starts from the
  zero block; at the last head the body adds the bias to the finished sum, normalises each row and stores the result.
-/
import proofs.«144366_j37933151158411_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KBody

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl
theorem hz3 : (![0, 0, 0] : Fin 3 → Nat) = fun _ => 0 := funext fun a => by fin_cases a <;> rfl

/-- The running sum after one more head: the head's contribution added to what the scratch block held. -/
def step (x0 : Vec F S1x1024x1024 .f32) (x1 x2 x3 : Vec F S1x1024x64 .bf16) (x4 : Vec F S1x64x1024 .bf16)
    (x5 : Vec F S1x1x1024 .f32) (acc : Vec F S1024x1024 .f32) : Vec F S1024x1024 .f32 :=
  k0_pay2 (k0_pay4 x0 x1 x2 x3 x5) x4 acc

variable (c : Dev nD) (i : grid0.Coords) (arg2 : Memref sig .tc .vmem S1x1024x1024 .f32) (harg2 : arg2.IsWhole) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x64x1024 .bf16) (harg6 : arg6.IsWhole) (arg7 : Memref sig .tc .vmem S1x1x1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1024 .f32) (harg10 : arg10.IsWhole) (arg11 : Memref sig .tc .vmem S1x1024x1024 .f32) (harg11 : arg11.IsWhole) (arg12 : Memref sig .tc .vmem S1024x1024 .f32) (harg12 : arg12.IsWhole)

/-- A middle head (neither the first nor the last of its batch) leaves the running sum advanced by one head. -/
theorem sout_B (hc0 : ¬cond0_0 i) (hc1 : ¬cond0_1 i) (x0 : Vec F S1x1024x1024 .f32) (x1 : Vec F S1x1024x64 .bf16) (x2 : Vec F S1x1024x64 .bf16) (x3 : Vec F S1x1024x64 .bf16) (x4 : Vec F S1x64x1024 .bf16) (x5 : Vec F S1x1x1024 .f32) (x6 : Vec F S1024 .f32) (x7 : Vec F S1024 .f32) (x8 : Vec F S1024 .f32) (xs0 : Vec F S1024x1024 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = step x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_B
  dsimp only
  sl_unfold_words
  rw [View.canon_unit_zero hz2]
  unfold step
  simp only [View.readAt_eq_ld, harg2.read_unread, harg3.read_unread, harg4.read_unread, harg5.read_unread,
    harg6.read_unread, harg7.read_unread, harg12.read_unread, View.ld_unit_zero (S := S1x1024x1024) hz3,
    View.ld_unit_zero (S := S1x1024x64) hz3, View.ld_unit_zero (S := S1x64x1024) hz3,
    View.ld_unit_zero (S := S1x1x1024) hz3, View.ld_unit_zero (S := S1024x1024) hz2]

/-- The last head of a batch advances the running sum in the same way … -/
theorem sout_C (hc0 : ¬cond0_0 i) (hc1 : cond0_1 i) (x0 : Vec F S1x1024x1024 .f32) (x1 : Vec F S1x1024x64 .bf16) (x2 : Vec F S1x1024x64 .bf16) (x3 : Vec F S1x1024x64 .bf16) (x4 : Vec F S1x64x1024 .bf16) (x5 : Vec F S1x1x1024 .f32) (x6 : Vec F S1024 .f32) (x7 : Vec F S1024 .f32) (x8 : Vec F S1024 .f32) (xs0 : Vec F S1024x1024 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = step x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz2]
  unfold step
  simp only [View.readAt_eq_ld, harg2.read_unread, harg3.read_unread, harg4.read_unread, harg5.read_unread,
    harg6.read_unread, harg7.read_unread, harg8.read_unread, harg9.read_unread, harg10.read_unread, harg12.read_unread,
    View.ld_unit_zero (S := S1x1024x1024) hz3, View.ld_unit_zero (S := S1x1024x64) hz3, View.ld_unit_zero (S := S1x64x1024) hz3,
    View.ld_unit_zero (S := S1x1x1024) hz3, View.ld_unit_zero (S := S1024x1024) hz2, View.ld_unit_zero (S := S1024) hz1]

/-- … and stores, into the output block, the normalised rows of the finished sum plus the bias. -/
theorem out_C (hc0 : ¬cond0_0 i) (hc1 : cond0_1 i) (x0 : Vec F S1x1024x1024 .f32) (x1 : Vec F S1x1024x64 .bf16) (x2 : Vec F S1x1024x64 .bf16) (x3 : Vec F S1x1024x64 .bf16) (x4 : Vec F S1x64x1024 .bf16) (x5 : Vec F S1x1x1024 .f32) (x6 : Vec F S1024 .f32) (x7 : Vec F S1024 .f32) (x8 : Vec F S1024 .f32) (xs0 : Vec F S1024x1024 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0 = k0_pay3 (step x0 x1 x2 x3 x4 x5 xs0) x6 x7 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 xs0)]
  unfold kernelRun0_C
  dsimp only
  sl_unfold_words
  rw [View.canon_unit_zero hz3, View.readCov_unit_zero (S := S1024x1024) _ hz2]
  unfold step
  simp only [View.readAt_eq_ld, harg2.read_unread, harg3.read_unread, harg4.read_unread, harg5.read_unread,
    harg6.read_unread, harg7.read_unread, harg8.read_unread, harg9.read_unread, harg10.read_unread, harg12.read_unread,
    View.ld_unit_zero (S := S1x1024x1024) hz3, View.ld_unit_zero (S := S1x1024x64) hz3, View.ld_unit_zero (S := S1x64x1024) hz3,
    View.ld_unit_zero (S := S1x1x1024) hz3, View.ld_unit_zero (S := S1024x1024) hz2, View.ld_unit_zero (S := S1024) hz1]

/-- The first head of a batch starts the running sum from the zero block. -/
theorem sout_A (hc0 : cond0_0 i) (hc1 : ¬cond0_1 i) (x0 : Vec F S1x1024x1024 .f32) (x1 : Vec F S1x1024x64 .bf16) (x2 : Vec F S1x1024x64 .bf16) (x3 : Vec F S1x1024x64 .bf16) (x4 : Vec F S1x64x1024 .bf16) (x5 : Vec F S1x1x1024 .f32) (x6 : Vec F S1024 .f32) (x7 : Vec F S1024 .f32) (x8 : Vec F S1024 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8 = step x0 x1 x2 x3 x4 x5 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 x8)]
  unfold kernelRun0_A
  dsimp only
  sl_unfold_words
  rw [View.canon_cons_unit_zero (S := S1024x1024) hz2, View.readCov_unit_zero (S := S1024x1024) _ hz2]
  unfold step
  simp only [View.readAt_eq_ld, harg2.read_unread, harg3.read_unread, harg4.read_unread, harg5.read_unread,
    harg6.read_unread, harg7.read_unread, harg8.read_unread, harg9.read_unread, harg10.read_unread, harg12.read_unread,
    View.ld_unit_zero (S := S1x1024x1024) hz3, View.ld_unit_zero (S := S1x1024x64) hz3, View.ld_unit_zero (S := S1x64x1024) hz3,
    View.ld_unit_zero (S := S1x1x1024) hz3, View.ld_unit_zero (S := S1024x1024) hz2, View.ld_unit_zero (S := S1024) hz1]

end Cert.KernelIdeal.KBody

end
-- ==== Proof.KAcc.lean ====
/-
  The running sum across a batch's heads, point by point. The grid's 64 points are (batch, head) pairs in order; the
  scratch block holds, after the point of head `h`, the zero block plus the contributions of heads 0 … h of the batch —
  restarted at every batch's first head. At a batch's last head the output block is written from that sum.
-/
import proofs.«144366_j37933151158411_2_alg».proof.Proof.KBody
import proofs.«144366_j37933151158411_2_alg».proof.Proof.Gen.KernelIdeal.Value

noncomputable section

open Idealize.ShloMosaic Idealize.ShloMosaic.TcCoe Idealize.SL.Sem
open Idealize.ShloMosaic.Pipeline (Dat)

namespace Cert.KernelIdeal.KAcc

open Cert.KernelIdeal Cert.KernelIdeal.Gen Cert.KernelIdeal.KBody

variable {F : FTy → Type} [FloatOps F]
variable (m : (ℓ : Loc nD τ sig) → Buf (Elt F) ℓ)

/-- One more head at point `t`: the point's input blocks' contribution added to `acc`. -/
def hstep (c : Dev nD) (t : Fin cfg0.N) (acc : Vec F S1024x1024 .f32) : Vec F S1024x1024 .f32 :=
  step (iblk m c 0 t) (iblk m c 1 t) (iblk m c 2 t) (iblk m c 3 t) (iblk m c 4 t) (iblk m c 5 t) acc

/-- The running sum after point `n`. -/
def accv (c : Dev nD) : (n : ℕ) → n < cfg0.N → Vec F S1024x1024 .f32
  | 0, h => hstep m c ⟨0, h⟩ k0_pay1
  | n + 1, h => if (n + 1) % 16 = 0 then hstep m c ⟨n + 1, h⟩ k0_pay1
      else hstep m c ⟨n + 1, h⟩ (accv c n (Nat.lt_of_succ_lt h))

/-- At a batch's first head the running sum restarts from the zero block … -/
theorem accv_first (c : Dev nD) (n : ℕ) (h : n < cfg0.N) (h0 : n % 16 = 0) :
    accv m c n h = hstep m c ⟨n, h⟩ k0_pay1 := by
  cases n with
  | zero => rfl
  | succ n => rw [accv, if_pos h0]

/-- … and at every other head it advances by that head. -/
theorem accv_next (c : Dev nD) (n : ℕ) (h : n + 1 < cfg0.N) (h0 : ¬(n + 1) % 16 = 0) :
    accv m c (n + 1) h = hstep m c ⟨n + 1, h⟩ (accv m c n (Nat.lt_of_succ_lt h)) := by
  rw [accv, if_neg h0]

/-- What the scratch block holds after point `n` is the running sum. -/
theorem souts_eq (c : Dev nD) : ∀ (n : ℕ) (h : n < cfg0.N), (outsAt0 m c n h).2 = accv m c n h
  | 0, h => by
    rw [outsAt0_A m c ⟨0, h⟩ (Nat.zero_mod _) (by show ¬((0 : ℕ) % 16 = 15); decide)]
    dsimp only
    exact sout_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) scM0_0 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩)
  | n + 1, h => by
    have hN : cfg0.N = 64 := N_0
    by_cases h0 : (n + 1) % 16 = 0
    · have h1 : ¬(n + 1) % 16 = 15 := by omega
      rw [outsAt0_A m c ⟨n + 1, h⟩ h0 h1]
      dsimp only
      rw [accv, if_pos h0]
      exact sout_A (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩)
    · by_cases h1 : (n + 1) % 16 = 15
      · rw [outsAt0_C m c ⟨n + 1, h⟩ h0 h1]
        dsimp only
        rw [accv, if_neg h0, ← souts_eq c n (Nat.lt_of_succ_lt h)]
        exact sout_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) _
      · rw [outsAt0_B m c ⟨n + 1, h⟩ h0 h1]
        dsimp only
        rw [accv, if_neg h0, ← souts_eq c n (Nat.lt_of_succ_lt h)]
        exact sout_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) _

/-- What a batch's last head writes back: the normalised rows of the running sum there plus the bias, cut to the block. -/
theorem flushed_last (c : Dev nD) (t : Fin cfg0.N) (h1 : t.val % 16 = 15) :
    (dats m 0 c).flushed 9 t = (cfg0.win 9).cut (grid0.coords t)
      (k0_pay3 (accv m c t.val t.isLt) (iblk m c 6 t) (iblk m c 7 t) (iblk m c 8 t)) := by
  have h0 : ¬t.val % 16 = 0 := by omega
  rw [Value.flushed9_C m c t h0 h1]
  refine congrArg ((cfg0.win 9).cut (grid0.coords t)) ?_
  refine (out_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) _ _ (iblk m c 0 t) (iblk m c 1 t) (iblk m c 2 t) (iblk m c 3 t) (iblk m c 4 t) (iblk m c 5 t) (iblk m c 6 t) (iblk m c 7 t) (iblk m c 8 t) _).trans ?_
  refine congrArg (fun a => k0_pay3 a (iblk m c 6 t) (iblk m c 7 t) (iblk m c 8 t)) ?_
  obtain ⟨n, hn⟩ := t
  cases n with
  | zero => exact absurd (Nat.zero_mod _) h0
  | succ n =>
    show step _ _ _ _ _ _ (outsAt0 m c n _).2 = accv m c (n + 1) hn
    rw [accv, if_neg h0, souts_eq m c n (Nat.lt_of_succ_lt hn)]
    rfl

end Cert.KernelIdeal.KAcc

end
-- ==== Proof.KDot.lean ====
/-
  The kernel's three matrix products, each read at one entry of its result: a product into a zero accumulator is,
  at an entry, the sum over the contracted coordinate of the products of the two operands' entries.
-/
import proofs.«144366_j37933151158411_2_alg».proof.KernelIdeal
import proofs.«144366_j37933151158411_2_alg».proof.Proof.Gen.KernelIdeal
import Idealize.ShloMosaic.Lib.ValueIdx
import Idealize.ShloMosaic.PureOps.Ideal.Laws

open scoped BigOperators

namespace Cert.KernelIdeal.KDot

open Idealize.ShloMosaic Idealize.ShloMosaic.ValueIdx Cert.KernelIdeal Cert.KernelIdeal.Gen

/-- Rows of a 1024 × 1024 block against the columns of a 1024 × 64 block (a projection, or the weighted values). -/
theorem mm_rows_cols (x : FVec Ideal S1024x1024 .bf16) (w : FVec Ideal S1024x64 .bf16) (l : Fin 1024) (d : Fin 64) :
    matmul (F := Ideal) dot_S1024x1024_S1024x64_S1024x64_1_0_0_1_n_n none x w (constant S1024x64 .f32 0x00000000#32) (ix2 l d)
      = ∑ c : Fin 1024, x (ix2 l c) * w (ix2 c d) := by
  show FloatOps.matmul _ none x w _ (ix2 l d) = _
  rw [Ideal.matmul_constant_zero_apply,
    ← Equiv.sum_comp (contrEquiv1 dot_S1024x1024_S1024x64_S1024x64_1_0_0_1_n_n 1024 rfl rfl).symm]
  refine Finset.sum_congr rfl fun c _ => ?_
  have cv := contrEquiv1_symm_val dot_S1024x1024_S1024x64_S1024x64_1_0_0_1_n_n 1024 rfl rfl c
  have hl : dot_S1024x1024_S1024x64_S1024x64_1_0_0_1_n_n.lhsIdx (ix2 l d)
      ((contrEquiv1 _ 1024 rfl rfl).symm c) = ix2 l c := by
    funext ax; apply Fin.ext
    match ax with
    | ⟨0, _⟩ => simp [DotDims.lhsIdx, dot_S1024x1024_S1024x64_S1024x64_1_0_0_1_n_n]; rfl
    | ⟨1, _⟩ => simp [DotDims.lhsIdx, dot_S1024x1024_S1024x64_S1024x64_1_0_0_1_n_n]; exact cv
  have hr : dot_S1024x1024_S1024x64_S1024x64_1_0_0_1_n_n.rhsIdx (ix2 l d)
      ((contrEquiv1 _ 1024 rfl rfl).symm c) = ix2 c d := by
    funext ax; apply Fin.ext
    match ax with
    | ⟨0, _⟩ => simp [DotDims.rhsIdx, dot_S1024x1024_S1024x64_S1024x64_1_0_0_1_n_n]; exact cv
    | ⟨1, _⟩ => simp [DotDims.rhsIdx, dot_S1024x1024_S1024x64_S1024x64_1_0_0_1_n_n]; rfl
  rw [hl, hr]

/-- Rows against rows over the 64 lanes (the scores: a query against a key). -/
theorem mm_rows_rows (x : FVec Ideal S1024x64 .bf16) (w : FVec Ideal S1024x64 .bf16) (i j : Fin 1024) :
    matmul (F := Ideal) dot_S1024x64_S1024x64_S1024x1024_1_1_0_0_n_n none x w (constant S1024x1024 .f32 0x00000000#32) (ix2 i j)
      = ∑ c : Fin 64, x (ix2 i c) * w (ix2 j c) := by
  show FloatOps.matmul _ none x w _ (ix2 i j) = _
  rw [Ideal.matmul_constant_zero_apply,
    ← Equiv.sum_comp (contrEquiv1 dot_S1024x64_S1024x64_S1024x1024_1_1_0_0_n_n 64 rfl rfl).symm]
  refine Finset.sum_congr rfl fun c _ => ?_
  have cv := contrEquiv1_symm_val dot_S1024x64_S1024x64_S1024x1024_1_1_0_0_n_n 64 rfl rfl c
  have hl : dot_S1024x64_S1024x64_S1024x1024_1_1_0_0_n_n.lhsIdx (ix2 i j)
      ((contrEquiv1 _ 64 rfl rfl).symm c) = ix2 i c := by
    funext ax; apply Fin.ext
    match ax with
    | ⟨0, _⟩ => simp [DotDims.lhsIdx, dot_S1024x64_S1024x64_S1024x1024_1_1_0_0_n_n]; rfl
    | ⟨1, _⟩ => simp [DotDims.lhsIdx, dot_S1024x64_S1024x64_S1024x1024_1_1_0_0_n_n]; exact cv
  have hr : dot_S1024x64_S1024x64_S1024x1024_1_1_0_0_n_n.rhsIdx (ix2 i j)
      ((contrEquiv1 _ 64 rfl rfl).symm c) = ix2 j c := by
    funext ax; apply Fin.ext
    match ax with
    | ⟨0, _⟩ => simp [DotDims.rhsIdx, dot_S1024x64_S1024x64_S1024x1024_1_1_0_0_n_n]; rfl
    | ⟨1, _⟩ => simp [DotDims.rhsIdx, dot_S1024x64_S1024x64_S1024x1024_1_1_0_0_n_n]; exact cv
  rw [hl, hr]

/-- A head's 64 lanes against its 64 rows of the output weight. -/
theorem mm_out (x : FVec Ideal S1024x64 .bf16) (w : FVec Ideal S64x1024 .bf16) (l n : Fin 1024) :
    matmul (F := Ideal) dot_S1024x64_S64x1024_S1024x1024_1_0_0_1_n_n none x w (constant S1024x1024 .f32 0x00000000#32) (ix2 l n)
      = ∑ c : Fin 64, x (ix2 l c) * w (ix2 c n) := by
  show FloatOps.matmul _ none x w _ (ix2 l n) = _
  rw [Ideal.matmul_constant_zero_apply,
    ← Equiv.sum_comp (contrEquiv1 dot_S1024x64_S64x1024_S1024x1024_1_0_0_1_n_n 64 rfl rfl).symm]
  refine Finset.sum_congr rfl fun c _ => ?_
  have cv := contrEquiv1_symm_val dot_S1024x64_S64x1024_S1024x1024_1_0_0_1_n_n 64 rfl rfl c
  have hl : dot_S1024x64_S64x1024_S1024x1024_1_0_0_1_n_n.lhsIdx (ix2 l n)
      ((contrEquiv1 _ 64 rfl rfl).symm c) = ix2 l c := by
    funext ax; apply Fin.ext
    match ax with
    | ⟨0, _⟩ => simp [DotDims.lhsIdx, dot_S1024x64_S64x1024_S1024x1024_1_0_0_1_n_n]; rfl
    | ⟨1, _⟩ => simp [DotDims.lhsIdx, dot_S1024x64_S64x1024_S1024x1024_1_0_0_1_n_n]; exact cv
  have hr : dot_S1024x64_S64x1024_S1024x1024_1_0_0_1_n_n.rhsIdx (ix2 l n)
      ((contrEquiv1 _ 64 rfl rfl).symm c) = ix2 c n := by
    funext ax; apply Fin.ext
    match ax with
    | ⟨0, _⟩ => simp [DotDims.rhsIdx, dot_S1024x64_S64x1024_S1024x1024_1_0_0_1_n_n]; exact cv
    | ⟨1, _⟩ => simp [DotDims.rhsIdx, dot_S1024x64_S64x1024_S1024x1024_1_0_0_1_n_n]; rfl
  rw [hl, hr]

end Cert.KernelIdeal.KDot
-- ==== Proof.KLayout.lean ====
/-
  Rows and columns of a square block: a vector kept as a column and spread back over the rows' entries; a row's
  maximum and a row's sum, each kept as a column and spread back over the row.
-/
import proofs.«144366_j37933151158411_2_alg».proof.KernelIdeal
import proofs.«144366_j37933151158411_2_alg».proof.Proof.Gen.KernelIdeal
import proofs.«144366_j37933151158411_2_alg».proof.Proof.Spec
import Idealize.ShloMosaic.Lib.Pipeline.Value
import Idealize.ShloMosaic.Lib.ValueLayout
import Idealize.ShloMosaic.PureOps.Ideal.Laws

open scoped BigOperators

namespace Cert.KernelIdeal.KLayout

open Idealize.ShloMosaic Idealize.ShloMosaic.ValueIdx Cert.KernelIdeal Cert.KernelIdeal.Facts₀

section
variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` spread over `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end

/-- The index a reduction over the second axis visits at row `l`, position `k`. -/
theorem lift_row (l k : Fin 1024) : reduces_S1024x1024_S1024.lift (ix1 l) k = ix2 l k :=
  funext fun a => Fin.ext (by match a with | ⟨0, _⟩ => rfl | ⟨1, _⟩ => rfl)

/-- A row's maximum (from `-∞`), kept as a column and spread back over the row. -/
theorem rowmax_spread (s : FVec Ideal S1024x1024 .f32) (l j : Fin 1024) :
    broadcastTo S1024x1024 (shapeCast S1024x1 (multiReduction .maximumf [1] S1024 s 0xFF800000#32 reduces_S1024x1024_S1024 (.inl rfl) rfl)
      shapeCasts_S1024_S1024x1) broadcasts_S1024x1_S1024x1024 (ix2 l j) = Cert.Spec.rowmax (fun j => s (ix2 l j)) := by
  rw [broadcastTo_a1_ab_apply, shapeCast_a_a1_apply]
  refine (Ideal.multiReduction_maximumf_single s _ reduces_S1024x1024_S1024 _ _ (ix1 l)).trans ?_
  have hf : (fun k : Fin 1024 => s (reduces_S1024x1024_S1024.lift (ix1 l) k)) = fun j => s (ix2 l j) :=
    funext fun k => congrArg s (lift_row l k)
  exact congrArg (fun f : Fin 1024 → EReal => (Finset.univ : Finset (Fin 1024)).fold max (Ideal.ofBits .f32 0xFF800000#32) f) hf

/-- A row's sum, kept as a column and spread back over the row. -/
theorem rowsum_spread (s : FVec Ideal S1024x1024 .f32) (l j : Fin 1024) :
    broadcastTo S1024x1024 (shapeCast S1024x1 (multiReduction .add [1] S1024 s 0x00000000#32 reduces_S1024x1024_S1024 (.inl rfl) rfl)
      shapeCasts_S1024_S1024x1) broadcasts_S1024x1_S1024x1024 (ix2 l j) = ∑ k : Fin 1024, s (ix2 l k) := by
  rw [broadcastTo_a1_ab_apply, shapeCast_a_a1_apply]
  refine (Ideal.multiReduction_add_single s _ reduces_S1024x1024_S1024 _ _ (ix1 l)).trans ?_
  exact Finset.sum_congr rfl fun k _ => congrArg s (lift_row l k)

/-- A row's sum kept as a column, at the column's entry. -/
theorem rowsum_col (s : FVec Ideal S1024x1024 .f32) (l : Fin 1024) (u : Fin 1) :
    shapeCast S1024x1 (multiReduction .add [1] S1024 s 0x00000000#32 reduces_S1024x1024_S1024 (.inl rfl) rfl)
      shapeCasts_S1024_S1024x1 (ix2 l u) = ∑ k : Fin 1024, s (ix2 l k) := by
  rw [shapeCast_a_a1_apply]
  refine (Ideal.multiReduction_add_single s _ reduces_S1024x1024_S1024 _ _ (ix1 l)).trans ?_
  exact Finset.sum_congr rfl fun k _ => congrArg s (lift_row l k)

/-- A vector of 1024 entries laid as one row and spread over 1024 rows reads, at `(l, n)`, the vector at `n`. -/
theorem row_spread (v : FVec Ideal S1024 .f32) (l n : Fin 1024) :
    broadcastTo S1024x1024 (shapeCast S1x1024 v shapeCasts_S1024_S1x1024) broadcasts_S1x1024_S1024x1024 (ix2 l n) = v (ix1 n) := by
  rw [broadcastTo_1b_ab_apply, shapeCast_a_1a_apply]

end Cert.KernelIdeal.KLayout
-- ==== Proof.KSpec.lean ====
/-
  One head's work on one batch, over plain coordinates: `X` the batch's 1024 tokens, `Wq Wk Wv` the head's three
  1024 × 64 projection blocks, `Wo` its 64 rows of the output weight, `mb` the mask's bias (0 at a kept key, `-∞` at
  a masked one). The scale 1/8 multiplies the query before the dot product with the key; the bias is added to the score.
-/
import proofs.«144366_j37933151158411_2_alg».proof.Proof.Spec

noncomputable section

open scoped BigOperators

namespace Cert.KSpec

open Idealize.ShloMosaic Cert.Spec

section
variable (X : Fin 1024 → Fin 1024 → EReal) (Wq Wk Wv : Fin 1024 → Fin 64 → EReal) (Wo : Fin 64 → Fin 1024 → EReal)
  (mb : Fin 1024 → EReal)

/-- A token projected on a lane. -/
def pr (W : Fin 1024 → Fin 64 → EReal) (l : Fin 1024) (d : Fin 64) : EReal := ∑ c : Fin 1024, X l c * W c d

/-- The score of query `i` against key `j`. -/
def sc (i j : Fin 1024) : EReal := (∑ d : Fin 64, (pr X Wq i d * c8) * pr X Wk j d) + mb j

/-- The head's output for query `i` at lane `d`. -/
def hd (i : Fin 1024) (d : Fin 64) : EReal := ∑ j : Fin 1024, softmax (sc X Wq Wk mb i) j * pr X Wv j d

/-- The head's contribution to feature `n` of token `l`. -/
def contrib (l n : Fin 1024) : EReal := ∑ d : Fin 64, hd X Wq Wk Wv mb l d * Wo d n

end

end Cert.KSpec

end
-- ==== Proof.KPayA.lean ====
/-
  The head's output block as a function of the blocks the body loads, entry by entry: the tokens of the batch against
  the head's three projection blocks, the scaled and biased scores, the row-wise softmax, and the weighted values.
-/
import proofs.«144366_j37933151158411_2_alg».proof.Proof.KDot
import proofs.«144366_j37933151158411_2_alg».proof.Proof.KLayout
import proofs.«144366_j37933151158411_2_alg».proof.Proof.KSpec
import proofs.«144366_j37933151158411_2_alg».proof.Proof.Gen.KernelIdeal.Skeleton

noncomputable section

open scoped BigOperators

namespace Cert.KernelIdeal.KPay

open Idealize.ShloMosaic Idealize.ShloMosaic.ValueIdx Cert.KernelIdeal Cert.KernelIdeal.Facts₀
open Cert.KernelIdeal.KLayout Cert.KernelIdeal.KDot

/-- The batch's tokens against one projection block. -/
def projB (v0 : FVec Ideal S1x1024x1024 .f32) (w : FVec Ideal S1x1024x64 .bf16) : FVec Ideal S1024x64 .f32 :=
  matmul dot_S1024x1024_S1024x64_S1024x64_1_0_0_1_n_n none
    (truncf .bf16 (shapeCast S1024x1024 v0 shapeCasts_S1x1024x1024_S1024x1024) bitsLt_bf16_f32)
    (shapeCast S1024x64 w shapeCasts_S1x1024x64_S1024x64) (constant S1024x64 .f32 0x00000000#32)

theorem projB_apply (v0 : FVec Ideal S1x1024x1024 .f32) (w : FVec Ideal S1x1024x64 .bf16) (l : Fin 1024) (d : Fin 64) :
    projB v0 w (ix2 l d)
      = Cert.KSpec.pr (fun l c => v0 (ix3 (0 : Fin 1) l c)) (fun c d => w (ix3 (0 : Fin 1) c d)) l d := by
  unfold projB Cert.KSpec.pr
  refine (mm_rows_cols _ _ l d).trans ?_
  refine Finset.sum_congr rfl fun c _ => ?_
  rw [truncf_apply, shapeCast_1ab_ab_apply, shapeCast_1ab_ab_apply]

/-- The scores of every query against every key: the scaled queries against the keys, plus the mask's bias. -/
def scoresB (v0 : FVec Ideal S1x1024x1024 .f32) (wq wk : FVec Ideal S1x1024x64 .bf16) (v17 : FVec Ideal S1x1x1024 .f32) :
    FVec Ideal S1024x1024 .f32 :=
  addf (matmul dot_S1024x64_S1024x64_S1024x1024_1_1_0_0_n_n none
      (truncf .bf16 (mulf (projB v0 wq) (broadcast S1024x64 (Scalar.ofBits .f32 0x3E000000#32))) bitsLt_bf16_f32)
      (truncf .bf16 (projB v0 wk) bitsLt_bf16_f32) (constant S1024x1024 .f32 0x00000000#32))
    (broadcastTo S1024x1024 (shapeCast S1x1024 v17 shapeCasts_S1x1x1024_S1x1024) broadcasts_S1x1024_S1024x1024)

theorem scoresB_apply (v0 : FVec Ideal S1x1024x1024 .f32) (wq wk : FVec Ideal S1x1024x64 .bf16) (v17 : FVec Ideal S1x1x1024 .f32)
    (i j : Fin 1024) :
    scoresB v0 wq wk v17 (ix2 i j)
      = Cert.KSpec.sc (fun l c => v0 (ix3 (0 : Fin 1) l c)) (fun c d => wq (ix3 (0 : Fin 1) c d))
          (fun c d => wk (ix3 (0 : Fin 1) c d)) (fun j => v17 (ix3 (0 : Fin 1) (0 : Fin 1) j)) i j := by
  unfold scoresB Cert.KSpec.sc
  rw [addf_apply, broadcastTo_1b_ab_apply, shapeCast_1ab_ab_apply]
  refine congrArg (· + _) ?_
  refine (mm_rows_rows _ _ i j).trans ?_
  refine Finset.sum_congr rfl fun d _ => ?_
  rw [truncf_apply, truncf_apply, mulf_apply, broadcast_apply, projB_apply, projB_apply]
  rfl

/-- The row-wise softmax of a block of scores. -/
def smxB (s : FVec Ideal S1024x1024 .f32) : FVec Ideal S1024x1024 .f32 :=
  divf (exp (subf s (broadcastTo S1024x1024 (shapeCast S1024x1 (multiReduction .maximumf [1] S1024 s 0xFF800000#32
        reduces_S1024x1024_S1024 (.inl rfl) rfl) shapeCasts_S1024_S1024x1) broadcasts_S1024x1_S1024x1024)))
    (broadcastTo S1024x1024 (shapeCast S1024x1 (multiReduction .add [1] S1024
        (exp (subf s (broadcastTo S1024x1024 (shapeCast S1024x1 (multiReduction .maximumf [1] S1024 s 0xFF800000#32
          reduces_S1024x1024_S1024 (.inl rfl) rfl) shapeCasts_S1024_S1024x1) broadcasts_S1024x1_S1024x1024)))
        0x00000000#32 reduces_S1024x1024_S1024 (.inl rfl) rfl) shapeCasts_S1024_S1024x1) broadcasts_S1024x1_S1024x1024)

theorem exp_sub_apply (s : FVec Ideal S1024x1024 .f32) (l k : Fin 1024) :
    exp (subf s (broadcastTo S1024x1024 (shapeCast S1024x1 (multiReduction .maximumf [1] S1024 s 0xFF800000#32
        reduces_S1024x1024_S1024 (.inl rfl) rfl) shapeCasts_S1024_S1024x1) broadcasts_S1024x1_S1024x1024)) (ix2 l k)
      = Ideal.exp (s (ix2 l k) - Cert.Spec.rowmax (fun j => s (ix2 l j))) := by
  show Ideal.exp (s (ix2 l k) - _) = _
  rw [rowmax_spread]

theorem smxB_apply (s : FVec Ideal S1024x1024 .f32) (l j : Fin 1024) :
    smxB s (ix2 l j) = Cert.Spec.softmax (fun j => s (ix2 l j)) j := by
  unfold smxB Cert.Spec.softmax
  rw [divf_apply, rowsum_spread, exp_sub_apply]
  refine congrArg (Ideal.div _) ?_
  exact Finset.sum_congr rfl fun k _ => exp_sub_apply s l k

/-- The head's output block is the softmax of the scores against the values. -/
theorem pay4_eq (v0 : FVec Ideal S1x1024x1024 .f32) (v3 v5 v7 : FVec Ideal S1x1024x64 .bf16) (v17 : FVec Ideal S1x1x1024 .f32) :
    Gen.k0_pay4 (F := Ideal) v0 v3 v5 v7 v17
      = truncf .bf16 (matmul dot_S1024x1024_S1024x64_S1024x64_1_0_0_1_n_n none
          (truncf .bf16 (smxB (scoresB v0 v3 v5 v17)) bitsLt_bf16_f32) (truncf .bf16 (projB v0 v7) bitsLt_bf16_f32)
          (constant S1024x64 .f32 0x00000000#32)) bitsLt_bf16_f32 := rfl

theorem pay4_apply (v0 : FVec Ideal S1x1024x1024 .f32) (v3 v5 v7 : FVec Ideal S1x1024x64 .bf16) (v17 : FVec Ideal S1x1x1024 .f32)
    (l : Fin 1024) (d : Fin 64) :
    Gen.k0_pay4 (F := Ideal) v0 v3 v5 v7 v17 (ix2 l d)
      = Cert.KSpec.hd (fun l c => v0 (ix3 (0 : Fin 1) l c)) (fun c d => v3 (ix3 (0 : Fin 1) c d))
          (fun c d => v5 (ix3 (0 : Fin 1) c d)) (fun c d => v7 (ix3 (0 : Fin 1) c d))
          (fun j => v17 (ix3 (0 : Fin 1) (0 : Fin 1) j)) l d := by
  rw [pay4_eq, truncf_apply]
  unfold Cert.KSpec.hd
  refine (mm_rows_cols _ _ l d).trans ?_
  refine Finset.sum_congr rfl fun j _ => ?_
  rw [truncf_apply, truncf_apply, smxB_apply, projB_apply]
  refine congrArg (· * _) ?_
  refine congrArg (fun f => Cert.Spec.softmax f j) ?_
  funext j'
  exact scoresB_apply v0 v3 v5 v17 l j'

end Cert.KernelIdeal.KPay

end
-- ==== Proof.KPayB.lean ====
/-
  The other three stored blocks, entry by entry: the zero block a batch's first head starts from; the running sum
  advanced by one head (the block it held plus the head's output against its 64 rows of the output weight); and, at a
  batch's last head, the rows of the finished sum plus the bias, each centred, divided by the square root of its
  variance plus `ε`, scaled and shifted.
-/
import proofs.«144366_j37933151158411_2_alg».proof.Proof.KDot
import proofs.«144366_j37933151158411_2_alg».proof.Proof.KLayout
import proofs.«144366_j37933151158411_2_alg».proof.Proof.Gen.KernelIdeal.Skeleton

noncomputable section

open scoped BigOperators

namespace Cert.KernelIdeal.KPay

open Idealize.ShloMosaic Idealize.ShloMosaic.ValueIdx Cert.KernelIdeal Cert.KernelIdeal.Facts₀
open Cert.KernelIdeal.KLayout Cert.KernelIdeal.KDot

/-- The zero block. -/
theorem pay1_apply (l n : Fin 1024) : Gen.k0_pay1 (F := Ideal) (ix2 l n) = Cert.Spec.zero := by
  unfold Gen.k0_pay1
  rw [shapeCast_self]
  rfl

/-- The running sum advanced by one head. -/
theorem pay2_apply (v33 : FVec Ideal S1024x64 .bf16) (v34 : Vec Ideal S1x64x1024 .bf16) (v40 : Vec Ideal S1024x1024 .f32)
    (l n : Fin 1024) :
    Gen.k0_pay2 (F := Ideal) v33 v34 v40 (ix2 l n)
      = v40 (ix2 l n) + ∑ d : Fin 64, v33 (ix2 l d) * v34 (ix3 (0 : Fin 1) d n) := by
  unfold Gen.k0_pay2
  rw [shapeCast_self, addf_apply]
  refine congrArg (v40 (ix2 l n) + ·) ?_
  refine (mm_out _ _ l n).trans ?_
  refine Finset.sum_congr rfl fun d _ => ?_
  rw [shapeCast_1ab_ab_apply]

/-- A block's rows' means, as a column. -/
def meanB (y : FVec Ideal S1024x1024 .f32) : FVec Ideal S1024x1 .f32 :=
  divf (shapeCast S1024x1 (multiReduction .add [1] S1024 y 0x00000000#32 reduces_S1024x1024_S1024 (.inl rfl) rfl)
    shapeCasts_S1024_S1024x1) (broadcast S1024x1 (Scalar.ofBits .f32 0x44800000#32))

theorem meanB_apply (y : FVec Ideal S1024x1024 .f32) (l : Fin 1024) (u : Fin 1) :
    meanB y (ix2 l u) = Cert.Spec.mean (fun n => y (ix2 l n)) := by
  unfold meanB Cert.Spec.mean
  rw [divf_apply, rowsum_col, broadcast_apply]
  rfl

/-- The block centred row by row. -/
def diffB (y : FVec Ideal S1024x1024 .f32) : FVec Ideal S1024x1024 .f32 :=
  subf y (broadcastTo S1024x1024 (meanB y) broadcasts_S1024x1_S1024x1024)

theorem diffB_apply (y : FVec Ideal S1024x1024 .f32) (l n : Fin 1024) :
    diffB y (ix2 l n) = y (ix2 l n) - Cert.Spec.mean (fun n => y (ix2 l n)) := by
  unfold diffB
  rw [subf_apply, broadcastTo_a1_ab_apply, meanB_apply]

/-- One over the square root of each row's variance plus `ε`, as a column. -/
def invB (y : FVec Ideal S1024x1024 .f32) : FVec Ideal S1024x1 .f32 :=
  rsqrt (addf (divf (shapeCast S1024x1 (multiReduction .add [1] S1024 (mulf (diffB y) (diffB y)) 0x00000000#32
      reduces_S1024x1024_S1024 (.inl rfl) rfl) shapeCasts_S1024_S1024x1) (broadcast S1024x1 (Scalar.ofBits .f32 0x44800000#32)))
    (broadcast S1024x1 (Scalar.ofBits .f32 0x3727C5AC#32)))

theorem invB_apply (y : FVec Ideal S1024x1024 .f32) (l : Fin 1024) (u : Fin 1) :
    invB y (ix2 l u) = Ideal.rsqrt (Ideal.div (∑ n' : Fin 1024,
      (y (ix2 l n') - Cert.Spec.mean (fun n => y (ix2 l n))) * (y (ix2 l n') - Cert.Spec.mean (fun n => y (ix2 l n))))
        Cert.Spec.n1024 + Cert.Spec.eps) := by
  unfold invB
  show Ideal.rsqrt (Ideal.div (shapeCast S1024x1 _ shapeCasts_S1024_S1024x1 (ix2 l u)) _ + _) = _
  rw [rowsum_col]
  refine congrArg (fun s => Ideal.rsqrt (Ideal.div s _ + _)) ?_
  refine Finset.sum_congr rfl fun n' _ => ?_
  rw [mulf_apply, diffB_apply]

/-- The layer norm of a block's rows. -/
def lnB (y : FVec Ideal S1024x1024 .f32) (g b : Vec Ideal S1024 .f32) : FVec Ideal S1024x1024 .f32 :=
  addf (mulf (mulf (diffB y) (broadcastTo S1024x1024 (invB y) broadcasts_S1024x1_S1024x1024))
      (broadcastTo S1024x1024 (shapeCast S1x1024 g shapeCasts_S1024_S1x1024) broadcasts_S1x1024_S1024x1024))
    (broadcastTo S1024x1024 (shapeCast S1x1024 b shapeCasts_S1024_S1x1024) broadcasts_S1x1024_S1024x1024)

theorem lnB_apply (y : FVec Ideal S1024x1024 .f32) (g b : Vec Ideal S1024 .f32) (l n : Fin 1024) :
    lnB y g b (ix2 l n) = Cert.Spec.lnorm (fun n => g (ix1 n)) (fun n => b (ix1 n)) (fun n => y (ix2 l n)) n := by
  unfold lnB Cert.Spec.lnorm
  rw [addf_apply, mulf_apply, mulf_apply, row_spread, row_spread, broadcastTo_a1_ab_apply, invB_apply, diffB_apply]

/-- The stored output block: the layer norm of the finished sum plus the bias. -/
theorem pay3_eq (v48 : Vec Ideal S1024x1024 .f32) (v49 v69 v73 : Vec Ideal S1024 .f32) :
    Gen.k0_pay3 (F := Ideal) v48 v49 v69 v73
      = shapeCast S1x1024x1024 (lnB (addf v48 (broadcastTo S1024x1024 (shapeCast S1x1024 v49 shapeCasts_S1024_S1x1024)
          broadcasts_S1x1024_S1024x1024)) v69 v73) shapeCasts_S1024x1024_S1x1024x1024 := rfl

theorem pay3_apply (v48 : Vec Ideal S1024x1024 .f32) (v49 v69 v73 : Vec Ideal S1024 .f32) (z : Fin 1) (l n : Fin 1024) :
    Gen.k0_pay3 (F := Ideal) v48 v49 v69 v73 (ix3 z l n)
      = Cert.Spec.lnorm (fun n => v69 (ix1 n)) (fun n => v73 (ix1 n)) (fun n' => v48 (ix2 l n') + v49 (ix1 n')) n := by
  rw [pay3_eq, shapeCast_ab_1ab_apply, lnB_apply]
  refine congrArg (fun f => Cert.Spec.lnorm _ _ f n) ?_
  funext n'
  rw [addf_apply, row_spread]

end Cert.KernelIdeal.KPay

end
-- ==== Proof.KHostW.lean ====
/-
  What the arrays the kernel's windows stage hold when the region is entered, for the four weight operands: the
  three slots of the fused projection weight, each split into heads and transposed per head, and the output weight
  transposed and split into heads. At the ideal instance the narrowing to bf16 is the identity, so each entry is one
  entry of the argument.
-/
import proofs.«144366_j37933151158411_2_alg».proof.Proof.Gen.KernelIdeal.Frame
import proofs.«144366_j37933151158411_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

namespace Cert.KernelIdeal.KHost

open Idealize.ShloMosaic Idealize.ShloMosaic.TcCoe
open Cert.KernelIdeal Cert.KernelIdeal.Gen ValueIdx

/-! ## The layout chains, over any array -/

section Generic
variable {α : Type}

/-- A slot of the fused weight (rows `o = s * 1024` onwards), its 1024 rows split into 16 heads of 64 lanes and each
    head's matrix transposed, reads at `(h, k, d)` the weight at row `s * 1024 + h * 64 + d`, column `k`. -/
theorem slot_apply (o : Nat) (s : Fin 3) (ho : o = s.val * 1024)
    (W : (⟨2, ![3072, 1024]⟩ : Shape).Idx → α)
    (hs : (⟨2, ![3072, 1024]⟩ : Shape).Slices ![o, 0] ⟨2, ![1024, 1024]⟩)
    (hc : (⟨2, ![1024, 1024]⟩ : Shape).ShapeCasts ⟨3, ![16, 64, 1024]⟩)
    (ht : (⟨3, ![16, 64, 1024]⟩ : Shape).Transposes [0, 2, 1] ⟨3, ![16, 1024, 64]⟩)
    (h : Fin 16) (k : Fin 1024) (d : Fin 64) :
    transpose ⟨3, ![16, 1024, 64]⟩ [0, 2, 1]
        (shapeCast ⟨3, ![16, 64, 1024]⟩ (extractStridedSlice ⟨2, ![1024, 1024]⟩ ![o, 0] W hs) hc) ht (ix3 h k d)
      = W (ix2 (Cert.Spec.row s h d) k) := by
  refine (transpose_ix3_021_apply _ ht h k d).trans ?_
  refine (shapeCast_apply _ hc (ix3 h d k) (ix2 (Cert.Spec.col h d) k) ?_).trans ?_
  · rw [Shape.rowMajor_val_two, Shape.rowMajor_val_three]
    rfl
  · exact slice2_axis0_apply o W hs (Cert.Spec.col h d) k (Cert.Spec.row s h d) (by
      subst ho
      show s.val * 1024 + (h.val * 64 + d.val) = s.val * 1024 + (h.val * 64 + d.val)
      rfl)

/-- The output weight transposed and its 1024 rows split into 16 heads of 64 lanes reads at `(h, d, n)` the weight at
    row `n`, column `h * 64 + d`. -/
theorem wout_apply (W : (⟨2, ![1024, 1024]⟩ : Shape).Idx → α)
    (ht : (⟨2, ![1024, 1024]⟩ : Shape).Transposes [1, 0] ⟨2, ![1024, 1024]⟩)
    (hc : (⟨2, ![1024, 1024]⟩ : Shape).ShapeCasts ⟨3, ![16, 64, 1024]⟩)
    (h : Fin 16) (d : Fin 64) (n : Fin 1024) :
    shapeCast ⟨3, ![16, 64, 1024]⟩ (transpose ⟨2, ![1024, 1024]⟩ [1, 0] W ht) hc (ix3 h d n)
      = W (ix2 n (Cert.Spec.col h d)) := by
  refine (shapeCast_apply _ hc (ix3 h d n) (ix2 (Cert.Spec.col h d) n) ?_).trans ?_
  · rw [Shape.rowMajor_val_two, Shape.rowMajor_val_three]
    rfl
  · exact transpose_ix2_apply W ht (Cert.Spec.col h d) n

end Generic

variable (m : (ℓ : Loc nD τ sig) → Buf (Elt Ideal) ℓ) (c : Dev nD)

/-- `main_v5` as the host operations' term over the launch contents of the fused weight. -/
theorem e_v5 : @Eq (S16x1024x64.Idx → EReal) (V m c main_v5)
    (truncf (F := Ideal) .bf16 (transpose S16x1024x64 [0, 2, 1]
      (shapeCast S16x64x1024 (extractStridedSlice S1024x1024 ![0, 0]
        (m ((c.tc : Thread nD τ).loc main_arg2) : S3072x1024.Idx → EReal) slices_S3072x1024_S1024x1024_0_0)
        shapeCasts_S1024x1024_S16x64x1024) transposes_S16x64x1024_S16x1024x64_0_2_1) bitsLt_bf16_f32) := by
  dsimp only [Gen.V]
  simp only [Gen.hostOps0, Gen.hostOps0_1, Gen.hostOps0_2, List.flatten_cons, List.flatten_nil, List.append_nil, List.cons_append, List.nil_append]
  after_results
  rfl

/-- Entry `(h, k, d)` of `main_v5` is the fused weight at slot 0's row for head `h`, lane `d`, column `k`. -/
theorem V_v5 (h : Fin 16) (k : Fin 1024) (d : Fin 64) :
    (V m c main_v5 : S16x1024x64.Idx → EReal) (ix3 h k d)
      = (m ((c.tc : Thread nD τ).loc main_arg2) : S3072x1024.Idx → EReal) (ix2 (Cert.Spec.row 0 h d) k) :=
  (congrFun (e_v5 m c) (ix3 h k d)).trans (slot_apply 0 0 rfl _ slices_S3072x1024_S1024x1024_0_0 shapeCasts_S1024x1024_S16x64x1024
      transposes_S16x64x1024_S16x1024x64_0_2_1 h k d)

/-- `main_v8` as the host operations' term over the launch contents of the fused weight. -/
theorem e_v8 : @Eq (S16x1024x64.Idx → EReal) (V m c main_v8)
    (truncf (F := Ideal) .bf16 (transpose S16x1024x64 [0, 2, 1]
      (shapeCast S16x64x1024 (extractStridedSlice S1024x1024 ![1024, 0]
        (m ((c.tc : Thread nD τ).loc main_arg2) : S3072x1024.Idx → EReal) slices_S3072x1024_S1024x1024_1024_0)
        shapeCasts_S1024x1024_S16x64x1024) transposes_S16x64x1024_S16x1024x64_0_2_1) bitsLt_bf16_f32) := by
  dsimp only [Gen.V]
  simp only [Gen.hostOps0, Gen.hostOps0_1, Gen.hostOps0_2, List.flatten_cons, List.flatten_nil, List.append_nil, List.cons_append, List.nil_append]
  after_results
  rfl

/-- Entry `(h, k, d)` of `main_v8` is the fused weight at slot 1's row for head `h`, lane `d`, column `k`. -/
theorem V_v8 (h : Fin 16) (k : Fin 1024) (d : Fin 64) :
    (V m c main_v8 : S16x1024x64.Idx → EReal) (ix3 h k d)
      = (m ((c.tc : Thread nD τ).loc main_arg2) : S3072x1024.Idx → EReal) (ix2 (Cert.Spec.row 1 h d) k) :=
  (congrFun (e_v8 m c) (ix3 h k d)).trans (slot_apply 1024 1 rfl _ slices_S3072x1024_S1024x1024_1024_0 shapeCasts_S1024x1024_S16x64x1024
      transposes_S16x64x1024_S16x1024x64_0_2_1 h k d)

/-- `main_v11` as the host operations' term over the launch contents of the fused weight. -/
theorem e_v11 : @Eq (S16x1024x64.Idx → EReal) (V m c main_v11)
    (truncf (F := Ideal) .bf16 (transpose S16x1024x64 [0, 2, 1]
      (shapeCast S16x64x1024 (extractStridedSlice S1024x1024 ![2048, 0]
        (m ((c.tc : Thread nD τ).loc main_arg2) : S3072x1024.Idx → EReal) slices_S3072x1024_S1024x1024_2048_0)
        shapeCasts_S1024x1024_S16x64x1024) transposes_S16x64x1024_S16x1024x64_0_2_1) bitsLt_bf16_f32) := by
  dsimp only [Gen.V]
  simp only [Gen.hostOps0, Gen.hostOps0_1, Gen.hostOps0_2, List.flatten_cons, List.flatten_nil, List.append_nil, List.cons_append, List.nil_append]
  after_results
  rfl

/-- Entry `(h, k, d)` of `main_v11` is the fused weight at slot 2's row for head `h`, lane `d`, column `k`. -/
theorem V_v11 (h : Fin 16) (k : Fin 1024) (d : Fin 64) :
    (V m c main_v11 : S16x1024x64.Idx → EReal) (ix3 h k d)
      = (m ((c.tc : Thread nD τ).loc main_arg2) : S3072x1024.Idx → EReal) (ix2 (Cert.Spec.row 2 h d) k) :=
  (congrFun (e_v11 m c) (ix3 h k d)).trans (slot_apply 2048 2 rfl _ slices_S3072x1024_S1024x1024_2048_0 shapeCasts_S1024x1024_S16x64x1024
      transposes_S16x64x1024_S16x1024x64_0_2_1 h k d)

/-- `main_v14` as the host operations' term over the launch contents of the output weight. -/
theorem e_v14 : @Eq (S16x64x1024.Idx → EReal) (V m c main_v14)
    (truncf (F := Ideal) .bf16 (shapeCast S16x64x1024 (transpose S1024x1024 [1, 0]
        (m ((c.tc : Thread nD τ).loc main_arg3) : S1024x1024.Idx → EReal) transposes_S1024x1024_S1024x1024_1_0)
        shapeCasts_S1024x1024_S16x64x1024) bitsLt_bf16_f32) := by
  dsimp only [Gen.V]
  simp only [Gen.hostOps0, Gen.hostOps0_1, Gen.hostOps0_2, List.flatten_cons, List.flatten_nil, List.append_nil, List.cons_append, List.nil_append]
  after_results
  rfl

/-- Entry `(h, d, n)` of `main_v14` is the output weight at row `n`, column `h * 64 + d`. -/
theorem V_v14 (h : Fin 16) (d : Fin 64) (n : Fin 1024) :
    (V m c main_v14 : S16x64x1024.Idx → EReal) (ix3 h d n)
      = (m ((c.tc : Thread nD τ).loc main_arg3) : S1024x1024.Idx → EReal) (ix2 n (Cert.Spec.col h d)) :=
  (congrFun (e_v14 m c) (ix3 h d n)).trans (wout_apply _ transposes_S1024x1024_S1024x1024_1_0 shapeCasts_S1024x1024_S16x64x1024 h d n)

end Cert.KernelIdeal.KHost
-- ==== Proof.KHostM.lean ====
/-
  What the array the kernel's mask window stages holds when the region is entered: the key mask turned into an additive
  bias, zero at a kept key and minus infinity at a masked one, with a unit axis inserted between batch and key.
-/
import proofs.«144366_j37933151158411_2_alg».proof.Proof.Gen.KernelIdeal.Frame
import proofs.«144366_j37933151158411_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.IdealHost

noncomputable section

namespace Cert.KernelIdeal.KHost

open Idealize.ShloMosaic Idealize.ShloMosaic.TcCoe
open Cert.KernelIdeal Cert.KernelIdeal.Gen ValueIdx

/-! ## The chain, over any mask -/

/-- The select between the two broadcast constants, with a unit axis inserted, reads at `(b, z, j)` zero where the
    mask bit at `(b, j)` is set and minus infinity elsewhere. -/
theorem bias_apply (M : IVec (⟨2, ![4, 1024]⟩ : Shape) 1)
    (hb : (⟨2, ![4, 1024]⟩ : Shape).BroadcastsInDim ⟨3, ![4, 1, 1024]⟩ (![0, 2] : Fin 2 → Fin 3))
    (h0 : (⟨0, ![]⟩ : Shape).BroadcastsInDim ⟨2, ![4, 1024]⟩ ![])
    (b : Fin 4) (z : Fin 1) (j : Fin 1024) :
    broadcastInDim ⟨3, ![4, 1, 1024]⟩ ![0, 2] hb
        (select M (broadcastInDim ⟨2, ![4, 1024]⟩ ![] h0 (constant (F := Ideal) ⟨0, ![]⟩ .f32 0x00000000#32))
          (broadcastInDim ⟨2, ![4, 1024]⟩ ![] h0 (constant (F := Ideal) ⟨0, ![]⟩ .f32 0xFF800000#32))) (ix3 b z j)
      = if M (ix2 b j) = 1#1 then Cert.Spec.zero else Cert.Spec.ninf := by
  refine (broadcastInDim_apply _ hb _ (ix3 b z j) (ix2 b j) (fun a => match a with | ⟨0, _⟩ => rfl | ⟨1, _⟩ => rfl)).trans ?_
  rw [select_apply, broadcastInDim_scalar_apply, broadcastInDim_scalar_apply, constant_apply, constant_apply]
  rfl

variable (m : (ℓ : Loc nD τ sig) → Buf (Elt Ideal) ℓ) (c : Dev nD)

/-- `main_v17` as the host operations' term over the launch contents of the mask. -/
theorem e_v17 : @Eq (S4x1x1024.Idx → EReal) (V m c main_v17)
    (broadcastInDim S4x1x1024 ![0, 2] bcast_S4x1024_S4x1x1024_0_2
      (select (m ((c.tc : Thread nD τ).loc main_arg1) : IVec S4x1024 1)
        (broadcastInDim S4x1024 ![] bcast_S_S4x1024 (constant (F := Ideal) S_ .f32 0x00000000#32))
        (broadcastInDim S4x1024 ![] bcast_S_S4x1024 (constant (F := Ideal) S_ .f32 0xFF800000#32)))) := by
  dsimp only [Gen.V]
  simp only [Gen.hostOps0, Gen.hostOps0_1, Gen.hostOps0_2, List.flatten_cons, List.flatten_nil, List.append_nil, List.cons_append, List.nil_append]
  after_results
  rfl

/-- Entry `(b, z, j)` of `main_v17` is zero where key `j` of batch `b` is kept and minus infinity where it is masked. -/
theorem V_v17 (b : Fin 4) (z : Fin 1) (j : Fin 1024) :
    (V m c main_v17 : S4x1x1024.Idx → EReal) (ix3 b z j)
      = if (m ((c.tc : Thread nD τ).loc main_arg1) : IVec S4x1024 1) (ix2 b j) = 1#1 then Cert.Spec.zero else Cert.Spec.ninf :=
  (congrFun (e_v17 m c) (ix3 b z j)).trans (bias_apply _ bcast_S4x1024_S4x1x1024_0_2 bcast_S_S4x1024 b z j)

end Cert.KernelIdeal.KHost
-- ==== Proof.KHost.lean ====
/-
  What the arrays the kernel's windows stage hold when the region is entered, as functions of the arguments: the
  weight operands (KHostW) and the mask bias (KHostM).
-/
import proofs.«144366_j37933151158411_2_alg».proof.Proof.KHostW
import proofs.«144366_j37933151158411_2_alg».proof.Proof.KHostM
-- ==== Proof.KBlk.lean ====
/-
  The blocks the kernel's input windows hand the body at a grid point, read at an index, as entries of the
  arguments. Point `t` of the 4 × 16 grid works on batch `t / 16` and head `t % 16`: it sees that batch's tokens and
  mask bias, that head's slices of the three projection weights and of the output weight, and the whole bias, scale
  and shift vectors.
-/
import proofs.«144366_j37933151158411_2_alg».proof.Proof.KHost
import proofs.«144366_j37933151158411_2_alg».proof.Proof.Gen.KernelIdeal.Frame
import Idealize.ShloMosaic.Lib.ValueIdx
import Idealize.ShloMosaic.Lib.Pipeline.Value

set_option maxRecDepth 16384

noncomputable section

namespace Cert.KernelIdeal.KBlk

open Idealize.ShloMosaic Idealize.ShloMosaic.TcCoe
open Cert.KernelIdeal Cert.KernelIdeal.Gen ValueIdx

/-- The batch a grid point works on … -/
def bOf (t : Fin cfg0.N) : Fin 4 := ⟨t.val / 16, by have h : t.val < 64 := lt_of_lt_of_eq t.isLt N_0; omega⟩
/-- … and its head. -/
def hOf (t : Fin cfg0.N) : Fin 16 := ⟨t.val % 16, Nat.mod_lt _ (by decide)⟩

/-! ## The index maps over the grid -/

theorem idx0 : ∀ t : Fin cfg0.N, win0_0.index t (0 : Fin 3) = t.val / 16 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val % 16 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val % 16 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val % 16 ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val % 16 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 16 ∧ win0_5.index t (1 : Fin 3) = 0 ∧ win0_5.index t (2 : Fin 3) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 3) = t.val / 16 ∧ win0_9.index t (1 : Fin 3) = 0 ∧ win0_9.index t (2 : Fin 3) = 0 :=
  (by decide +kernel : ∀ t : Fin grid0.N, _)

variable (m : (ℓ : Loc nD τ sig) → Buf (Elt Ideal) ℓ) (c : Dev nD)

/-! ## The input blocks at a point -/

/-- The token block at point `t` is batch `t / 16` of the input. -/
theorem blk0 (t : Fin cfg0.N) (z : Fin 1) (l k : Fin 1024) :
    (iblk m c 0 t : S1x1024x1024.Idx → EReal) (ix3 z l k)
      = (m ((c.tc : Thread nD τ).loc main_arg0) : S4x1024x1024.Idx → EReal) (ix3 (bOf t) l k) := by
  obtain ⟨e0, e1, e2⟩ := idx0 t
  unfold iblk
  rw [View.read_apply]
  show V m c main_arg0 _ = _
  rw [V_main_arg0]
  refine congrArg (m ((c.tc : Thread nD τ).loc main_arg0) : S4x1024x1024.Idx → EReal) ?_
  funext a
  apply Fin.ext
  match a with
  | ⟨0, _⟩ => show win0_0.index t (0 : Fin 3) * 1 + 1 * z.val = t.val / 16; rw [e0]; omega
  | ⟨1, _⟩ => show win0_0.index t (1 : Fin 3) * 1024 + 1 * l.val = l.val; rw [e1]; omega
  | ⟨2, _⟩ => show win0_0.index t (2 : Fin 3) * 1024 + 1 * k.val = k.val; rw [e2]; omega

/-- The query-weight block at point `t` is head `t % 16`'s rows of slot 0 of the fused weight. -/
theorem blk1 (t : Fin cfg0.N) (z : Fin 1) (k : Fin 1024) (d : Fin 64) :
    (iblk m c 1 t : S1x1024x64.Idx → EReal) (ix3 z k d)
      = (m ((c.tc : Thread nD τ).loc main_arg2) : S3072x1024.Idx → EReal) (ix2 (Cert.Spec.row 0 (hOf t) d) k) := by
  obtain ⟨e0, e1, e2⟩ := idx1 t
  unfold iblk
  rw [View.read_apply]
  refine Eq.trans ?_ (KHost.V_v5 m c (hOf t) k d)
  show V m c main_v5 _ = V m c main_v5 _
  refine congrArg (V m c main_v5 : S16x1024x64.Idx → EReal) ?_
  funext a
  apply Fin.ext
  match a with
  | ⟨0, _⟩ => show win0_1.index t (0 : Fin 3) * 1 + 1 * z.val = t.val % 16; rw [e0]; omega
  | ⟨1, _⟩ => show win0_1.index t (1 : Fin 3) * 1024 + 1 * k.val = k.val; rw [e1]; omega
  | ⟨2, _⟩ => show win0_1.index t (2 : Fin 3) * 64 + 1 * d.val = d.val; rw [e2]; omega

/-- The key-weight block at point `t` is head `t % 16`'s rows of slot 1 of the fused weight. -/
theorem blk2 (t : Fin cfg0.N) (z : Fin 1) (k : Fin 1024) (d : Fin 64) :
    (iblk m c 2 t : S1x1024x64.Idx → EReal) (ix3 z k d)
      = (m ((c.tc : Thread nD τ).loc main_arg2) : S3072x1024.Idx → EReal) (ix2 (Cert.Spec.row 1 (hOf t) d) k) := by
  obtain ⟨e0, e1, e2⟩ := idx2 t
  unfold iblk
  rw [View.read_apply]
  refine Eq.trans ?_ (KHost.V_v8 m c (hOf t) k d)
  show V m c main_v8 _ = V m c main_v8 _
  refine congrArg (V m c main_v8 : S16x1024x64.Idx → EReal) ?_
  funext a
  apply Fin.ext
  match a with
  | ⟨0, _⟩ => show win0_2.index t (0 : Fin 3) * 1 + 1 * z.val = t.val % 16; rw [e0]; omega
  | ⟨1, _⟩ => show win0_2.index t (1 : Fin 3) * 1024 + 1 * k.val = k.val; rw [e1]; omega
  | ⟨2, _⟩ => show win0_2.index t (2 : Fin 3) * 64 + 1 * d.val = d.val; rw [e2]; omega

/-- The value-weight block at point `t` is head `t % 16`'s rows of slot 2 of the fused weight. -/
theorem blk3 (t : Fin cfg0.N) (z : Fin 1) (k : Fin 1024) (d : Fin 64) :
    (iblk m c 3 t : S1x1024x64.Idx → EReal) (ix3 z k d)
      = (m ((c.tc : Thread nD τ).loc main_arg2) : S3072x1024.Idx → EReal) (ix2 (Cert.Spec.row 2 (hOf t) d) k) := by
  obtain ⟨e0, e1, e2⟩ := idx3 t
  unfold iblk
  rw [View.read_apply]
  refine Eq.trans ?_ (KHost.V_v11 m c (hOf t) k d)
  show V m c main_v11 _ = V m c main_v11 _
  refine congrArg (V m c main_v11 : S16x1024x64.Idx → EReal) ?_
  funext a
  apply Fin.ext
  match a with
  | ⟨0, _⟩ => show win0_3.index t (0 : Fin 3) * 1 + 1 * z.val = t.val % 16; rw [e0]; omega
  | ⟨1, _⟩ => show win0_3.index t (1 : Fin 3) * 1024 + 1 * k.val = k.val; rw [e1]; omega
  | ⟨2, _⟩ => show win0_3.index t (2 : Fin 3) * 64 + 1 * d.val = d.val; rw [e2]; omega

/-- The output-weight block at point `t` is head `t % 16`'s columns of the output weight. -/
theorem blk4 (t : Fin cfg0.N) (z : Fin 1) (d : Fin 64) (n : Fin 1024) :
    (iblk m c 4 t : S1x64x1024.Idx → EReal) (ix3 z d n)
      = (m ((c.tc : Thread nD τ).loc main_arg3) : S1024x1024.Idx → EReal) (ix2 n (Cert.Spec.col (hOf t) d)) := by
  obtain ⟨e0, e1, e2⟩ := idx4 t
  unfold iblk
  rw [View.read_apply]
  refine Eq.trans ?_ (KHost.V_v14 m c (hOf t) d n)
  show V m c main_v14 _ = V m c main_v14 _
  refine congrArg (V m c main_v14 : S16x64x1024.Idx → EReal) ?_
  funext a
  apply Fin.ext
  match a with
  | ⟨0, _⟩ => show win0_4.index t (0 : Fin 3) * 1 + 1 * z.val = t.val % 16; rw [e0]; omega
  | ⟨1, _⟩ => show win0_4.index t (1 : Fin 3) * 64 + 1 * d.val = d.val; rw [e1]; omega
  | ⟨2, _⟩ => show win0_4.index t (2 : Fin 3) * 1024 + 1 * n.val = n.val; rw [e2]; omega

/-- The mask-bias block at point `t` is batch `t / 16`'s: zero at a kept key, minus infinity at a masked one. -/
theorem blk5 (t : Fin cfg0.N) (z : Fin 1) (z' : Fin 1) (j : Fin 1024) :
    (iblk m c 5 t : S1x1x1024.Idx → EReal) (ix3 z z' j)
      = if (m ((c.tc : Thread nD τ).loc main_arg1) : IVec S4x1024 1) (ix2 (bOf t) j) = 1#1 then Cert.Spec.zero else Cert.Spec.ninf := by
  obtain ⟨e0, e1, e2⟩ := idx5 t
  unfold iblk
  rw [View.read_apply]
  refine Eq.trans ?_ (KHost.V_v17 m c (bOf t) z' j)
  show V m c main_v17 _ = V m c main_v17 _
  refine congrArg (V m c main_v17 : S4x1x1024.Idx → EReal) ?_
  funext a
  apply Fin.ext
  match a with
  | ⟨0, _⟩ => show win0_5.index t (0 : Fin 3) * 1 + 1 * z.val = t.val / 16; rw [e0]; omega
  | ⟨1, _⟩ => show win0_5.index t (1 : Fin 3) * 1 + 1 * z'.val = z'.val; rw [e1]; omega
  | ⟨2, _⟩ => show win0_5.index t (2 : Fin 3) * 1024 + 1 * j.val = j.val; rw [e2]; omega

/-- The output bias is seen whole at every point. -/
theorem blk6 (t : Fin cfg0.N) (n : Fin 1024) :
    (iblk m c 6 t : S1024.Idx → EReal) (ix1 n)
      = (m ((c.tc : Thread nD τ).loc main_arg4) : S1024.Idx → EReal) (ix1 n) := by
  have e0 := idx6 t
  unfold iblk
  rw [View.read_apply]
  show V m c main_arg4 _ = _
  rw [V_main_arg4]
  refine congrArg (m ((c.tc : Thread nD τ).loc main_arg4) : S1024.Idx → EReal) ?_
  funext a
  apply Fin.ext
  match a with
  | ⟨0, _⟩ => show win0_6.index t (0 : Fin 1) * 1024 + 1 * n.val = n.val; rw [e0]; omega

/-- The layer norm's scale is seen whole at every point. -/
theorem blk7 (t : Fin cfg0.N) (n : Fin 1024) :
    (iblk m c 7 t : S1024.Idx → EReal) (ix1 n)
      = (m ((c.tc : Thread nD τ).loc main_arg5) : S1024.Idx → EReal) (ix1 n) := by
  have e0 := idx7 t
  unfold iblk
  rw [View.read_apply]
  show V m c main_arg5 _ = _
  rw [V_main_arg5]
  refine congrArg (m ((c.tc : Thread nD τ).loc main_arg5) : S1024.Idx → EReal) ?_
  funext a
  apply Fin.ext
  match a with
  | ⟨0, _⟩ => show win0_7.index t (0 : Fin 1) * 1024 + 1 * n.val = n.val; rw [e0]; omega

/-- The layer norm's shift is seen whole at every point. -/
theorem blk8 (t : Fin cfg0.N) (n : Fin 1024) :
    (iblk m c 8 t : S1024.Idx → EReal) (ix1 n)
      = (m ((c.tc : Thread nD τ).loc main_arg6) : S1024.Idx → EReal) (ix1 n) := by
  have e0 := idx8 t
  unfold iblk
  rw [View.read_apply]
  show V m c main_arg6 _ = _
  rw [V_main_arg6]
  refine congrArg (m ((c.tc : Thread nD τ).loc main_arg6) : S1024.Idx → EReal) ?_
  funext a
  apply Fin.ext
  match a with
  | ⟨0, _⟩ => show win0_8.index t (0 : Fin 1) * 1024 + 1 * n.val = n.val; rw [e0]; omega

/-! ## The output window -/

/-- An index of the result lies in point `t`'s output block exactly when each coordinate is in the block's range. -/
theorem mem_blk9 (t : Fin cfg0.N) (i : S4x1024x1024.Idx) :
    i ∈ ((cfg0.win 9).blk t).view.set ↔ ∀ a : Fin 3, win0_9.index t a * S1x1024x1024.size a ≤ (i a).val
      ∧ (i a).val < win0_9.index t a * S1x1024x1024.size a + S1x1024x1024.size a := by
  show i ∈ ((View.whole main_v18).slice (win0_9.rect t)).set ↔ _
  rw [View.set_slice_whole, Rect.mem_set_unit]
  exact Iff.rfl

/-- Every index of the result is written back by the last point of its batch, `16 * b + 15`. -/
theorem cover9 (i : S4x1024x1024.Idx) :
    ∃ t : Fin cfg0.N, (cfg0.win 9).flush t = true ∧ i ∈ ((cfg0.win 9).blk t).view.set := by
  have hi0 : (i 0).val < 4 := (i 0).isLt
  have hi1 : (i 1).val < 1024 := (i 1).isLt
  have hi2 : (i 2).val < 1024 := (i 2).isLt
  have ht : 16 * (i 0).val + 15 < cfg0.N := lt_of_lt_of_eq (by omega : 16 * (i 0).val + 15 < 64) N_0.symm
  obtain ⟨e0, e1, e2⟩ := idx9 ⟨16 * (i 0).val + 15, ht⟩
  refine ⟨⟨16 * (i 0).val + 15, ht⟩, (flush0_9 _).mpr (by show (16 * (i 0).val + 15) % 16 = 15; omega), ?_⟩
  rw [mem_blk9]
  intro a
  match a with
  | ⟨0, _⟩ =>
    show win0_9.index ⟨16 * (i 0).val + 15, ht⟩ (0 : Fin 3) * 1 ≤ (i 0).val
      ∧ (i 0).val < win0_9.index ⟨16 * (i 0).val + 15, ht⟩ (0 : Fin 3) * 1 + 1
    rw [e0]
    show (16 * (i 0).val + 15) / 16 * 1 ≤ (i 0).val ∧ (i 0).val < (16 * (i 0).val + 15) / 16 * 1 + 1
    omega
  | ⟨1, _⟩ =>
    show win0_9.index ⟨16 * (i 0).val + 15, ht⟩ (1 : Fin 3) * 1024 ≤ (i 1).val
      ∧ (i 1).val < win0_9.index ⟨16 * (i 0).val + 15, ht⟩ (1 : Fin 3) * 1024 + 1024
    rw [e1]
    omega
  | ⟨2, _⟩ =>
    show win0_9.index ⟨16 * (i 0).val + 15, ht⟩ (2 : Fin 3) * 1024 ≤ (i 2).val
      ∧ (i 2).val < win0_9.index ⟨16 * (i 0).val + 15, ht⟩ (2 : Fin 3) * 1024 + 1024
    rw [e2]
    omega

/-- A staged block that holds batch `t / 16` of a function of the result's indices is, as written back at point `t`,
    that function read through the point's output block. -/
theorem cut9_eq_read (t : Fin cfg0.N) (Y : Vec Ideal S1x1024x1024 .f32) (G : S4x1024x1024.Idx → EReal)
    (hY : ∀ (l n : Fin 1024), Y (ix3 0 l n) = G (ix3 (bOf t) l n)) :
    (cfg0.win 9).cut (grid0.coords t) Y = ((cfg0.win 9).blk t).view.read (Elt Ideal) G := by
  obtain ⟨e0, e1, e2⟩ := idx9 t
  funext j
  rw [View.read_apply]
  show Y j = G (((cfg0.win 9).blk t).view.emb j)
  have hj0 : (j 0).val < 1 := (j 0).isLt
  have hj : j = ix3 0 (j 1) (j 2) := by
    funext a
    match a with
    | ⟨0, _⟩ => exact Fin.ext (by show (j 0).val = 0; omega)
    | ⟨1, _⟩ => rfl
    | ⟨2, _⟩ => rfl
  refine (congrArg Y hj).trans ((hY (j 1) (j 2)).trans (congrArg G ?_))
  funext a
  apply Fin.ext
  match a with
  | ⟨0, _⟩ => show t.val / 16 = win0_9.index t (0 : Fin 3) * 1 + 1 * (j 0).val; rw [e0]; omega
  | ⟨1, _⟩ => show (j 1).val = win0_9.index t (1 : Fin 3) * 1024 + 1 * (j 1).val; rw [e1]; omega
  | ⟨2, _⟩ => show (j 2).val = win0_9.index t (2 : Fin 3) * 1024 + 1 * (j 2).val; rw [e2]; omega

end Cert.KernelIdeal.KBlk
-- ==== Proof.SpecAlg.lean ====
/-
  The kernel's arrangement of the computation and the specification's are one function.

  Three facts join them. The score scale: multiplying the query by 1/8 before the dot product with the key equals
  multiplying the dot product by 1/8 — products commute and associate on the extended reals, and a sum distributes
  over a factor that is a non-negative real. The mask: adding 0 keeps a score, adding `-∞` makes it `-∞`. The heads:
  the running sum `(0 + C₀) + C₁ + … + C₁₅` of the heads' contributions, each a sum over the head's 64 lanes, is the
  sum over the 1024 joined features `e = h*64 + d`.
-/
import proofs.«144366_j37933151158411_2_alg».proof.Proof.KSpec
import Idealize.ShloMosaic.PureOps.Ideal.Laws

noncomputable section

open scoped BigOperators

namespace Cert.SpecAlg

open Idealize.ShloMosaic Cert.Spec Cert.KSpec

theorem c8_eq : c8 = ((0.125 : ℝ) : EReal) := by
  simp [Ideal.ofBits, Ideal.ieee, -EReal.coe_mul]; norm_num
theorem c8_nonneg : (0 : EReal) ≤ c8 := by
  rw [c8_eq]; exact_mod_cast (by norm_num : (0 : ℝ) ≤ 0.125)
theorem c8_ne_top : c8 ≠ ⊤ := by rw [c8_eq]; exact EReal.coe_ne_top _
theorem zero_eq : zero = 0 := Ideal.ofBits_zero_f32
theorem ninf_eq : ninf = ⊥ := by simp [Ideal.ofBits, Ideal.ieee]

/-- A sum of terms each times 1/8 is the sum times 1/8. -/
theorem sum_mul_c8 {ι : Type} (s : Finset ι) (f : ι → EReal) : ∑ d ∈ s, f d * c8 = (∑ d ∈ s, f d) * c8 := by
  classical
  induction s using Finset.induction_on with
  | empty => simp
  | insert a s ha ih =>
    rw [Finset.sum_insert ha, Finset.sum_insert ha, ih, EReal.right_distrib_of_nonneg_of_ne_top c8_nonneg c8_ne_top]

section
variable (x : Fin 4 → Fin 1024 → Fin 1024 → EReal) (mask : Fin 4 → Fin 1024 → BitVec 1)
  (wqkv : Fin 3072 → Fin 1024 → EReal) (wout : Fin 1024 → Fin 1024 → EReal) (bout gamma beta : Fin 1024 → EReal)

/-- The blocks a grid point (batch `b`, head `h`) works on. -/
abbrev X (b : Fin 4) : Fin 1024 → Fin 1024 → EReal := fun l c => x b l c
abbrev W (s : Fin 3) (h : Fin 16) : Fin 1024 → Fin 64 → EReal := fun c d => wqkv (row s h d) c
abbrev Wo (h : Fin 16) : Fin 64 → Fin 1024 → EReal := fun d n => wout n (col h d)
abbrev mb (b : Fin 4) : Fin 1024 → EReal := fun j => if mask b j = 1#1 then zero else ninf

theorem sc_eq (b : Fin 4) (h : Fin 16) (i j : Fin 1024) :
    sc (X x b) (W wqkv 0 h) (W wqkv 1 h) (mb mask b) i j = score x mask wqkv b h i j := by
  unfold sc score pr proj
  dsimp only [mb, X, W]
  by_cases hm : mask b j = 1#1
  · rw [if_pos hm, if_pos hm, zero_eq, add_zero, ← sum_mul_c8]
    exact Finset.sum_congr rfl fun d _ => mul_right_comm _ _ _
  · rw [if_neg hm, if_neg hm, ninf_eq]
    exact EReal.add_bot _

theorem hd_eq (b : Fin 4) (h : Fin 16) (i : Fin 1024) (d : Fin 64) :
    hd (X x b) (W wqkv 0 h) (W wqkv 1 h) (W wqkv 2 h) (mb mask b) i d = attn x mask wqkv b h i d := by
  unfold hd attn
  have hs : sc (X x b) (W wqkv 0 h) (W wqkv 1 h) (mb mask b) i = score x mask wqkv b h i := funext (sc_eq x mask wqkv b h i)
  rw [hs]
  rfl

/-- The head's contribution, in the specification's terms. -/
theorem contrib_eq (b : Fin 4) (h : Fin 16) (l n : Fin 1024) :
    contrib (X x b) (W wqkv 0 h) (W wqkv 1 h) (W wqkv 2 h) (Wo wout h) (mb mask b) l n
      = ∑ d : Fin 64, attn x mask wqkv b h l d * wout n (col h d) := by
  unfold contrib
  exact Finset.sum_congr rfl fun d _ => by rw [hd_eq]

end

/-- The running sum after head `h`: from the zero block, one head at a time. -/
def accK (C : Fin 16 → EReal) : (h : ℕ) → h < 16 → EReal
  | 0, hh => zero + C ⟨0, hh⟩
  | h + 1, hh => accK C h (Nat.lt_of_succ_lt hh) + C ⟨h + 1, hh⟩

theorem accK_eq (C : Fin 16 → EReal) : ∀ (h : ℕ) (hh : h < 16),
    accK C h hh = ∑ k : Fin (h + 1), C ⟨k.val, by have := k.isLt; omega⟩
  | 0, hh => by
    rw [accK, zero_eq, zero_add, Fin.sum_univ_one]
    rfl
  | h + 1, hh => by
    rw [accK, accK_eq C h (Nat.lt_of_succ_lt hh)]
    conv_rhs => rw [Fin.sum_univ_castSucc]
    rfl

theorem accK_last (C : Fin 16 → EReal) : accK C 15 (by decide) = ∑ k : Fin 16, C k := by
  rw [accK_eq]

/-- A sum over 16 heads of sums over 64 lanes is the sum over the 1024 joined features. -/
theorem sum_heads_lanes (f : Fin 16 → Fin 64 → EReal) :
    ∑ h : Fin 16, ∑ d : Fin 64, f h d = ∑ e : Fin 1024, f (headOf e) (laneOf e) := by
  rw [← Fintype.sum_prod_type']
  refine Fintype.sum_equiv (finProdFinEquiv (m := 16) (n := 64)) _ _ fun p => ?_
  obtain ⟨h, d⟩ := p
  have e1 : headOf (finProdFinEquiv (h, d)) = h := Fin.ext (by
    show (d.val + 64 * h.val) / 64 = h.val
    have := d.isLt; omega)
  have e2 : laneOf (finProdFinEquiv (h, d)) = d := Fin.ext (by
    show (d.val + 64 * h.val) % 64 = d.val
    have := d.isLt; omega)
  show f h d = f (headOf (finProdFinEquiv (h, d))) (laneOf (finProdFinEquiv (h, d)))
  rw [e1, e2]

section
variable (x : Fin 4 → Fin 1024 → Fin 1024 → EReal) (mask : Fin 4 → Fin 1024 → BitVec 1)
  (wqkv : Fin 3072 → Fin 1024 → EReal) (wout : Fin 1024 → Fin 1024 → EReal) (bout gamma beta : Fin 1024 → EReal)

/-- The result in the kernel's arrangement: the layer norm of the 16 heads' running sum plus the bias. -/
def KG (b : Fin 4) (l n : Fin 1024) : EReal :=
  lnorm gamma beta (fun n' => accK (fun h => contrib (X x b) (W wqkv 0 h) (W wqkv 1 h) (W wqkv 2 h) (Wo wout h)
    (mb mask b) l n') 15 (by decide) + bout n') n

theorem col_head_lane (e : Fin 1024) : col (headOf e) (laneOf e) = e :=
  Fin.ext (by show e.val / 64 * 64 + e.val % 64 = e.val; omega)

theorem KG_eq_G (b : Fin 4) (l n : Fin 1024) :
    KG x mask wqkv wout bout gamma beta b l n = G x mask wqkv wout bout gamma beta b l n := by
  unfold KG G
  refine congrArg (fun f => lnorm gamma beta f n) ?_
  funext n'
  unfold lin
  refine congrArg (· + bout n') ?_
  rw [accK_last]
  have hc : (fun h : Fin 16 => contrib (X x b) (W wqkv 0 h) (W wqkv 1 h) (W wqkv 2 h) (Wo wout h) (mb mask b) l n')
      = fun h => ∑ d : Fin 64, attn x mask wqkv b h l d * wout n' (col h d) :=
    funext fun h => contrib_eq x mask wqkv wout b h l n'
  rw [hc, sum_heads_lanes (fun h d => attn x mask wqkv b h l d * wout n' (col h d))]
  exact Finset.sum_congr rfl fun e _ => by rw [col_head_lane]

end

end Cert.SpecAlg

end
-- ==== Proof.KFinal.lean ====
/-
  The kernel's program ends with the specified array.

  At a grid point (batch `b`, head `h`) the running sum gains the head's contribution, which is the kernel-shaped
  per-head function of the point's blocks — and those blocks are the arguments' rows and columns for that batch and
  head. So after head `h` the scratch block holds, at `(l, n)`, `0 + C b 0 l n + … + C b h l n`; the last head of
  the batch writes the layer norm of that sum plus the bias into block `b` of the result, and the four batches' last
  heads cover the result array. The kernel-shaped form equals the specification (the algebra module).
-/
import proofs.«144366_j37933151158411_2_alg».proof.Proof.KAcc
import proofs.«144366_j37933151158411_2_alg».proof.Proof.KPayA
import proofs.«144366_j37933151158411_2_alg».proof.Proof.KPayB
import proofs.«144366_j37933151158411_2_alg».proof.Proof.KBlk
import proofs.«144366_j37933151158411_2_alg».proof.Proof.SpecAlg
import proofs.«144366_j37933151158411_2_alg».proof.Proof.KResult
import proofs.«144366_j37933151158411_2_alg».proof.Proof.Gen.KernelIdeal.Value

noncomputable section

open scoped BigOperators

open Idealize.ShloMosaic Idealize.ShloMosaic.TcCoe Idealize.SL.Sem Idealize.ShloMosaic.ValueIdx
open Idealize.ShloMosaic.Pipeline (Dat)

namespace Cert.KernelIdeal.KFinal

open Cert.KernelIdeal Cert.KernelIdeal.Gen Cert.KernelIdeal.KAcc Cert.KernelIdeal.KPay Cert.KernelIdeal.KBlk
open Cert.KernelIdeal.KResult

/-- One more head, at an entry: the block's entry plus the head's contribution there. -/
theorem step_apply (x0 : FVec Ideal S1x1024x1024 .f32) (x1 x2 x3 : FVec Ideal S1x1024x64 .bf16)
    (x4 : FVec Ideal S1x64x1024 .bf16) (x5 : FVec Ideal S1x1x1024 .f32) (acc : FVec Ideal S1024x1024 .f32)
    (X : Fin 1024 → Fin 1024 → EReal) (Wq Wk Wv : Fin 1024 → Fin 64 → EReal) (Wo : Fin 64 → Fin 1024 → EReal)
    (mbv : Fin 1024 → EReal)
    (h0 : ∀ l k, x0 (ix3 (0 : Fin 1) l k) = X l k) (h1 : ∀ k d, x1 (ix3 (0 : Fin 1) k d) = Wq k d)
    (h2 : ∀ k d, x2 (ix3 (0 : Fin 1) k d) = Wk k d) (h3 : ∀ k d, x3 (ix3 (0 : Fin 1) k d) = Wv k d)
    (h4 : ∀ d n, x4 (ix3 (0 : Fin 1) d n) = Wo d n) (h5 : ∀ j, x5 (ix3 (0 : Fin 1) (0 : Fin 1) j) = mbv j)
    (l n : Fin 1024) :
    KBody.step (F := Ideal) x0 x1 x2 x3 x4 x5 acc (ix2 l n) = acc (ix2 l n) + Cert.KSpec.contrib X Wq Wk Wv Wo mbv l n := by
  unfold KBody.step
  rw [pay2_apply]
  refine congrArg (acc (ix2 l n) + ·) ?_
  unfold Cert.KSpec.contrib
  refine Finset.sum_congr rfl fun d _ => ?_
  rw [pay4_apply, h4]
  have e0 : (fun l c => x0 (ix3 (0 : Fin 1) l c)) = X := funext fun l => funext fun k => h0 l k
  have e1 : (fun c d => x1 (ix3 (0 : Fin 1) c d)) = Wq := funext fun k => funext fun d => h1 k d
  have e2 : (fun c d => x2 (ix3 (0 : Fin 1) c d)) = Wk := funext fun k => funext fun d => h2 k d
  have e3 : (fun c d => x3 (ix3 (0 : Fin 1) c d)) = Wv := funext fun k => funext fun d => h3 k d
  have e5 : (fun j => x5 (ix3 (0 : Fin 1) (0 : Fin 1) j)) = mbv := funext h5
  rw [e0, e1, e2, e3, e5]

/-- The stored output block at an entry: the layer norm of the finished sum's row plus the bias. -/
theorem out_apply (acc : FVec Ideal S1024x1024 .f32) (x6 x7 x8 : FVec Ideal S1024 .f32) (A bo g be : Fin 1024 → EReal)
    (l : Fin 1024) (hA : ∀ n', acc (ix2 l n') = A n') (h6 : ∀ n, x6 (ix1 n) = bo n) (h7 : ∀ n, x7 (ix1 n) = g n)
    (h8 : ∀ n, x8 (ix1 n) = be n) (z : Fin 1) (n : Fin 1024) :
    k0_pay3 (F := Ideal) acc x6 x7 x8 (ix3 z l n) = Cert.Spec.lnorm g be (fun n' => A n' + bo n') n := by
  rw [pay3_apply]
  have e7 : (fun n => x7 (ix1 n)) = g := funext h7
  have e8 : (fun n => x8 (ix1 n)) = be := funext h8
  have eA : (fun n' => acc (ix2 l n') + x6 (ix1 n')) = fun n' => A n' + bo n' := funext fun n' => by rw [hA, h6]
  rw [e7, e8, eA]

variable (m : (ℓ : Loc nD τ sig) → Buf (Elt Ideal) ℓ) (c : Dev nD)

/-- The contribution of head `h` of batch `b` at `(l, n)`, in the arguments' coordinates. -/
abbrev Cnt (b : Fin 4) (h : Fin 16) (l n : Fin 1024) : EReal :=
  Cert.KSpec.contrib (Cert.SpecAlg.X (ax m c) b) (Cert.SpecAlg.W (awqkv m c) 0 h) (Cert.SpecAlg.W (awqkv m c) 1 h)
    (Cert.SpecAlg.W (awqkv m c) 2 h) (Cert.SpecAlg.Wo (awout m c) h) (Cert.SpecAlg.mb (amask m c) b) l n

theorem hstep_apply (t : Fin cfg0.N) (acc : Vec Ideal S1024x1024 .f32) (l n : Fin 1024) :
    hstep m c t acc (ix2 l n) = acc (ix2 l n) + Cnt m c (bOf t) (hOf t) l n :=
  step_apply (iblk m c 0 t) (iblk m c 1 t) (iblk m c 2 t) (iblk m c 3 t) (iblk m c 4 t) (iblk m c 5 t) acc
    (Cert.SpecAlg.X (ax m c) (bOf t)) (Cert.SpecAlg.W (awqkv m c) 0 (hOf t)) (Cert.SpecAlg.W (awqkv m c) 1 (hOf t))
    (Cert.SpecAlg.W (awqkv m c) 2 (hOf t)) (Cert.SpecAlg.Wo (awout m c) (hOf t)) (Cert.SpecAlg.mb (amask m c) (bOf t))
    (blk0 m c t 0) (blk1 m c t 0) (blk2 m c t 0) (blk3 m c t 0) (blk4 m c t 0) (blk5 m c t 0 0) l n

theorem accv_congr (n n' : ℕ) (h : n < cfg0.N) (h' : n' < cfg0.N) (e : n = n') : accv m c n h = accv m c n' h' := by
  subst e; rfl

/-- After head `h` of batch `b` the running sum holds the zero block plus the contributions of heads 0 … h. -/
theorem accv_apply (b : Fin 4) (l n : Fin 1024) : ∀ (h : ℕ) (hh : h < 16) (hlt : 16 * b.val + h < cfg0.N),
    accv m c (16 * b.val + h) hlt (ix2 l n) = Cert.SpecAlg.accK (fun h' => Cnt m c b h' l n) h hh
  | 0, hh, hlt => by
    have eb : bOf ⟨16 * b.val + 0, hlt⟩ = b := Fin.ext (by show (16 * b.val + 0) / 16 = b.val; omega)
    have eh : hOf ⟨16 * b.val + 0, hlt⟩ = ⟨0, hh⟩ := Fin.ext (by show (16 * b.val + 0) % 16 = 0; omega)
    rw [accv_first m c _ hlt (by omega), hstep_apply, pay1_apply, Cert.SpecAlg.accK, eb, eh]
  | h + 1, hh, hlt => by
    have eb : bOf ⟨16 * b.val + h + 1, hlt⟩ = b := Fin.ext (by show (16 * b.val + h + 1) / 16 = b.val; omega)
    have eh : hOf ⟨16 * b.val + h + 1, hlt⟩ = ⟨h + 1, hh⟩ := Fin.ext (by show (16 * b.val + h + 1) % 16 = h + 1; omega)
    have hn := accv_next m c (16 * b.val + h) hlt (by omega)
    show accv m c (16 * b.val + h + 1) hlt (ix2 l n) = _
    rw [hn, hstep_apply, accv_apply b l n h (Nat.lt_of_succ_lt hh) (Nat.lt_of_succ_lt hlt), Cert.SpecAlg.accK, eb, eh]

/-- What a batch's last head writes back is the specified result read through the batch's block. -/
theorem flushed_eq (t : Fin cfg0.N) (hf : (cfg0.win 9).flush t = true) :
    (dats m 0 c).flushed 9 t = ((cfg0.win 9).blk t).view.read (Elt Ideal) (result m c) := by
  have h1 : t.val % 16 = 15 := (flush0_9 t).mp hf
  have hN : cfg0.N = 64 := N_0
  have hlt : 16 * (bOf t).val + 15 < cfg0.N := by
    have := t.isLt; show 16 * (t.val / 16) + 15 < cfg0.N; omega
  have ht : t.val = 16 * (bOf t).val + 15 := by show t.val = 16 * (t.val / 16) + 15; omega
  rw [flushed_last m c t h1]
  refine cut9_eq_read t _ (result m c) fun l n => ?_
  refine (out_apply (accv m c t.val t.isLt) (iblk m c 6 t) (iblk m c 7 t) (iblk m c 8 t)
    (fun n' => Cert.SpecAlg.accK (fun h' => Cnt m c (bOf t) h' l n') 15 (by decide)) (about m c) (agamma m c) (abeta m c) l
    (fun n' => by rw [accv_congr m c t.val _ t.isLt hlt ht]; exact accv_apply m c (bOf t) l n' 15 (by decide) hlt)
    (blk6 m c t) (blk7 m c t) (blk8 m c t) 0 n).trans ?_
  exact Cert.SpecAlg.KG_eq_G (ax m c) (amask m c) (awqkv m c) (awout m c) (about m c) (agamma m c) (abeta m c) (bOf t) l n

/-- The result array after the run is the specified one: the four batches' last heads cover it. -/
theorem final : (dats m 0 c).arrAt 9 cfg0.N = result m c :=
  (dats m 0 c).arrAt_eq_of_cover 9 (result m c) (flushed_eq m c) cover9

/-- The run, read: the result array is the specified function of the arguments, which end unchanged. -/
theorem run (ρ : Dev nD → PrngReg) :
    θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.KFinal

end
-- ==== Proof.Assemble.lean ====
/-
  The certificate's five claims, assembled.

  The two kernel programs run and leave their arguments unchanged (their frames); the reference does too (its run, with
  the statement about its result dropped); no operation was rewritten between the kernel as printed and its reading over
  the extended reals, so there is nothing to preserve; and over the extended reals, from memories that agree on the seven
  arguments, the kernel's result array and the reference's are the same array: entry (b, l, n) of each is the
  specification's function `G` of the arguments — the layer norm of the output projection of the attention heads — the
  kernel's by its final run, the reference's by its run followed by the reading of its result term at an index.
-/
import proofs.«144366_j37933151158411_2_alg».proof.Defs
import proofs.«144366_j37933151158411_2_alg».proof.Proof.Gen.Kernel.Frame
import proofs.«144366_j37933151158411_2_alg».proof.Proof.Gen.KernelIdeal.Frame
import proofs.«144366_j37933151158411_2_alg».proof.Proof.Gen.ReferenceIdeal
import proofs.«144366_j37933151158411_2_alg».proof.Proof.Gen.Pre_finite_inputs
import proofs.«144366_j37933151158411_2_alg».proof.Proof.RefRun
import proofs.«144366_j37933151158411_2_alg».proof.Proof.RefRead
import proofs.«144366_j37933151158411_2_alg».proof.Proof.KResult
import proofs.«144366_j37933151158411_2_alg».proof.Proof.KFinal

noncomputable section

namespace Cert.Proof.Claims

open Idealize.ShloMosaic Idealize.ShloMosaic.ValueIdx Idealize.SL.Sem

/-- The kernel as printed runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, keeping only what it says of the arguments. -/
theorem frame_ri : Cert.frame_ReferenceIdeal := fun m ρ _ =>
  (θ_run Cert.ReferenceIdeal.defs _ _).mono (fun _ h c => (h c).2) (Cert.ReferenceIdeal.RefRun.run (F := Ideal) m ρ)

/-- No operation of the kernel was rewritten for the reading over the extended reals. -/
theorem preserves : Cert.preserves_Kernel_KernelIdeal := trivial

/-- Over the extended reals, from memories agreeing on the arguments, both programs run and end with the same result
    array — on each device the specification's function of that device's arguments — and unchanged arguments. -/
theorem algebraic : Cert.algebraic_KernelIdeal_ReferenceIdeal := by
  intro m ρ m' ρ' _ hagree
  refine ⟨fun c => Cert.KernelIdeal.KResult.result m c, Cert.KernelIdeal.KFinal.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6⟩ := hagree c
  rw [e0, e1, e2, e3, e4, e5, e6]
  refine funext fun (i : Cert.ReferenceIdeal.S4x1024x1024.Idx) => ?_
  obtain ⟨b, l, n, rfl⟩ : ∃ (b : Fin 4) (l n : Fin 1024), i = ix3 b l n := ⟨i 0, i 1, i 2, eq_ix3 i⟩
  exact Cert.ReferenceIdeal.RefRead.out_apply _ _ _ _ _ _ _ b l n

end Cert.Proof.Claims

end
-- ==== Proof.lean ====
/-
  A fused multi-head attention layer, its output projection and the closing layer norm: the kernel against the plain
  array program.

  The arguments are a batch of 4 sequences of 1024 tokens of width 1024, a key mask, a fused query/key/value weight of
  3072 rows (slot, then head of 16, then lane of 64), an output weight with its bias, and the layer norm's scale and
  shift. The function both programs compute, `Cert.Spec.G` (Proof/Spec.lean), is, at entry (b, l, n): project each token
  onto each head's 64 query, key and value lanes; score query l against every key by the dot product over the lanes
  times 1/8, -∞ at a masked key; take the softmax of the row of scores; sum the values with those weights; join the 16
  heads' 64 lanes into 1024 features, apply the output weight and add the bias; and normalize the resulting row — subtract
  its mean, divide by the square root of its variance plus ε, scale and shift.

  The reference does exactly this on whole arrays: one product for the three projections, slices, reshapes and
  transposes to head-major, two batched products around a softmax, a transpose and reshape back, a product and the
  layer norm. The kernel visits the pairs (batch, head): at each it projects the batch's tokens onto that head's lanes,
  forms the head's softmax attention with the mask added to the scores as 0 or -∞, multiplies by the head's 64 columns of
  the output weight and adds the product to an accumulator carried over the 16 heads; after the last head it adds the
  bias and normalizes. The sum over the 1024 joined features is the sum over the heads of the sums over the lanes, which
  is what relates the two arrangements.

  Claimed and proved: each of the three programs runs to completion without fault and leaves its arguments unchanged; the
  kernel read over the extended reals is the kernel's own text (no operation was rewritten for that reading); and over
  the extended reals, from memories that agree on the arguments, the kernel's result and the reference's are the same
  array, entry by entry `G` of the arguments (Proof/Assemble.lean).
-/
import proofs.«144366_j37933151158411_2_alg».proof.Defs
import proofs.«144366_j37933151158411_2_alg».proof.Proof.Gen.Kernel
import proofs.«144366_j37933151158411_2_alg».proof.Proof.Gen.KernelIdeal
import proofs.«144366_j37933151158411_2_alg».proof.Proof.Gen.ReferenceIdeal
import proofs.«144366_j37933151158411_2_alg».proof.Proof.Gen.Pre_finite_inputs
import proofs.«144366_j37933151158411_2_alg».proof.Proof.Assemble

noncomputable section

namespace Cert.Proof

/-- The certificate's claim: the side conditions the programs state, then the five claims. -/
theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
